-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x4096 : Shape := ⟨2, ![8192, 4096]⟩
abbrev S256x256 : Shape := ⟨2, ![256, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8192x256 .f32) (main_arg1 : FVec F S8192x4096 .f32) (main_arg2 : FVec F S256x256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8192x256 : Shape := ⟨2, ![8192, 256]⟩
abbrev S8192x4096 : Shape := ⟨2, ![8192, 4096]⟩
abbrev S256x256 : Shape := ⟨2, ![256, 256]⟩
abbrev S256 : Shape := ⟨1, ![256]⟩
abbrev S8192x1 : Shape := ⟨2, ![8192, 1]⟩
abbrev S16x4096 : Shape := ⟨2, ![16, 4096]⟩
abbrev S512x4096 : Shape := ⟨2, ![512, 4096]⟩
abbrev S512x1 : Shape := ⟨2, ![512, 1]⟩
abbrev S8x4096 : Shape := ⟨2, ![8, 4096]⟩
abbrev S512 : Shape := ⟨1, ![512]⟩
abbrev S4096 : Shape := ⟨1, ![4096]⟩
abbrev S1x4096 : Shape := ⟨2, ![1, 4096]⟩
abbrev S8192 : Shape := ⟨1, ![8192]⟩
abbrev S_ : Shape := ⟨0, ![]⟩
abbrev S4096x1 : Shape := ⟨2, ![4096, 1]⟩
abbrev S4096x256 : Shape := ⟨2, ![4096, 256]⟩
abbrev S2048x1024 : Shape := ⟨2, ![2048, 1024]⟩
abbrev S1024x1 : Shape := ⟨2, ![1024, 1]⟩
abbrev S1024x256 : Shape := ⟨2, ![1024, 256]⟩
abbrev S2048x256 : Shape := ⟨2, ![2048, 256]⟩
abbrev S1x256 : Shape := ⟨2, ![1, 256]⟩
abbrev S2048x1 : Shape := ⟨2, ![2048, 1]⟩

abbrev nBuf : Space → Nat
  | .hbm => 45
  | .vmem => 27
  | .smem => 0
  | _ => 0

abbrev bufTy : (tb : Table) → Fin (tcTables nBuf tb) → BufTy
  | .hbm, ⟨0, _⟩ => ⟨S8192x256, .f32⟩
  | .hbm, ⟨1, _⟩ => ⟨S8192x4096, .f32⟩
  | .hbm, ⟨2, _⟩ => ⟨S256x256, .f32⟩
  | .hbm, ⟨3, _⟩ => ⟨S256, .f32⟩
  | .hbm, ⟨4, _⟩ => ⟨S8192x1, .f32⟩
  | .hbm, ⟨5, _⟩ => ⟨S16x4096, .f32⟩
  | .hbm, ⟨6, _⟩ => ⟨S8192x4096, .bf16⟩
  | .hbm, ⟨7, _⟩ => ⟨S8192, .f32⟩
  | .hbm, ⟨8, _⟩ => ⟨S1x4096, .f32⟩
  | .hbm, ⟨9, _⟩ => ⟨S4096, .f32⟩
  | .hbm, ⟨10, _⟩ => ⟨S1x4096, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S8192, .f32⟩
  | .hbm, ⟨15, _⟩ => ⟨S8192, .i1⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S4096, .f32⟩
  | .hbm, ⟨26, _⟩ => ⟨S4096, .i1⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S8192x1, .f32⟩
  | .hbm, ⟨38, _⟩ => ⟨S8192x256, .f32⟩
  | .hbm, ⟨39, _⟩ => ⟨S8192x256, .f32⟩
  | .hbm, ⟨40, _⟩ => ⟨S4096x1, .f32⟩
  | .hbm, ⟨41, _⟩ => ⟨S4096x256, .f32⟩
  | .hbm, ⟨42, _⟩ => ⟨S8192x1, .f32⟩
  | .hbm, ⟨43, _⟩ => ⟨S1x256, .f32⟩
  | .hbm, ⟨44, _⟩ => ⟨S8192x256, .f32⟩
  | .local _ .vmem, ⟨0, _⟩ => ⟨S512x4096, .f32⟩
  | .local _ .vmem, ⟨1, _⟩ => ⟨S512x4096, .f32⟩
  | .local _ .vmem, ⟨2, _⟩ => ⟨S512x1, .f32⟩
  | .local _ .vmem, ⟨3, _⟩ => ⟨S512x1, .f32⟩
  | .local _ .vmem, ⟨4, _⟩ => ⟨S8x4096, .f32⟩
  | .local _ .vmem, ⟨5, _⟩ => ⟨S8x4096, .f32⟩
  | .local _ .vmem, ⟨6, _⟩ => ⟨S512x4096, .bf16⟩
  | .local _ .vmem, ⟨7, _⟩ => ⟨S512x4096, .bf16⟩
  | .local _ .vmem, ⟨8, _⟩ => ⟨S2048x1024, .bf16⟩
  | .local _ .vmem, ⟨9, _⟩ => ⟨S2048x1024, .bf16⟩
  | .local _ .vmem, ⟨10, _⟩ => ⟨S8192x256, .f32⟩
  | .local _ .vmem, ⟨11, _⟩ => ⟨S1024x1, .f32⟩
  | .local _ .vmem, ⟨12, _⟩ => ⟨S1024x1, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S2048x1024, .bf16⟩
  | .local _ .vmem, ⟨17, _⟩ => ⟨S2048x1024, .bf16⟩
  | .local _ .vmem, ⟨18, _⟩ => ⟨S1024x256, .f32⟩
  | .local _ .vmem, ⟨19, _⟩ => ⟨S1024x256, .f32⟩
  | .local _ .vmem, ⟨20, _⟩ => ⟨S2048x1, .f32⟩
  | .local _ .vmem, ⟨21, _⟩ => ⟨S2048x1, .f32⟩
  | .local _ .vmem, ⟨22, _⟩ => ⟨S256x256, .f32⟩
  | .local _ .vmem, ⟨23, _⟩ => ⟨S1x256, .f32⟩
  | .local _ .vmem, ⟨24, _⟩ => ⟨S2048x256, .f32⟩
  | .local _ .vmem, ⟨25, _⟩ => ⟨S2048x256, .f32⟩
  | .local _ .vmem, ⟨26, _⟩ => ⟨S2048x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 4], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S2048x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S8x4096_S8x4096_0_0 : ∀ a, (![0, 0] : Fin 2 → Nat) a + S8x4096.size a ≤ S8x4096.size a
  h_S8x4096 : 0 < S8x4096.numel
  reduces_S512x4096_S4096 : S512x4096.Reduces [0] S4096
  shapeCasts_S4096_S1x4096 : S4096.ShapeCasts S1x4096
  shapeCasts_S8x4096_S8x4096 : S8x4096.ShapeCasts S8x4096
  shapeCasts_S1x4096_S1x4096 : S1x4096.ShapeCasts S1x4096
  broadcasts_S1x4096_S8x4096 : S1x4096.Broadcasts S8x4096
  shapeCasts_S8192x1_S8192 : S8192x1.ShapeCasts S8192
  slices_S16x4096_S1x4096_0_0 : S16x4096.Slices ![0, 0] S1x4096
  shapeCasts_S1x4096_S4096 : S1x4096.ShapeCasts S4096
  slices_S16x4096_S1x4096_8_0 : S16x4096.Slices ![8, 0] S1x4096
  bcast_S_S8192 : S_.BroadcastsInDim S8192 (![] : Fin 0 → Fin S8192.rank)
  bcast_S_S4096 : S_.BroadcastsInDim S4096 (![] : Fin 0 → Fin S4096.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  shapeCasts_S4096_S4096x1 : S4096.ShapeCasts S4096x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  h_S2048x256 : 0 < S2048x256.numel
  shapeCasts_S2048x256_S2048x256 : S2048x256.ShapeCasts S2048x256
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  shapeCasts_S8192_S8192x1 : S8192.ShapeCasts S8192x1
  shapeCasts_S256_S1x256 : S256.ShapeCasts S1x256
  inb_S2048x256_S2048x256_0_0 : ∀ a, (![0, 0] : Fin 2 → Nat) a + S2048x256.size a ≤ S2048x256.size a
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x256 : S2048x1.Broadcasts S2048x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  dot_S2048x1024_S2048x256_S1024x256_0_0_1_1_n_n_wf : DotDims.WF S2048x1024 S2048x256 S1024x256 [0] [0] [1] [1] [] []
  dot_S2048x1024_S1024x256_S2048x256_1_0_0_1_n_n_wf : DotDims.WF S2048x1024 S1024x256 S2048x256 [1] [0] [0] [1] [] []
  dot_S2048x256_S256x256_S2048x256_1_1_0_0_n_n_wf : DotDims.WF S2048x256 S256x256 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S16x4096.size a
  hwx0_2 : ∀ i : grid0.Coords, EltTy.bits .f32 = 32 ∨ (Rect.block (s := S16x4096) S8x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .bf16 = 32 ∨ (Rect.block (s := S8192x4096) S512x4096.size (cc0_transform_3 i) (hinb0_3 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x4096.size a
  hwx1_0 : ∀ i : grid1.Coords, EltTy.bits .bf16 = 32 ∨ (Rect.block (s := S8192x4096) S2048x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .f32 = 32 ∨ (Rect.block (s := S8192x256) S8192x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .f32 = 32 ∨ (Rect.block (s := S4096x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S4096x256.size a
  hwx1_3 : ∀ i : grid1.Coords, EltTy.bits .f32 = 32 ∨ (Rect.block (s := S4096x256) S1024x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x4096.size a
  hwx2_0 : ∀ i : grid2.Coords, EltTy.bits .bf16 = 32 ∨ (Rect.block (s := S8192x4096) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S4096x256.size a
  hwx2_1 : ∀ i : grid2.Coords, EltTy.bits .f32 = 32 ∨ (Rect.block (s := S4096x256) S1024x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S8192x1.size a
  hwx2_2 : ∀ i : grid2.Coords, EltTy.bits .f32 = 32 ∨ (Rect.block (s := S8192x1) S2048x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x256.size a ≤ S8192x256.size a
  hwx2_5 : ∀ i : grid2.Coords, EltTy.bits .f32 = 32 ∨ (Rect.block (s := S8192x256) S2048x256.size (cc2_transform_5 i) (hinb2_5 i)).WholeWords (EltTy.packing .f32)

variable [Facts₀]

def dot_S2048x1024_S2048x256_S1024x256_0_0_1_1_n_n : DotDims S2048x1024 S2048x256 S1024x256 where
  lhsContracting := [0]
  rhsContracting := [0]
  lhsNonContracting := [1]
  rhsNonContracting := [1]
  lhsBatch := []
  rhsBatch := []
  wf := dot_S2048x1024_S2048x256_S1024x256_0_0_1_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_2) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v0_2) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S2048x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x4096 : Shape := ⟨2, ![8192, 4096]⟩
abbrev S256x256 : Shape := ⟨2, ![256, 256]⟩
abbrev S256 : Shape := ⟨1, ![256]⟩
abbrev S_ : Shape := ⟨0, ![]⟩
abbrev S8192 : Shape := ⟨1, ![8192]⟩
abbrev S4096 : Shape := ⟨1, ![4096]⟩
abbrev S8192x1 : Shape := ⟨2, ![8192, 1]⟩
abbrev S4096x8192 : Shape := ⟨2, ![4096, 8192]⟩
abbrev S4096x256 : Shape := ⟨2, ![4096, 256]⟩
abbrev S4096x1 : Shape := ⟨2, ![4096, 1]⟩
abbrev S1x256 : Shape := ⟨2, ![1, 256]⟩

abbrev nBuf : Space → Nat
  | .hbm => 49
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x4096, .f32⟩
  | .hbm, ⟨2, _⟩ => ⟨S256x256, .f32⟩
  | .hbm, ⟨3, _⟩ => ⟨S256, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S4096, .f32⟩
  | .hbm, ⟨8, _⟩ => ⟨S_, .f32⟩
  | .hbm, ⟨9, _⟩ => ⟨S8192, .f32⟩
  | .hbm, ⟨10, _⟩ => ⟨S8192, .i1⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S4096, .f32⟩
  | .hbm, ⟨21, _⟩ => ⟨S4096, .i1⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S_, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S8192x1, .f32⟩
  | .hbm, ⟨33, _⟩ => ⟨S8192x256, .f32⟩
  | .hbm, ⟨34, _⟩ => ⟨S8192x256, .f32⟩
  | .hbm, ⟨35, _⟩ => ⟨S4096x8192, .f32⟩
  | .hbm, ⟨36, _⟩ => ⟨S4096x256, .f32⟩
  | .hbm, ⟨37, _⟩ => ⟨S4096x1, .f32⟩
  | .hbm, ⟨38, _⟩ => ⟨S4096x256, .f32⟩
  | .hbm, ⟨39, _⟩ => ⟨S4096x256, .f32⟩
  | .hbm, ⟨40, _⟩ => ⟨S8192x256, .f32⟩
  | .hbm, ⟨41, _⟩ => ⟨S8192x1, .f32⟩
  | .hbm, ⟨42, _⟩ => ⟨S8192x256, .f32⟩
  | .hbm, ⟨43, _⟩ => ⟨S8192x256, .f32⟩
  | .hbm, ⟨44, _⟩ => ⟨S256x256, .f32⟩
  | .hbm, ⟨45, _⟩ => ⟨S8192x256, .f32⟩
  | .hbm, ⟨46, _⟩ => ⟨S1x256, .f32⟩
  | .hbm, ⟨47, _⟩ => ⟨S8192x256, .f32⟩
  | .hbm, ⟨48, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_4 : Ref sig .tc := ⟨.hbm, 19, rfl⟩
abbrev main_v8 : Ref sig .tc := ⟨.hbm, 20, rfl⟩
abbrev main_v9 : Ref sig .tc := ⟨.hbm, 21, rfl⟩
abbrev main_cst_5 : Ref sig .tc := ⟨.hbm, 22, rfl⟩
abbrev main_v10 : Ref sig .tc := ⟨.hbm, 23, rfl⟩
abbrev main_v11 : Ref sig .tc := ⟨.hbm, 24, rfl⟩
abbrev main_cst_6 : Ref sig .tc := ⟨.hbm, 25, rfl⟩
abbrev main_v12 : Ref sig .tc := ⟨.hbm, 26, rfl⟩
abbrev main_v13 : Ref sig .tc := ⟨.hbm, 27, rfl⟩
abbrev main_cst_7 : Ref sig .tc := ⟨.hbm, 28, rfl⟩
abbrev main_call1_v0 : Ref sig .tc := ⟨.hbm, 29, rfl⟩
abbrev main_call1_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  reducesTo_S8192x4096_S4096_d0 : S8192x4096.ReducesTo [0] S4096
  bcast_S_S8192 : S_.BroadcastsInDim S8192 (![] : Fin 0 → Fin S8192.rank)
  bcast_S_S4096 : S_.BroadcastsInDim S4096 (![] : Fin 0 → Fin S4096.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S8192x4096_S4096x8192_1_0 : S8192x4096.Transposes [1, 0] S4096x8192
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  dot_S4096x8192_S8192x256_S4096x256_1_0_0_1_n_n_wf : DotDims.WF S4096x8192 S8192x256 S4096x256 [1] [0] [0] [1] [] []
  dot_S8192x4096_S4096x256_S8192x256_1_0_0_1_n_n_wf : DotDims.WF S8192x4096 S4096x256 S8192x256 [1] [0] [0] [1] [] []
  dot_S8192x256_S256x256_S8192x256_1_0_0_1_n_n_wf : DotDims.WF S8192x256 S256x256 S8192x256 [1] [0] [0] [1] [] []

variable [Facts₀]

def dot_S4096x8192_S8192x256_S4096x256_1_0_0_1_n_n : DotDims S4096x8192 S8192x256 S4096x256 where
  lhsContracting := [1]
  rhsContracting := [0]
  lhsNonContracting := [0]
  rhsNonContracting := [1]
  lhsBatch := []
  rhsBatch := []
  wf := dot_S4096x8192_S8192x256_S4096x256_1_0_0_1_n_n_wf
def dot_S8192x4096_S4096x256_S8192x256_1_0_0_1_n_n : DotDims S8192x4096 S4096x256 S8192x256 where
  lhsContracting := [1]
  rhsContracting := [0]
  lhsNonContracting := [0]
  rhsNonContracting := [1]
  lhsBatch := []
  rhsBatch := []
  wf := dot_S8192x4096_S4096x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.KRegion0.lean ====
import proofs.«116271_j23089744183324_2_alg».proof.Proof.Gen.Kernel.Launch
import proofs.«116271_j23089744183324_2_alg».proof.Proof.Gen.Kernel.Skeleton
import proofs.«116271_j23089744183324_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
# Region 0: row sums, column sums and a narrowed copy of the incidence matrix

The first kernel walks the 8192×4096 matrix in 16 row blocks of 512 rows, two groups of 8. At every block it writes
the block's row sums and a bf16 copy of the block; and it keeps, per group, a running 8×4096 accumulator of the
block's column sums (every one of its 8 rows the same): zero-filled at the first block of the group, increased at
every block, written back after the last.

This module gives, for any buffer contents `V` the region is entered from, the contents of every staging buffer
after the body at every point — the accumulator's by recursion on the point — and proves that the body run on
buffers holding what the schedule leaves there produces them.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the degree statistics, at the entry contents `V` -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point (it is fetched at every point; the block
    is whole), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is of a whole staging buffer -/

abbrev rIn : Rect S512x4096 := Rect.unit (s := S512x4096) ![0, 0] S512x4096.size inb_S512x4096_S512x4096_0_0
abbrev rRow : Rect S512x1 := Rect.unit (s := S512x1) ![0, 0] S512x1.size inb_S512x1_S512x1_0_0
abbrev rAcc : Rect S8x4096 := Rect.unit (s := S8x4096) ![0, 0] S8x4096.size inb_S8x4096_S8x4096_0_0

/-! ## The body's one branch: on the second grid coordinate being zero -/

/-- The condition of the body's `scf.if`, from the grid coordinates. -/
abbrev cond0 (i : grid0.Coords) : Prop :=
  (Scalar.cmpi .ne (Scalar.extui (Scalar.cmpi .eq (BitVec.ofNat 32 (i 1).val) 0#32)) 0#32) = 1#1

/-- It holds at the first point of each group of 8 — decided over the grid. -/
theorem hcond0 : ∀ t : Fin cfg0.N, cond0 (grid0.coords t) ↔ t.val % 8 = 0 :=
  (by decide +kernel : ∀ t : Fin grid0.N, cond0 (grid0.coords t) ↔ t.val % 8 = 0)

/-! ## What the body leaves in each output window's buffer, from the input block `x0` -/

/-- The row sums: one store of the whole buffer. -/
def out0_1 (x0 : Vec F S512x4096 .f32) : Vec F S512x1 .f32 :=
  View.canon [⟨rRow, k0_pay1 (View.ld x0 rIn)⟩]

/-- The narrowed copy: one store of the whole buffer. -/
def out0_3 (x0 : Vec F S512x4096 .f32) : Vec F S512x4096 .bf16 :=
  View.canon [⟨rIn, k0_pay2 (View.ld x0 rIn)⟩]

/-- The column-sum accumulator at the first point of a group: the zero fill, read back, plus the block's column sums
    (two stores of the whole buffer, the last first). -/
def out0_2A (x0 : Vec F S512x4096 .f32) : Vec F S8x4096 .f32 :=
  View.canon [⟨rAcc, k0_pay4 (View.ld x0 rIn) (View.ld (View.canon [⟨rAcc, k0_pay3 (F := F)⟩]) rAcc)⟩, ⟨rAcc, k0_pay3 (F := F)⟩]

/-- The accumulator at a later point of a group, found holding `xo`: `xo` plus the block's column sums. -/
def out0_2B (x0 : Vec F S512x4096 .f32) (xo : Vec F S8x4096 .f32) : Vec F S8x4096 .f32 :=
  View.canon [⟨rAcc, k0_pay4 (View.ld x0 rIn) (View.ld xo rAcc)⟩]

/-- A store of the whole buffer covers it. -/
theorem cover0_1 (p0 : Vec F S512x1 .f32) (y : S512x1.Idx) :
    ∃ pc ∈ ([⟨rRow, p0⟩] : List (View.Piece (Elt F) S512x1 .f32)), y ∈ pc.1.set :=
  View.cover_of_tiled [⟨rRow, p0⟩] S512x1.size (by rfl) y

theorem cover0_3 (p0 : Vec F S512x4096 .bf16) (y : S512x4096.Idx) :
    ∃ pc ∈ ([⟨rIn, p0⟩] : List (View.Piece (Elt F) S512x4096 .bf16)), y ∈ pc.1.set :=
  View.cover_of_tiled [⟨rIn, p0⟩] S512x4096.size (by rfl) y

theorem cover0_2 (p0 : Vec F S8x4096 .f32) (y : S8x4096.Idx) :
    ∃ pc ∈ ([⟨rAcc, p0⟩] : List (View.Piece (Elt F) S8x4096 .f32)), y ∈ pc.1.set :=
  View.cover_of_tiled [⟨rAcc, p0⟩] S8x4096.size (by rfl) y

theorem cover0_2' (p0 p1 : Vec F S8x4096 .f32) (y : S8x4096.Idx) :
    ∃ pc ∈ ([⟨rAcc, p0⟩, ⟨rAcc, p1⟩] : List (View.Piece (Elt F) S8x4096 .f32)), y ∈ pc.1.set := by
  obtain ⟨pc, hm, hy⟩ := cover0_2 p0 y
  exact ⟨pc, List.mem_cons.mpr (Or.inl (List.mem_singleton.mp hm)), hy⟩

/-! ## The body's triple, in its two cases -/

set_option maxHeartbeats 1000000 in
/-- At the first point of a group (the branch taken): on whole staging memrefs, the input's at `x0` and the outputs' at
    anything, the body runs to the continuation holding the input's as it was and each output's at its `out0_…`. -/
theorem sound_kernel0_A (c : Dev nD) (E : Set ℕ) (i : grid0.Coords)
    (arg2 : Memref sig .tc .vmem S512x4096 .f32) (harg2 : arg2.IsWhole)
    (arg3 : Memref sig .tc .vmem S512x1 .f32) (harg3 : arg3.IsWhole)
    (arg4 : Memref sig .tc .vmem S8x4096 .f32) (harg4 : arg4.IsWhole)
    (arg5 : Memref sig .tc .vmem S512x4096 .bf16) (harg5 : arg5.IsWhole)
    (hc : cond0 i)
    (x0 : Vec F S512x4096 .f32) (K : PUnit → sProp 𝕄) :
    iprop(owns (c : Thread nD τ) arg2 fullShare x0 ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare (out0_1 x0)
            ∗ owns (c : Thread nD τ) arg4 fullShare (out0_2A x0) ∗ owns (c : Thread nD τ) arg5 fullShare (out0_3 x0)) -∗ K ⟨⟩))
      ⊢ wp frame (wpE (defs₀ (F := F)) Variants.none c none) E (cc0__stats_kernel i arg2 harg2 arg3 harg3 arg4 harg4 arg5 harg5) K := by
  simp only [cc0__stats_kernel_eq_skeleton]; unfold cc0__stats_kernel_skel
  unfold owns
  iintro ⟨⟨%f0, %hf0, H0⟩, ⟨%d1, %f1, -, H1⟩, ⟨%d2, %f2, -, H2⟩, ⟨%d3, %f3, -, H3⟩, Hk⟩
  subst hf0
  sl_exec (disch := first | exact hc)
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  isplitl [H2]
  · iexists _; isplitr
    swap; · iexact H2
    ipureintro
    refine (View.read_writes_eq_canon _ _ _ (cover0_2' _ _)).trans ?_
    unfold out0_2A
    rw [← View.readCov_eq_canon_ld arg4.view [⟨rAcc, k0_pay3 (F := F)⟩] rAcc (cover0_2 _)]
    rfl
  iexists _; isplitr
  swap; · iexact H3
  ipureintro
  exact View.read_writes_eq_canon _ _ _ (cover0_3 _)

set_option maxHeartbeats 1000000 in
/-- At a later point of a group (the branch not taken): the same, the accumulator's buffer found at `xo`. -/
theorem sound_kernel0_B (c : Dev nD) (E : Set ℕ) (i : grid0.Coords)
    (arg2 : Memref sig .tc .vmem S512x4096 .f32) (harg2 : arg2.IsWhole)
    (arg3 : Memref sig .tc .vmem S512x1 .f32) (harg3 : arg3.IsWhole)
    (arg4 : Memref sig .tc .vmem S8x4096 .f32) (harg4 : arg4.IsWhole)
    (arg5 : Memref sig .tc .vmem S512x4096 .bf16) (harg5 : arg5.IsWhole)
    (hc : ¬cond0 i)
    (x0 : Vec F S512x4096 .f32) (xo : Vec F S8x4096 .f32) (K : PUnit → sProp 𝕄) :
    iprop(owns (c : Thread nD τ) arg2 fullShare x0 ∗ (∃ d, owns (c : Thread nD τ) arg3 fullShare d)
        ∗ owns (c : Thread nD τ) arg4 fullShare xo ∗ (∃ d, owns (c : Thread nD τ) arg5 fullShare d)
        ∗ (iprop(owns (c : Thread nD τ) arg2 fullShare x0 ∗ owns (c : Thread nD τ) arg3 fullShare (out0_1 x0)
            ∗ owns (c : Thread nD τ) arg4 fullShare (out0_2B x0 xo) ∗ owns (c : Thread nD τ) arg5 fullShare (out0_3 x0)) -∗ K ⟨⟩))
      ⊢ wp frame (wpE (defs₀ (F := F)) Variants.none c none) E (cc0__stats_kernel i arg2 harg2 arg3 harg3 arg4 harg4 arg5 harg5) K := by
  simp only [cc0__stats_kernel_eq_skeleton]; unfold cc0__stats_kernel_skel
  unfold owns
  iintro ⟨⟨%f0, %hf0, H0⟩, ⟨%d1, %f1, -, H1⟩, ⟨%f2, %hf2, H2⟩, ⟨%d3, %f3, -, H3⟩, Hk⟩
  subst hf0; subst hf2
  sl_exec (disch := first | exact hc)
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## What the accumulator holds after each point -/

/-- The column-sum accumulator's staging buffer after the body at position `n`: at the first point of a group the zero
    fill plus the block's column sums, at a later one what the point before left plus the block's column sums (the
    buffer is not written back in between). -/
def acc0 (c : Dev nD) : (n : ℕ) → n < cfg0.N → Vec F S8x4096 .f32
  | 0, hn => out0_2A (iblk0 V c 0 ⟨0, hn⟩)
  | n + 1, hn =>
    if (n + 1) % 8 = 0 then out0_2A (iblk0 V c 0 ⟨n + 1, hn⟩)
    else out0_2B (iblk0 V c 0 ⟨n + 1, hn⟩) (acc0 c n (Nat.lt_of_succ_lt hn))

/-- At the first point of a group. -/
theorem acc0_A (c : Dev nD) (t : Fin cfg0.N) (h0 : t.val % 8 = 0) :
    acc0 V c t.val t.isLt = out0_2A (iblk0 V c 0 t) := by
  obtain ⟨n, hn⟩ := t
  cases n with
  | zero => exact rfl
  | succ n => exact (if_pos h0).trans rfl

/-- At a later point of a group. -/
theorem acc0_B (c : Dev nD) (t : Fin cfg0.N) (h0 : ¬t.val % 8 = 0) :
    acc0 V c t.val t.isLt = out0_2B (iblk0 V c 0 t) (acc0 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of pipeline 0 on core `c`: the arrays as the region finds them; after the body at point `t` the
    input's buffer at its block, the row sums' and the copy's at `out0_1`, `out0_3` of the block, the accumulator's at
    `acc0`; the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => acc0 V c t.val t.isLt
    | ⟨3, _⟩ => out0_3 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = acc0 V c t.val t.isLt := by dsimp only [dat0]
theorem after0_3 (c : Dev nD) (t : Fin cfg0.N) : (dat0 V c).after 3 t = out0_3 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-- At a later point of a group the accumulator's current staging buffer holds what the body left at the point before:
    the point is not the first, the buffer was not written back in between (it is only at the last point of a group),
    the window is never idle and its block is whole. -/
theorem before0_2_B (c : Dev nD) (t : Fin cfg0.N) (h0 : ¬t.val % 8 = 0) (d) :
    (dat0 V c).before 2 t d = acc0 V c (t.val - 1) (Nat.lt_of_le_of_lt (Nat.sub_le _ _) t.isLt) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 800000 in
/-- The body at any point: the input's memref holds its block; the closed form of the branch condition says which case the
    point is in, and in the second the accumulator's memref holds what the point before left; so the case's triple applies.
    The invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val % 8 = 0
  · rw [acc0_A V c t h0]
    iintro ⟨HΦ, Ho, ⟨%d0, H0⟩, ⟨%d1, H1⟩, ⟨%d2, H2⟩, ⟨%d3, H3⟩⟩
    iapply (sound_kernel0_A c Set.univ (grid0.coords t) _ _ _ _ _ _ _ _ ((hcond0 t).mpr h0) (iblk0 V c 0 t) _)
    isplitl [H0]; · iexact H0
    isplitl [H1]; · iexists _; iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [acc0_B V c t h0]
    simp only [before0_2_B V c t h0]
    iintro ⟨HΦ, Ho, ⟨%d0, H0⟩, ⟨%d1, H1⟩, ⟨%d2, H2⟩, ⟨%d3, H3⟩⟩
    iapply (sound_kernel0_B c Set.univ (grid0.coords t) _ _ _ _ _ _ _ _ (fun h => h0 ((hcond0 t).mp h)) (iblk0 V c 0 t) _ _)
    isplitl [H0]; · iexact H0
    isplitl [H1]; · iexists _; iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends -/

/-- The invariant is the same at every point: entering and leaving the region are the identity on it. -/
theorem hin0 (c : Dev nD) : Pipeline.ΦA spec0 c ⊢ (dat0 V c).Φ 0 := by
  rw [show (dat0 V c).Φ 0 = Pipeline.ΦA spec0 c from rfl]

theorem hout0 (c : Dev nD) : (dat0 V c).Φ (Fin.last cfg0.N) ⊢ Pipeline.ΦA spec0 c := by
  rw [show (dat0 V c).Φ (Fin.last cfg0.N) = Pipeline.ΦA spec0 c from rfl]

/-- The shares are full and nothing is owed, literally. -/
example (c : Dev nD) := (dat0 V c).share_full fun _ => rfl
example (c : Dev nD) : ∀ t, (dat0 V c).owed t = 0 := fun _ => rfl

end Cert.Kernel.Hand

end
-- ==== Proof.KRegion1.lean ====
import proofs.«116271_j23089744183324_2_alg».proof.Proof.Gen.Kernel.Launch
import proofs.«116271_j23089744183324_2_alg».proof.Proof.Gen.Kernel.Skeleton
import proofs.«116271_j23089744183324_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the accumulation e = (Hᵀ · xs) · de over four row blocks

The grid has 4 × 4 points: the outer coordinate selects a block of 1024 columns of H (rows of the result), the inner
one a block of 2048 rows. At the first inner step the accumulator is zeroed; at every step the product of the step's
blocks is added to it; at the last inner step the accumulator, scaled row by row, is stored to the output block. -/

/-! ## The body's branch conditions, decided over the grid -/

/-- The first conditional of the body, from the grid coordinates: taken where the inner coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional: taken where the inner coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The output window is idle, and not written back, wherever the second conditional fails; live where it holds. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The body's accesses and what it computes -/

/-- The rectangles the body accesses: each staging buffer whole, and of the resident array the rows the inner
    coordinate selects. -/
abbrev rW : Rect S1024x256 := Rect.unit (s := S1024x256) ![0, 0] S1024x256.size inb_S1024x256_S1024x256_0_0
abbrev rH : Rect S2048x1024 := Rect.unit (s := S2048x1024) ![0, 0] S2048x1024.size inb_S2048x1024_S2048x1024_0_0
abbrev rD : Rect S1024x1 := Rect.unit (s := S1024x1) ![0, 0] S1024x1.size inb_S1024x1_S1024x1_0_0
abbrev rX (i : grid1.Coords) : Rect S8192x256 := Rect.unit (s := S8192x256) (k1_off1 i) S2048x256.size (k1_off1_inb i)

/-- A single store of the whole accumulator shape covers it, -/
theorem coverW (p0 : Vec F S1024x256 .f32) (y : S1024x256.Idx) :
    ∃ pc ∈ ([⟨rW, p0⟩] : List (View.Piece (Elt F) S1024x256 .f32)), y ∈ pc.1.set :=
  View.cover_of_tiled [⟨rW, p0⟩] S1024x256.size (by rfl) y

/-- whatever was stored before it, -/
theorem coverW_cons (p0 : Vec F S1024x256 .f32) (L : List (View.Piece (Elt F) S1024x256 .f32)) (y : S1024x256.Idx) :
    ∃ pc ∈ (⟨rW, p0⟩ :: L), y ∈ pc.1.set := by
  obtain ⟨pc, hpc, hy⟩ := coverW p0 y
  simp only [List.mem_singleton] at hpc; subst hpc
  exact ⟨_, List.mem_cons_self, hy⟩

/-- and hides it. -/
theorem canonW_cons (w : Vec F S1024x256 .f32) (L : List (View.Piece (Elt F) S1024x256 .f32)) :
    View.canon (⟨rW, w⟩ :: L) = View.canon [⟨rW, w⟩] := by
  funext y
  obtain ⟨pc, hpc, hy⟩ := coverW w y
  simp only [List.mem_singleton] at hpc; subst hpc
  obtain ⟨x, rfl⟩ := rW.exists_idx_of_mem hy
  exact (View.canon_cons_emb rW w L x).trans (View.canon_cons_emb rW w [] x).symm

/-- The accumulator freshly zeroed. -/
def accZero : Vec F S1024x256 .f32 := View.canon [⟨rW, k1_pay1 (F := F)⟩]

/-- The accumulator after one step at coordinates `i`: the product of the step's blocks — `x0` the block of H, `x1` the
    resident array, of which the step takes its rows — added to what the accumulator held (`xs`). -/
def accStep (i : grid1.Coords) (x0 : Vec F S2048x1024 .bf16) (x1 : Vec F S8192x256 .f32) (xs : Vec F S1024x256 .f32) : Vec F S1024x256 .f32 :=
  View.canon [⟨rW, k1_pay2 (View.ld x1 (rX i)) (View.ld x0 rH) (View.ld xs rW)⟩]

/-- The output block: the accumulator `a` scaled row by row by `x2`. -/
def outOf (a : Vec F S1024x256 .f32) (x2 : Vec F S1024x1 .f32) : Vec F S1024x256 .f32 :=
  View.canon [⟨rW, k1_pay3 (View.ld a rW) (View.ld x2 rD)⟩]

/-! ## The body's triple, case by case -/

set_option maxHeartbeats 1000000 in
/-- First inner step (the first conditional taken, the second not): the accumulator, at anything, ends at one step over
    zero; the inputs and the idle output are handed back as found. -/
theorem kernelRun1_A (c : Dev nD) (i : grid1.Coords)
    (arg2 : Memref sig .tc .vmem S2048x1024 .bf16) (harg2 : arg2.IsWhole)
    (arg3 : Memref sig .tc .vmem S8192x256 .f32) (harg3 : arg3.IsWhole)
    (arg4 : Memref sig .tc .vmem S1024x1 .f32) (harg4 : arg4.IsWhole)
    (arg5 : Memref sig .tc .vmem S1024x256 .f32) (harg5 : arg5.IsWhole)
    (arg6 : Memref sig .tc .vmem S1024x256 .f32) (harg6 : arg6.IsWhole)
    (hc0 : cond1_0 i) (hc1 : ¬cond1_1 i)
    (x0 : Vec F S2048x1024 .bf16) (x1 : Vec F S8192x256 .f32) (x2 : Vec F S1024x1 .f32)
    (xi3 : Vec F S1024x256 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (accStep i x0 x1 accZero)) -∗ K ⟨⟩))
      ⊢ wp frame (wpE (defs₀ (F := F)) Variants.none c none) E (cc1__pass1_kernel i arg2 harg2 arg3 harg3 arg4 harg4 arg5 harg5 arg6 harg6) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  rw [View.read_writes_eq_canon _ _ _ (coverW_cons _ _), canonW_cons, View.readCov_eq_canon_ld _ _ _ (coverW _)]
  rfl

set_option maxHeartbeats 1000000 in
/-- A middle inner step (neither conditional taken): the accumulator, at `xs`, ends one step further. -/
theorem kernelRun1_B (c : Dev nD) (i : grid1.Coords)
    (arg2 : Memref sig .tc .vmem S2048x1024 .bf16) (harg2 : arg2.IsWhole)
    (arg3 : Memref sig .tc .vmem S8192x256 .f32) (harg3 : arg3.IsWhole)
    (arg4 : Memref sig .tc .vmem S1024x1 .f32) (harg4 : arg4.IsWhole)
    (arg5 : Memref sig .tc .vmem S1024x256 .f32) (harg5 : arg5.IsWhole)
    (arg6 : Memref sig .tc .vmem S1024x256 .f32) (harg6 : arg6.IsWhole)
    (hc0 : ¬cond1_0 i) (hc1 : ¬cond1_1 i)
    (x0 : Vec F S2048x1024 .bf16) (x1 : Vec F S8192x256 .f32) (x2 : Vec F S1024x1 .f32)
    (xi3 : Vec F S1024x256 .f32) (xs : Vec F S1024x256 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ owns (c : Thread nD τ) arg6 fullShare xs
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (accStep i x0 x1 xs)) -∗ K ⟨⟩))
      ⊢ wp frame (wpE (defs₀ (F := F)) Variants.none c none) E (cc1__pass1_kernel i arg2 harg2 arg3 harg3 arg4 harg4 arg5 harg5 arg6 harg6) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  exact View.read_writes_eq_canon _ _ _ (coverW _)

set_option maxHeartbeats 1000000 in
/-- The last inner step (the second conditional taken, the first not): the accumulator, at `xs`, ends one step further,
    and the output's buffer, at anything, ends at that accumulator scaled. -/
theorem kernelRun1_C (c : Dev nD) (i : grid1.Coords)
    (arg2 : Memref sig .tc .vmem S2048x1024 .bf16) (harg2 : arg2.IsWhole)
    (arg3 : Memref sig .tc .vmem S8192x256 .f32) (harg3 : arg3.IsWhole)
    (arg4 : Memref sig .tc .vmem S1024x1 .f32) (harg4 : arg4.IsWhole)
    (arg5 : Memref sig .tc .vmem S1024x256 .f32) (harg5 : arg5.IsWhole)
    (arg6 : Memref sig .tc .vmem S1024x256 .f32) (harg6 : arg6.IsWhole)
    (hc0 : ¬cond1_0 i) (hc1 : cond1_1 i)
    (x0 : Vec F S2048x1024 .bf16) (x1 : Vec F S8192x256 .f32) (x2 : Vec F S1024x1 .f32)
    (xs : Vec F S1024x256 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1
            ∗ owns (c : Thread nD τ) arg4 fullShare x2 ∗ owns (c : Thread nD τ) arg5 fullShare (outOf (accStep i x0 x1 xs) x2)
            ∗ owns (c : Thread nD τ) arg6 fullShare (accStep i x0 x1 xs)) -∗ K ⟨⟩))
      ⊢ wp frame (wpE (defs₀ (F := F)) Variants.none c none) E (cc1__pass1_kernel i arg2 harg2 arg3 harg3 arg4 harg4 arg5 harg5 arg6 harg6) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [View.read_writes_eq_canon _ _ _ (coverW _), View.readCov_eq_canon_ld _ _ _ (coverW _)]
    rfl
  iexists _; isplitr
  swap; · iexact HS
  ipureintro
  sl_unfold_run_names
  exact View.read_writes_eq_canon _ _ _ (coverW _)

/-! ## The region at the entry contents `V` -/

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The scratch operand: the accumulator the body carries from point to point. -/
abbrev scM1 : Memref sig .tc .vmem S1024x256 .f32 := Memref.whole cc1_scratch0

/-- THE ACCUMULATION: what the accumulator holds after the body at position `n` — one step over zero at the first inner
    step of a group of four points, one step over what the point before left elsewhere. -/
def accAt (c : Dev nD) : (n : ℕ) → n < cfg1.N → Vec F S1024x256 .f32
  | 0, hn => accStep (grid1.coords ⟨0, hn⟩) (iblk1 V c 0 ⟨0, hn⟩) (iblk1 V c 1 ⟨0, hn⟩) accZero
  | n + 1, hn =>
    accStep (grid1.coords ⟨n + 1, hn⟩) (iblk1 V c 0 ⟨n + 1, hn⟩) (iblk1 V c 1 ⟨n + 1, hn⟩)
      (if (n + 1) % 4 = 0 then accZero else accAt c n (Nat.lt_of_succ_lt hn))

theorem accAt_A (c : Dev nD) (t : Fin cfg1.N) (h0 : t.val % 4 = 0) :
    accAt V c t.val t.isLt = accStep (grid1.coords t) (iblk1 V c 0 t) (iblk1 V c 1 t) accZero := by
  obtain ⟨n, hn⟩ := t
  cases n with
  | zero => rfl
  | succ n =>
    have h0' : (n + 1) % 4 = 0 := h0
    rw [accAt, if_pos h0']

theorem accAt_BC (c : Dev nD) (t : Fin cfg1.N) (h0 : ¬t.val % 4 = 0) :
    accAt V c t.val t.isLt = accStep (grid1.coords t) (iblk1 V c 0 t) (iblk1 V c 1 t)
      (accAt V c (t.val - 1) (Nat.lt_of_le_of_lt (Nat.sub_le _ _) t.isLt)) := by
  obtain ⟨n, hn⟩ := t
  cases n with
  | zero => exact absurd (Nat.zero_mod _) h0
  | succ n =>
    have h0' : ¬(n + 1) % 4 = 0 := h0
    rw [accAt, if_neg h0']
    rfl

/-- The scoped rest of this call split at its own scratch: the accumulator's buffer at some contents, the remainder
    (the other calls' staging buffers and scratch) unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The class's invariant with the accumulator as a memref owned at some contents. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; try rfl

/-- The region invariant before position `n`: before the first point the class's (every scratch at anything);
    afterwards the accumulator at what the point before left, the remainder and the generator register as they were. -/
def PhiS (c : Dev nD) : (n : ℕ) → n ≤ cfg1.N → sProp 𝕄
  | 0, _ => Pipeline.ΦA spec1 c
  | n + 1, hn => iprop(iprop(owns (c : Thread nD τ) scM1 fullShare (accAt V c n hn)
      ∗ Pipeline.scopedRestBut (Ix := Unit) (Name := ℕ) (U := UR sig nD τ) (Lvl := ℕ) (Val := Elt F) spec1 c [cc1_scratch0])
      ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1 fullShare (accAt V c n hn)
      ∗ Pipeline.scopedRestBut (Ix := Unit) (Name := ℕ) (U := UR sig nD τ) (Lvl := ℕ) (Val := Elt F) spec1 c [cc1_scratch0])
      ∗ (∃ r, prngReg c r)) := rfl

theorem PhiS_pos (c : Dev nD) (n : ℕ) (h : n ≤ cfg1.N) (hz : n ≠ 0) :
    PhiS V c n h = iprop(iprop(owns (c : Thread nD τ) scM1 fullShare (accAt V c (n - 1) (by omega))
      ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

/-! ## The pipeline's proof data -/

/-- The proof data of pipeline 1 on core `c`: the arrays as the region finds them; after the body at point `t` each
    input's buffer at its block and the output's at the accumulator scaled (consulted only where the window is live);
    the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outOf (accAt V c t.val t.isLt) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outOf (accAt V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms of the conditions say which case
    the point is in; the invariant hands the body the accumulator at what the point before left (at anything at the
    first point) and takes it back at this point's contents; the output's buffer is handed back as found where the
    window is idle, at the accumulator scaled where it is live; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  by_cases h0 : t.val % 4 = 0
  · have h1 : ¬t.val % 4 = 3 := by omega
    rw [show (dat1 V c).leavesExact 0 t = owns (c : Thread nD τ) (st1_0 t) fullShare ((dat1 V c).after 0 t) from rfl, after1_0,
      show (dat1 V c).leavesExact 1 t = owns (c : Thread nD τ) (st1_1 t) fullShare ((dat1 V c).after 1 t) from rfl, after1_1,
      show (dat1 V c).leavesExact 2 t = owns (c : Thread nD τ) (st1_2 t) fullShare ((dat1 V c).after 2 t) from rfl, after1_2]
    rw [Dat.leavesExact_idle (dat1 V c) 3 t (idleAt1_3 t (fun h => h1 ((hcond1_1 t).mp h))) (noFlush1_3 t (fun h => h1 ((hcond1_1 t).mp h)))]
    rw [accAt_A V c t h0]
    by_cases hz : t.val = 0
    · rw [PhiS_castSucc V c t, PhiS_zero V c _ _ hz, PhiA1_eq]
      iintro ⟨⟨⟨HS, HR⟩, Hg⟩, Ho, ⟨%d0, H0⟩, ⟨%d1, H1⟩, ⟨%d2, H2⟩, ⟨%d3, H3⟩⟩
      iapply (kernelRun1_A c (grid1.coords t) _ _ _ _ _ _ _ _ _ _ ((hcond1_0 t).mpr h0) (fun h => h1 ((hcond1_1 t).mp h)) (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (kernelRun1_A c (grid1.coords t) _ _ _ _ _ _ _ _ _ _ ((hcond1_0 t).mpr h0) (fun h => h1 ((hcond1_1 t).mp h)) (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [PhiS_castSucc V c t, PhiS_pos V c _ _ hz, accAt_BC V c t h0]
    rw [show (dat1 V c).leavesExact 0 t = owns (c : Thread nD τ) (st1_0 t) fullShare ((dat1 V c).after 0 t) from rfl, after1_0,
      show (dat1 V c).leavesExact 1 t = owns (c : Thread nD τ) (st1_1 t) fullShare ((dat1 V c).after 1 t) from rfl, after1_1,
      show (dat1 V c).leavesExact 2 t = owns (c : Thread nD τ) (st1_2 t) fullShare ((dat1 V c).after 2 t) from rfl, after1_2]
    by_cases h1 : t.val % 4 = 3
    · rw [show (dat1 V c).leavesExact 3 t = owns (c : Thread nD τ) (st1_3 t) fullShare ((dat1 V c).after 3 t) from by
        unfold Dat.leavesExact; rw [liveAt1_3 t ((hcond1_1 t).mpr h1)], after1_3, accAt_BC V c t h0]
      iintro ⟨⟨⟨HS, HR⟩, Hg⟩, Ho, ⟨%d0, H0⟩, ⟨%d1, H1⟩, ⟨%d2, H2⟩, ⟨%d3, H3⟩⟩
      iapply (kernelRun1_C c (grid1.coords t) _ _ _ _ _ _ _ _ _ _ (fun h => h0 ((hcond1_0 t).mp h)) ((hcond1_1 t).mpr h1) (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      iintro ⟨⟨⟨HS, HR⟩, Hg⟩, Ho, ⟨%d0, H0⟩, ⟨%d1, H1⟩, ⟨%d2, H2⟩, ⟨%d3, H3⟩⟩
      iapply (kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS, HR⟩, Hg⟩
  isplitl [HS HR]
  · isplitl [HS]; · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

/-- The shares are full and nothing is owed, literally. -/
example (c : Dev nD) : ∀ w, (dat1 V c).share w = fullShare := (dat1 V c).share_full fun _ => rfl
example (c : Dev nD) : ∀ t, (dat1 V c).owed t = 0 := fun _ => rfl

end Region

end Cert.Kernel.Hand

end
-- ==== Proof.KRegion2Body.lean ====
import proofs.«116271_j23089744183324_2_alg».proof.Proof.Gen.Kernel.Launch
import proofs.«116271_j23089744183324_2_alg».proof.Proof.Gen.Kernel.Skeleton
import proofs.«116271_j23089744183324_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the second accumulation pass

The grid has 16 points, four groups of four. Within a group the body adds, at each point, the product of the
point's block of window 0 with the point's block of window 1 into a scratch accumulator which it zeroes at the
group's first point; at the group's last point it scales the accumulated rows by window 2's column, multiplies by
window 3 transposed, adds window 4's row and stores the result into the output window, which the pipeline then
writes back. At the other points the output window is idle. -/

/-! ## The body's branch conditions, in closed form over the grid -/

/-- The condition of the body's first branch (the accumulator is zeroed), from the grid coordinates. -/
abbrev cond2_0 (i : grid2.Coords) : Prop :=
  (Scalar.cmpi .ne (Scalar.extui (Scalar.cmpi .eq (BitVec.ofNat 32 (i 1).val) 0#32)) 0#32) = 1#1
/-- It holds exactly at the first point of each group of four. -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the body's second branch (the output is computed and stored). -/
abbrev cond2_1 (i : grid2.Coords) : Prop := k2_cond2 i = 1#1
/-- It holds exactly at the last point of each group of four. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Whole-buffer accesses -/

theorem zeros2 : (![0, 0] : Fin 2 → Nat) = fun _ => 0 := funext fun a => by fin_cases a <;> rfl

/-- After a last store through the whole-shape rectangle at zero offsets, a buffer reads as that store's payload,
    whatever it held and whatever was stored before. -/
theorem read_writes_cons_whole {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb]

/-- A load through the whole-shape rectangle at zero offsets reads the buffer's contents. -/
theorem readAt_whole {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

/-! ## The body's triple, case by case -/

/-- The accumulator after the body at a point: the product of the two blocks added to what it held. -/
abbrev accStep2 (x0 : Vec F S2048x1024 .bf16) (x1 : Vec F S1024x256 .f32) (xs : Vec F S2048x256 .f32) : Vec F S2048x256 .f32 :=
  k2_pay2 x0 x1 xs

/-- What the last point of a group stores into the output window: from the accumulator and windows 2, 3, 4. -/
abbrev outStep2 (xs : Vec F S2048x256 .f32) (x2 : Vec F S2048x1 .f32) (x3 : Vec F S256x256 .f32) (x4 : Vec F S1x256 .f32) : Vec F S2048x256 .f32 :=
  k2_pay3 xs x2 x3 x4

set_option maxHeartbeats 4000000 in
/-- First point of a group: the accumulator, whatever it held, is zeroed and then takes the point's product. -/
theorem kernel2_A (c : Dev nD) (E : Set ℕ) (i : grid2.Coords) (arg2 : Memref sig .tc .vmem S2048x1024 .bf16) (harg2 : arg2.IsWhole) (arg3 : Memref sig .tc .vmem S1024x256 .f32) (harg3 : arg3.IsWhole) (arg4 : Memref sig .tc .vmem S2048x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x256 .f32) (harg8 : arg8.IsWhole)
    (hc0 : cond2_0 i) (hc1 : ¬cond2_1 i)
    (x0 : Vec F S2048x1024 .bf16) (x1 : Vec F S1024x256 .f32) (K : PUnit → sProp 𝕄) :
    iprop(owns (c : Thread nD τ) arg2 fullShare x0 ∗ owns (c : Thread nD τ) arg3 fullShare x1 ∗ (∃ d, owns (c : Thread nD τ) arg8 fullShare d)
        ∗ (iprop(owns (c : Thread nD τ) arg2 fullShare x0 ∗ owns (c : Thread nD τ) arg3 fullShare x1
            ∗ owns (c : Thread nD τ) arg8 fullShare (accStep2 x0 x1 k2_pay1)) -∗ K ⟨⟩))
      ⊢ wp frame (wpE (defs₀ (F := F)) Variants.none c none) E (cc2__pass2_kernel i arg2 harg2 arg3 harg3 arg4 harg4 arg5 harg5 arg6 harg6 arg7 harg7 arg8 harg8) K := by
  simp only [cc2__pass2_kernel_eq_skeleton]; unfold cc2__pass2_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read_writes_cons_whole _ _ zeros2, View.readCov_unit_zero _ zeros2, readAt_whole _ _ zeros2, readAt_whole _ _ zeros2]

set_option maxHeartbeats 4000000 in
/-- A middle point of a group: the accumulator takes the point's product on top of what it held. -/
theorem kernel2_B (c : Dev nD) (E : Set ℕ) (i : grid2.Coords) (arg2 : Memref sig .tc .vmem S2048x1024 .bf16) (harg2 : arg2.IsWhole) (arg3 : Memref sig .tc .vmem S1024x256 .f32) (harg3 : arg3.IsWhole) (arg4 : Memref sig .tc .vmem S2048x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x256 .f32) (harg8 : arg8.IsWhole)
    (hc0 : ¬cond2_0 i) (hc1 : ¬cond2_1 i)
    (x0 : Vec F S2048x1024 .bf16) (x1 : Vec F S1024x256 .f32) (xs : Vec F S2048x256 .f32) (K : PUnit → sProp 𝕄) :
    iprop(owns (c : Thread nD τ) arg2 fullShare x0 ∗ owns (c : Thread nD τ) arg3 fullShare x1 ∗ owns (c : Thread nD τ) arg8 fullShare xs
        ∗ (iprop(owns (c : Thread nD τ) arg2 fullShare x0 ∗ owns (c : Thread nD τ) arg3 fullShare x1
            ∗ owns (c : Thread nD τ) arg8 fullShare (accStep2 x0 x1 xs)) -∗ K ⟨⟩))
      ⊢ wp frame (wpE (defs₀ (F := F)) Variants.none c none) E (cc2__pass2_kernel i arg2 harg2 arg3 harg3 arg4 harg4 arg5 harg5 arg6 harg6 arg7 harg7 arg8 harg8) K := by
  simp only [cc2__pass2_kernel_eq_skeleton]; unfold cc2__pass2_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read_writes_cons_whole _ _ zeros2, readAt_whole _ _ zeros2, readAt_whole _ _ zeros2, readAt_whole _ _ zeros2]

set_option maxHeartbeats 8000000 in
/-- Last point of a group: the accumulator takes the point's product, and the output window is stored with the
    result computed from the accumulator so completed and the blocks of windows 2, 3 and 4. -/
theorem kernel2_C (c : Dev nD) (E : Set ℕ) (i : grid2.Coords) (arg2 : Memref sig .tc .vmem S2048x1024 .bf16) (harg2 : arg2.IsWhole) (arg3 : Memref sig .tc .vmem S1024x256 .f32) (harg3 : arg3.IsWhole) (arg4 : Memref sig .tc .vmem S2048x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x256 .f32) (harg8 : arg8.IsWhole)
    (hc0 : ¬cond2_0 i) (hc1 : cond2_1 i)
    (x0 : Vec F S2048x1024 .bf16) (x1 : Vec F S1024x256 .f32) (x2 : Vec F S2048x1 .f32) (x3 : Vec F S256x256 .f32)
    (x4 : Vec F S1x256 .f32) (xs : Vec F S2048x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outStep2 (accStep2 x0 x1 xs) x2 x3 x4)
            ∗ owns (c : Thread nD τ) arg8 fullShare (accStep2 x0 x1 xs)) -∗ K ⟨⟩))
      ⊢ wp frame (wpE (defs₀ (F := F)) Variants.none c none) E (cc2__pass2_kernel i arg2 harg2 arg3 harg3 arg4 harg4 arg5 harg5 arg6 harg6 arg7 harg7 arg8 harg8) K := by
  simp only [cc2__pass2_kernel_eq_skeleton]; unfold cc2__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_writes_cons_whole _ _ zeros2, View.readCov_unit_zero _ zeros2]
    repeat rw [readAt_whole _ _ zeros2]
  iexists _; isplitr
  swap; · iexact HS
  ipureintro
  sl_unfold_run_names
  rw [read_writes_cons_whole _ _ zeros2]
  repeat rw [readAt_whole _ _ zeros2]

end Cert.Kernel.Hand

end
-- ==== Proof.KRegion2.lean ====
import proofs.«116271_j23089744183324_2_alg».proof.Proof.KRegion2Body
import proofs.«116271_j23089744183324_2_alg».proof.Proof.Gen.Kernel.Launch
import proofs.«116271_j23089744183324_2_alg».proof.Proof.Gen.Kernel.Skeleton
import proofs.«116271_j23089744183324_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is the region-entry one and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is the region-entry one and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is the region-entry one and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is the region-entry one and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is the region-entry one and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## Where the windows are idle -/

/-- Away from a group's last point the output window is idle: the body stores nothing into it, -/
theorem idleAt2_5 : ∀ t : Fin cfg2.N, ¬cond2_1 (grid2.coords t) → cfg2.idle 5 (grid2.coords t) = true := by decide +kernel
/-- and the pipeline does not write its block back. -/
theorem noFlush2_5 : ∀ t : Fin cfg2.N, ¬cond2_1 (grid2.coords t) → (cfg2.win 5).flush t = false := by decide +kernel
/-- At a group's last point it is live. -/
theorem liveAt2_5 : ∀ t : Fin cfg2.N, cond2_1 (grid2.coords t) → cfg2.idle 5 (grid2.coords t) = false := by decide +kernel

/-! ## The accumulator, point by point -/

/-- The scratch accumulator the kernel carries between points, as a memref. -/
abbrev scM2 : Memref sig .tc .vmem S2048x256 .f32 := Memref.whole cc2_scratch0

/-- What the accumulator holds after the body at position `n`: the point's product added to the zero fill at a
    group's first point, to what the point before left otherwise. -/
def accAt2 (c : Dev nD) : (n : ℕ) → n < cfg2.N → Vec F S2048x256 .f32
  | 0, hn => accStep2 (iblk2 V c 0 ⟨0, hn⟩) (iblk2 V c 1 ⟨0, hn⟩) k2_pay1
  | n + 1, hn => accStep2 (iblk2 V c 0 ⟨n + 1, hn⟩) (iblk2 V c 1 ⟨n + 1, hn⟩)
      (if (n + 1) % 4 = 0 then k2_pay1 else accAt2 c n (Nat.lt_of_succ_lt hn))

/-- At a group's first point: over the zero fill. -/
theorem accAt2_first (c : Dev nD) (t : Fin cfg2.N) (h0 : t.val % 4 = 0) :
    accAt2 V c t.val t.isLt = accStep2 (iblk2 V c 0 t) (iblk2 V c 1 t) k2_pay1 := by
  obtain ⟨n, hn⟩ := t
  cases n with
  | zero => rfl
  | succ n => show accStep2 _ _ (if (n + 1) % 4 = 0 then _ else _) = _; rw [if_pos h0]

/-- At a later point of a group: over what the point before left. -/
theorem accAt2_later (c : Dev nD) (t : Fin cfg2.N) (h0 : ¬t.val % 4 = 0) :
    accAt2 V c t.val t.isLt = accStep2 (iblk2 V c 0 t) (iblk2 V c 1 t)
      (accAt2 V c (t.val - 1) (Nat.lt_of_le_of_lt (Nat.sub_le _ _) t.isLt)) := by
  obtain ⟨n, hn⟩ := t
  cases n with
  | zero => exact absurd (Nat.zero_mod _) h0
  | succ n => show accStep2 _ _ (if (n + 1) % 4 = 0 then _ else _) = _; rw [if_neg h0]; rfl

/-! ## The region's invariant -/

/-- The core's scoped buffers that belong to the other two regions, each whole at some contents. -/
def others2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_scratch0), ((c : Thread nD τ).loc cc1_scratch0) ↦{fullShare} f))

/-- A chain of those buffers ending in anything is those buffers beside it. -/
theorem others2_split (c : Dev nD) (P : sProp 𝕄) :
    (iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_scratch0), ((c : Thread nD τ).loc cc1_scratch0) ↦{fullShare} f)
      ∗ P) : sProp 𝕄) = iprop(others2 (F := F) c ∗ P) :=
  BI.Entails.antisymm
    (show (iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_scratch0), ((c : Thread nD τ).loc cc1_scratch0) ↦{fullShare} f)
      ∗ P) : sProp 𝕄) ⊢ iprop(others2 (F := F) c ∗ P) from by
      unfold others2
      iintro ⟨R0, R1, R2, R3, R4, R5, R6, R7, R8, R9, R10, R11, R12, R13, R14, R15, HP⟩
      isplitr [HP]
      · iframe
      · iexact HP)
    (show (iprop(others2 (F := F) c ∗ P) : sProp 𝕄) ⊢ iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_scratch0), ((c : Thread nD τ).loc cc1_scratch0) ↦{fullShare} f)
      ∗ P) from by
      unfold others2
      iintro ⟨⟨R0, R1, R2, R3, R4, R5, R6, R7, R8, R9, R10, R11, R12, R13, R14, R15⟩, HP⟩
      iframe)

/-- What the launch hands the region: the other regions' scoped buffers, the accumulator at some contents, and the
    generator register at some state. -/
theorem PhiA2_eq (c : Dev nD) :
    (Pipeline.ΦA spec2 c : sProp 𝕄)
      = iprop(iprop(others2 (F := F) c ∗ (∃ d, owns (c : Thread nD τ) scM2 fullShare d)) ∗ (∃ r, prngReg c r)) := by
  unfold Pipeline.ΦA; rw [scopedRest2_eq, others2_split]; simp only [scM2, owns_whole]; try rfl

/-- The invariant before position `n`: what the launch hands over before the first point; afterwards the same with
    the accumulator at what the point before left in it. -/
def PhiS2 (c : Dev nD) : (n : ℕ) → n ≤ cfg2.N → sProp 𝕄
  | 0, _ => Pipeline.ΦA spec2 c
  | n + 1, hn => iprop(iprop(others2 (F := F) c ∗ owns (c : Thread nD τ) scM2 fullShare (accAt2 V c n hn)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(others2 (F := F) c ∗ owns (c : Thread nD τ) scM2 fullShare (accAt2 V c n hn)) ∗ (∃ r, prngReg c r)) := rfl

theorem PhiS2_pos (c : Dev nD) (n : ℕ) (h : n ≤ cfg2.N) (hz : n ≠ 0) :
    PhiS2 V c n h = iprop(iprop(others2 (F := F) c ∗ owns (c : Thread nD τ) scM2 fullShare (accAt2 V c (n - 1) (by omega))) ∗ (∃ r, prngReg c r)) := by
  cases n with
  | zero => exact absurd rfl hz
  | succ n => rfl

/-! ## The pipeline's proof data -/

/-- The proof data of the region's pipeline on core `c`: the arrays as the region finds them; after the body at
    point `t` each input's buffer at its block and the output's at the result computed from the accumulator as the
    point leaves it (consulted only at a group's last point: elsewhere the window is idle); the invariant above;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => outStep2 (accAt2 V c t.val t.isLt) (iblk2 V c 2 t) (iblk2 V c 3 t) (iblk2 V c 4 t)
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = outStep2 (accAt2 V c t.val t.isLt) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What an input window's buffer is handed back at: its block (the inputs are never idle). -/
theorem leaves2_0 (c : Dev nD) (t : Fin cfg2.N) :
    (dat2 V c).leavesExact 0 t = owns (c : Thread nD τ) (st2_0 t) fullShare (iblk2 V c 0 t) := by
  rw [← after2_0]
theorem leaves2_1 (c : Dev nD) (t : Fin cfg2.N) :
    (dat2 V c).leavesExact 1 t = owns (c : Thread nD τ) (st2_1 t) fullShare (iblk2 V c 1 t) := by
  rw [← after2_1]
theorem leaves2_2 (c : Dev nD) (t : Fin cfg2.N) :
    (dat2 V c).leavesExact 2 t = owns (c : Thread nD τ) (st2_2 t) fullShare (iblk2 V c 2 t) := by
  rw [← after2_2]
theorem leaves2_3 (c : Dev nD) (t : Fin cfg2.N) :
    (dat2 V c).leavesExact 3 t = owns (c : Thread nD τ) (st2_3 t) fullShare (iblk2 V c 3 t) := by
  rw [← after2_3]
theorem leaves2_4 (c : Dev nD) (t : Fin cfg2.N) :
    (dat2 V c).leavesExact 4 t = owns (c : Thread nD τ) (st2_4 t) fullShare (iblk2 V c 4 t) := by
  rw [← after2_4]

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
/-- The body at any point. The inputs' buffers hold their blocks; the closed forms of the two conditions say which
    of the three cases the point is in; the invariant hands the body the accumulator (at anything before the first
    point, afterwards at what the point before left) and takes it back at this point's contents; away from a group's
    last point the output window's buffer is handed back as found, at it the buffer holds the stored result. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4]
  have hN : t.val < 16 := lt_of_lt_of_eq t.isLt (show cfg2.N = 16 from N_2)
  by_cases h1 : t.val % 4 = 3
  · -- a group's last point
    have h0 : ¬t.val % 4 = 0 := by omega
    have hz : t.val ≠ 0 := by omega
    rw [show (dat2 V c).leavesExact 5 t = owns (c : Thread nD τ) (st2_5 t) fullShare ((dat2 V c).after 5 t) from by
      unfold Dat.leavesExact; rw [liveAt2_5 t ((hcond2_1 t).mpr h1)], after2_5]
    rw [accAt2_later V c t h0]
    rw [PhiS2_castSucc V c t, PhiS2_pos V c _ _ hz]
    iintro ⟨⟨⟨HR, HS⟩, Hg⟩, Ho, ⟨%d0, H0⟩, ⟨%d1, H1⟩, ⟨%d2, H2⟩, ⟨%d3, H3⟩, ⟨%d4, H4⟩, ⟨%d5, H5⟩⟩
    iapply (kernel2_C c Set.univ (grid2.coords t) _ _ _ _ _ _ _ _ _ _ _ _ _ _ (fun h => h0 ((hcond2_0 t).mp h)) ((hcond2_1 t).mpr h1)
      (iblk2 V c 0 t) (iblk2 V c 1 t) (iblk2 V c 2 t) (iblk2 V c 3 t) (iblk2 V c 4 t) _ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HR HS Hg]
    · isplitl [HR HS]
      · isplitl [HR]; · iexact HR
        iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat2 V c) 5 t (idleAt2_5 t (fun h => h1 ((hcond2_1 t).mp h))) (noFlush2_5 t (fun h => h1 ((hcond2_1 t).mp h)))]
    by_cases h0 : t.val % 4 = 0
    · -- a group's first point
      rw [accAt2_first V c t h0]
      by_cases hz : t.val = 0
      · rw [PhiS2_castSucc V c t, PhiS2_zero V c _ _ hz, PhiA2_eq]
        iintro ⟨⟨⟨HR, HS⟩, Hg⟩, Ho, ⟨%d0, H0⟩, ⟨%d1, H1⟩, ⟨%d2, H2⟩, ⟨%d3, H3⟩, ⟨%d4, H4⟩, H5⟩
        iapply (kernel2_A c Set.univ (grid2.coords t) _ _ _ _ _ _ _ _ _ _ _ _ _ _ ((hcond2_0 t).mpr h0) (fun h => h1 ((hcond2_1 t).mp h))
          (iblk2 V c 0 t) (iblk2 V c 1 t) _)
        isplitl [H0]; · iexact H0
        isplitl [H1]; · iexact H1
        isplitl [HS]; · iexact HS
        iintro ⟨H0, H1, HS⟩
        isplitl [HR HS Hg]
        · isplitl [HR HS]
          · isplitl [HR]; · iexact HR
            iexact HS
          iexact Hg
        isplitl [Ho]; · iexact Ho
        isplitl [H0]; · iexact H0
        isplitl [H1]; · iexact H1
        isplitl [H2]; · iexact H2
        isplitl [H3]; · iexact H3
        isplitl [H4]; · iexact H4
        iexact H5
      · rw [PhiS2_castSucc V c t, PhiS2_pos V c _ _ hz]
        iintro ⟨⟨⟨HR, HS⟩, Hg⟩, Ho, ⟨%d0, H0⟩, ⟨%d1, H1⟩, ⟨%d2, H2⟩, ⟨%d3, H3⟩, ⟨%d4, H4⟩, H5⟩
        iapply (kernel2_A c Set.univ (grid2.coords t) _ _ _ _ _ _ _ _ _ _ _ _ _ _ ((hcond2_0 t).mpr h0) (fun h => h1 ((hcond2_1 t).mp h))
          (iblk2 V c 0 t) (iblk2 V c 1 t) _)
        isplitl [H0]; · iexact H0
        isplitl [H1]; · iexact H1
        isplitl [HS]; · iexists _; iexact HS
        iintro ⟨H0, H1, HS⟩
        isplitl [HR HS Hg]
        · isplitl [HR HS]
          · isplitl [HR]; · iexact HR
            iexact HS
          iexact Hg
        isplitl [Ho]; · iexact Ho
        isplitl [H0]; · iexact H0
        isplitl [H1]; · iexact H1
        isplitl [H2]; · iexact H2
        isplitl [H3]; · iexact H3
        isplitl [H4]; · iexact H4
        iexact H5
    · -- a middle point of a group
      have hz : t.val ≠ 0 := fun h => h0 (by rw [h])
      rw [accAt2_later V c t h0]
      rw [PhiS2_castSucc V c t, PhiS2_pos V c _ _ hz]
      iintro ⟨⟨⟨HR, HS⟩, Hg⟩, Ho, ⟨%d0, H0⟩, ⟨%d1, H1⟩, ⟨%d2, H2⟩, ⟨%d3, H3⟩, ⟨%d4, H4⟩, H5⟩
      iapply (kernel2_B c Set.univ (grid2.coords t) _ _ _ _ _ _ _ _ _ _ _ _ _ _ (fun h => h0 ((hcond2_0 t).mp h)) (fun h => h1 ((hcond2_1 t).mp h))
        (iblk2 V c 0 t) (iblk2 V c 1 t) _ _)
      isplitl [H0]; · iexact H0
      isplitl [H1]; · iexact H1
      isplitl [HS]; · iexact HS
      iintro ⟨H0, H1, HS⟩
      isplitl [HR HS Hg]
      · isplitl [HR HS]
        · isplitl [HR]; · iexact HR
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives back what the launch handed over: the accumulator's contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR, HS⟩, Hg⟩
  isplitl [HR HS]
  · isplitl [HR]; · iexact HR
    iexists _; iexact HS
  iexact Hg

/-- The same after the last point. -/
theorem hout2 (c : Dev nD) : (dat2 V c).Φ (Fin.last cfg2.N) ⊢ Pipeline.ΦA spec2 c :=
  Phi_out2 V c _ (by rw [Fin.val_last]; have : cfg2.N = 16 := N_2; omega)

/-- The shares are full and nothing is owed, literally. -/
example (c : Dev nD) := (dat2 V c).share_full fun _ => rfl
example (c : Dev nD) : ∀ t, (dat2 V c).owed t = 0 := fun _ => rfl

end Region

end Cert.Kernel.Hand

end
-- ==== Proof.KRun.lean ====
/-
  The three kernel regions and the host operations between them, composed: the contents of every unscoped buffer are
  followed from the launch memory through @main's nine items — a region leaves its arrays at what its write-backs
  produce and every other buffer alone; a stretch of host operations leaves what those operations compute — and every
  weakly fair execution is shown to terminate with each buffer at the last of these contents. The argument arrays are
  written by no item, so they end as launched.
-/
import proofs.«116271_j23089744183324_2_alg».proof.Proof.Gen.Kernel.Launch
import proofs.«116271_j23089744183324_2_alg».proof.Proof.Gen.Kernel.Skeleton
import proofs.«116271_j23089744183324_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«116271_j23089744183324_2_alg».proof.Proof.Gen.Kernel.Regions
import proofs.«116271_j23089744183324_2_alg».proof.Proof.KRegion0
import proofs.«116271_j23089744183324_2_alg».proof.Proof.KRegion1
import proofs.«116271_j23089744183324_2_alg».proof.Proof.KRegion2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items of @main -/

/-- At launch. -/
abbrev W0 : Dev nD → Valuation τ sig (Elt F) := fun c b => m (c, b)
/-- The same read at the TensorCore's references: what region 0 finds. -/
abbrev Vt0 : (c : Dev nD) → (b : Ref sig .tc) → Buf (Elt F) ((c : Thread nD τ).loc b) := fun c b => W0 m c b

/-- The buffers when region 0 ends: its arrays at what the write-backs leave, every other buffer as the region found it. -/
def W1 (c : Dev nD) : Valuation τ sig (Elt F) :=
  Pipeline.withArrays spec0 c (W0 m c) fun w => (dat0 (Vt0 m) c).arrAt w cfg0.N
theorem W1_arr (c : Dev nD) (w : Fin cfg0.W) :
    W1 m c (Proc.devRef .tc (Pipeline.arrRef spec0 w)) = (dat0 (Vt0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vt1 : (c : Dev nD) → (b : Ref sig .tc) → Buf (Elt F) ((c : Thread nD τ).loc b) := fun c b => W1 m c b
theorem hF0 (c : Dev nD) (w : Fin cfg0.W) : (dat0 (Vt0 m) c).arrAt w cfg0.N = Vt1 m c (Pipeline.arrRef spec0 w) :=
  (W1_arr m c w).symm
theorem hrest0 (c : Dev nD) : ∀ b, b ∉ Finset.univ.image (Pipeline.arrRef spec0) → Vt1 m c b = Vt0 m c b :=
  fun b hb => W1_of_ne m c b fun w e => hb (Finset.mem_image.mpr ⟨w, Finset.mem_univ _, e⟩)

/-- After each of the five stretches of host operations between regions 0 and 1. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
abbrev W6 : Dev nD → Valuation τ sig (Elt F) := fun c => StableHlo.after hostOps1_4 (W5 m c)
/-- What region 1 finds. -/
abbrev Vt6 : (c : Dev nD) → (b : Ref sig .tc) → Buf (Elt F) ((c : Thread nD τ).loc b) := fun c b => W6 m c b

/-- The buffers when region 1 ends: its arrays at what the write-backs leave, every other buffer as the region found it. -/
def W7 (c : Dev nD) : Valuation τ sig (Elt F) :=
  Pipeline.withArrays spec1 c (W6 m c) fun w => (dat1 (Vt6 m) c).arrAt w cfg1.N
theorem W7_arr (c : Dev nD) (w : Fin cfg1.W) :
    W7 m c (Proc.devRef .tc (Pipeline.arrRef spec1 w)) = (dat1 (Vt6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev Vt7 : (c : Dev nD) → (b : Ref sig .tc) → Buf (Elt F) ((c : Thread nD τ).loc b) := fun c b => W7 m c b
theorem hF1 (c : Dev nD) (w : Fin cfg1.W) : (dat1 (Vt6 m) c).arrAt w cfg1.N = Vt7 m c (Pipeline.arrRef spec1 w) :=
  (W7_arr m c w).symm
theorem hrest1 (c : Dev nD) : ∀ b, b ∉ Finset.univ.image (Pipeline.arrRef spec1) → Vt7 m c b = Vt6 m c b :=
  fun b hb => W7_of_ne m c b fun w e => hb (Finset.mem_image.mpr ⟨w, Finset.mem_univ _, e⟩)

/-- After the two reshapes between regions 1 and 2. -/
abbrev W8 : Dev nD → Valuation τ sig (Elt F) := fun c => StableHlo.after hostOps2 (W7 m c)
/-- What region 2 finds. -/
abbrev Vt8 : (c : Dev nD) → (b : Ref sig .tc) → Buf (Elt F) ((c : Thread nD τ).loc b) := fun c b => W8 m c b

/-- The buffers when region 2 ends: its arrays at what the write-backs leave, every other buffer as the region found it. -/
def W9 (c : Dev nD) : Valuation τ sig (Elt F) :=
  Pipeline.withArrays spec2 c (W8 m c) fun w => (dat2 (Vt8 m) c).arrAt w cfg2.N
theorem W9_arr (c : Dev nD) (w : Fin cfg2.W) :
    W9 m c (Proc.devRef .tc (Pipeline.arrRef spec2 w)) = (dat2 (Vt8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev Vt9 : (c : Dev nD) → (b : Ref sig .tc) → Buf (Elt F) ((c : Thread nD τ).loc b) := fun c b => W9 m c b
theorem hF2 (c : Dev nD) (w : Fin cfg2.W) : (dat2 (Vt8 m) c).arrAt w cfg2.N = Vt9 m c (Pipeline.arrRef spec2 w) :=
  (W9_arr m c w).symm
theorem hrest2 (c : Dev nD) : ∀ b, b ∉ Finset.univ.image (Pipeline.arrRef spec2) → Vt9 m c b = Vt8 m c b :=
  fun b hb => W9_of_ne m c b fun w e => hb (Finset.mem_image.mpr ⟨w, Finset.mem_univ _, e⟩)

/-! ## The argument arrays end as launched -/

theorem W9_main_arg0 (c : Dev nD) : W9 m c (Proc.devRef .tc main_arg0) = m ((c : Thread nD τ).loc main_arg0) :=
  calc W9 m c (Proc.devRef .tc main_arg0)
    _ = W8 m c (Proc.devRef .tc main_arg0) := W9_of_ne m c main_arg0 (by decide)
    _ = W7 m c (Proc.devRef .tc main_arg0) := StableHlo.after_of_writes_sub hostOps2 _ hostOps2_writes (by decide)
    _ = W6 m c (Proc.devRef .tc main_arg0) := W7_of_ne m c main_arg0 (by decide)
    _ = W5 m c (Proc.devRef .tc main_arg0) := StableHlo.after_of_writes_sub hostOps1_4 _ hostOps1_4_writes (by decide)
    _ = W4 m c (Proc.devRef .tc main_arg0) := StableHlo.after_of_writes_sub hostOps1_3 _ hostOps1_3_writes (by decide)
    _ = W3 m c (Proc.devRef .tc main_arg0) := StableHlo.after_of_writes_sub hostOps1_2 _ hostOps1_2_writes (by decide)
    _ = W2 m c (Proc.devRef .tc main_arg0) := StableHlo.after_of_writes_sub hostOps1_1 _ hostOps1_1_writes (by decide)
    _ = W1 m c (Proc.devRef .tc main_arg0) := StableHlo.after_of_writes_sub hostOps1 _ hostOps1_writes (by decide)
    _ = W0 m c (Proc.devRef .tc main_arg0) := W1_of_ne m c main_arg0 (by decide)
    _ = m ((c : Thread nD τ).loc main_arg0) := rfl

theorem W9_main_arg1 (c : Dev nD) : W9 m c (Proc.devRef .tc main_arg1) = m ((c : Thread nD τ).loc main_arg1) :=
  calc W9 m c (Proc.devRef .tc main_arg1)
    _ = W8 m c (Proc.devRef .tc main_arg1) := W9_of_ne m c main_arg1 (by decide)
    _ = W7 m c (Proc.devRef .tc main_arg1) := StableHlo.after_of_writes_sub hostOps2 _ hostOps2_writes (by decide)
    _ = W6 m c (Proc.devRef .tc main_arg1) := W7_of_ne m c main_arg1 (by decide)
    _ = W5 m c (Proc.devRef .tc main_arg1) := StableHlo.after_of_writes_sub hostOps1_4 _ hostOps1_4_writes (by decide)
    _ = W4 m c (Proc.devRef .tc main_arg1) := StableHlo.after_of_writes_sub hostOps1_3 _ hostOps1_3_writes (by decide)
    _ = W3 m c (Proc.devRef .tc main_arg1) := StableHlo.after_of_writes_sub hostOps1_2 _ hostOps1_2_writes (by decide)
    _ = W2 m c (Proc.devRef .tc main_arg1) := StableHlo.after_of_writes_sub hostOps1_1 _ hostOps1_1_writes (by decide)
    _ = W1 m c (Proc.devRef .tc main_arg1) := StableHlo.after_of_writes_sub hostOps1 _ hostOps1_writes (by decide)
    _ = W0 m c (Proc.devRef .tc main_arg1) := (W1_arr m c 0).trans (((dat0 (Vt0 m) c).arrAt_in 0 rfl _).trans (A_eq0 (Vt0 m) c 0))
    _ = m ((c : Thread nD τ).loc main_arg1) := rfl

theorem W9_main_arg2 (c : Dev nD) : W9 m c (Proc.devRef .tc main_arg2) = m ((c : Thread nD τ).loc main_arg2) :=
  calc W9 m c (Proc.devRef .tc main_arg2)
    _ = W8 m c (Proc.devRef .tc main_arg2) := (W9_arr m c 3).trans (((dat2 (Vt8 m) c).arrAt_in 3 rfl _).trans (A_eq2 (Vt8 m) c 3))
    _ = W7 m c (Proc.devRef .tc main_arg2) := StableHlo.after_of_writes_sub hostOps2 _ hostOps2_writes (by decide)
    _ = W6 m c (Proc.devRef .tc main_arg2) := W7_of_ne m c main_arg2 (by decide)
    _ = W5 m c (Proc.devRef .tc main_arg2) := StableHlo.after_of_writes_sub hostOps1_4 _ hostOps1_4_writes (by decide)
    _ = W4 m c (Proc.devRef .tc main_arg2) := StableHlo.after_of_writes_sub hostOps1_3 _ hostOps1_3_writes (by decide)
    _ = W3 m c (Proc.devRef .tc main_arg2) := StableHlo.after_of_writes_sub hostOps1_2 _ hostOps1_2_writes (by decide)
    _ = W2 m c (Proc.devRef .tc main_arg2) := StableHlo.after_of_writes_sub hostOps1_1 _ hostOps1_1_writes (by decide)
    _ = W1 m c (Proc.devRef .tc main_arg2) := StableHlo.after_of_writes_sub hostOps1 _ hostOps1_writes (by decide)
    _ = W0 m c (Proc.devRef .tc main_arg2) := W1_of_ne m c main_arg2 (by decide)
    _ = m ((c : Thread nD τ).loc main_arg2) := rfl

theorem W9_main_arg3 (c : Dev nD) : W9 m c (Proc.devRef .tc main_arg3) = m ((c : Thread nD τ).loc main_arg3) :=
  calc W9 m c (Proc.devRef .tc main_arg3)
    _ = W8 m c (Proc.devRef .tc main_arg3) := W9_of_ne m c main_arg3 (by decide)
    _ = W7 m c (Proc.devRef .tc main_arg3) := StableHlo.after_of_writes_sub hostOps2 _ hostOps2_writes (by decide)
    _ = W6 m c (Proc.devRef .tc main_arg3) := W7_of_ne m c main_arg3 (by decide)
    _ = W5 m c (Proc.devRef .tc main_arg3) := StableHlo.after_of_writes_sub hostOps1_4 _ hostOps1_4_writes (by decide)
    _ = W4 m c (Proc.devRef .tc main_arg3) := StableHlo.after_of_writes_sub hostOps1_3 _ hostOps1_3_writes (by decide)
    _ = W3 m c (Proc.devRef .tc main_arg3) := StableHlo.after_of_writes_sub hostOps1_2 _ hostOps1_2_writes (by decide)
    _ = W2 m c (Proc.devRef .tc main_arg3) := StableHlo.after_of_writes_sub hostOps1_1 _ hostOps1_1_writes (by decide)
    _ = W1 m c (Proc.devRef .tc main_arg3) := StableHlo.after_of_writes_sub hostOps1 _ hostOps1_writes (by decide)
    _ = W0 m c (Proc.devRef .tc main_arg3) := W1_of_ne m c main_arg3 (by decide)
    _ = m ((c : Thread nD τ).loc main_arg3) := rfl

/-! ## The proof data family and the thread state -/

/-- Every pipeline's proof data, each at the contents its region finds. -/
def pdats : (p : Fin 3) → (c : Dev nD) → Dat τ (Elt F) Unit ℕ (UR sig nD τ) ℕ (Pipeline.pin (pcfgs (F := F)) adm p) c
  | ⟨0, _⟩ => fun c => dat0 (Vt0 m) c
  | ⟨1, _⟩ => fun c => dat1 (Vt6 m) c
  | ⟨2, _⟩ => fun c => dat2 (Vt8 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`. -/
abbrev Tₙ (c : Dev nD) : sProp 𝕄 := iprop(StableHlo.held (c : Thread nD τ) (Pipeline.ucRefs τ sig) (W9 m c) ∗ ∃ r, prngReg c r)

/-! ## The regions as segments -/

/-- The generator register, anything at all, and the scoped buffers no window of region 0 stages make that region's
    class invariant; and the invariant gives the register and those buffers back. -/
theorem phiA_in0 (c : Dev nD) (P : sProp 𝕄) :
    iprop((∃ r, prngReg c r) ∗ P ∗ (Pipeline.scopedRest spec0 c : sProp 𝕄)) ⊢ (Pipeline.ΦA spec0 c : sProp 𝕄) := by
  unfold Pipeline.ΦA
  iintro ⟨Hp, -, Hr⟩
  isplitl [Hr]; · iexact Hr
  iexact Hp
theorem phiA_out0 (c : Dev nD) :
    (Pipeline.ΦA spec0 c : sProp 𝕄) ⊢ iprop((∃ r, prngReg c r) ∗ BI.emp ∗ (Pipeline.scopedRest spec0 c : sProp 𝕄)) := by
  unfold Pipeline.ΦA
  iintro ⟨Hr, Hp⟩
  isplitl [Hp]; · iexact Hp
  isplitr; · iempintro
  iexact Hr

/-- The generator register, anything at all, and the scoped buffers no window of region 1 stages make that region's
    class invariant; and the invariant gives the register and those buffers back. -/
theorem phiA_in1 (c : Dev nD) (P : sProp 𝕄) :
    iprop((∃ r, prngReg c r) ∗ P ∗ (Pipeline.scopedRest spec1 c : sProp 𝕄)) ⊢ (Pipeline.ΦA spec1 c : sProp 𝕄) := by
  unfold Pipeline.ΦA
  iintro ⟨Hp, -, Hr⟩
  isplitl [Hr]; · iexact Hr
  iexact Hp
theorem phiA_out1 (c : Dev nD) :
    (Pipeline.ΦA spec1 c : sProp 𝕄) ⊢ iprop((∃ r, prngReg c r) ∗ BI.emp ∗ (Pipeline.scopedRest spec1 c : sProp 𝕄)) := by
  unfold Pipeline.ΦA
  iintro ⟨Hr, Hp⟩
  isplitl [Hp]; · iexact Hp
  isplitr; · iempintro
  iexact Hr

/-- The generator register, anything at all, and the scoped buffers no window of region 2 stages make that region's
    class invariant; and the invariant gives the register and those buffers back. -/
theorem phiA_in2 (c : Dev nD) (P : sProp 𝕄) :
    iprop((∃ r, prngReg c r) ∗ P ∗ (Pipeline.scopedRest spec2 c : sProp 𝕄)) ⊢ (Pipeline.ΦA spec2 c : sProp 𝕄) := by
  unfold Pipeline.ΦA
  iintro ⟨Hp, -, Hr⟩
  isplitl [Hr]; · iexact Hr
  iexact Hp
theorem phiA_out2 (c : Dev nD) :
    (Pipeline.ΦA spec2 c : sProp 𝕄) ⊢ iprop((∃ r, prngReg c r) ∗ BI.emp ∗ (Pipeline.scopedRest spec2 c : sProp 𝕄)) := by
  unfold Pipeline.ΦA
  iintro ⟨Hr, Hp⟩
  isplitl [Hp]; · iexact Hp
  isplitr; · iempintro
  iexact Hr

set_option backward.isDefEq.respectTransparency.types false in
/-- Region 0 over the thread state: entered with every unscoped buffer at `W0`, left with them at `W1`. Its arrays
    are split out of the unscoped buffers on entry and put back at their final contents on exit; the generator register
    goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vt0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vt0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in0 c _).trans (hin0 (Vt0 m) c)
  hout c := by
    rw [Pipeline.ownSems0_none]
    exact (hout0 (Vt0 m) c).trans (phiA_out0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vt0 m c) (Vt1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W6`, left with them at `W7`. Its arrays
    are split out of the unscoped buffers on entry and put back at their final contents on exit; the generator register
    goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (Vt6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vt6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in1 c _).trans (hin1 (Vt6 m) c)
  hout c := by
    rw [Pipeline.ownSems0_none]
    exact (hout1 (Vt6 m) c).trans (phiA_out1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vt6 m c) (Vt7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W8`, left with them at `W9`. Its arrays
    are split out of the unscoped buffers on entry and put back at their final contents on exit; the generator register
    goes into the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vt8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vt8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in2 c _).trans (hin2 (Vt8 m) c)
  hout c := by
    rw [Pipeline.ownSems0_none]
    exact (hout2 (Vt8 m) c).trans (phiA_out2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vt8 m c) (Vt9 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's nine items in order. -/
abbrev mainSegs (c : Dev nD) : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .host (hseg hostOps1_4 hostOps1_4_sub hostOps1_4_fresh (W5 m)),
    .region (reg1 m),
    .host (hseg hostOps2 hostOps2_sub hostOps2_fresh (W7 m)),
    .region (reg2 m) ]

set_option backward.isDefEq.respectTransparency.types false in
/-- From any memory with zero counters every weakly fair execution of @main terminates, nothing faulting, and every
    final state holds every unscoped buffer at the last boundary's contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit_dev (pcfgs (F := F)) adm (pdats m) () cellOf_inj emb₁ defs₀ 𝒱₀ L lv m ρ main (mainSegs m)
    (fun c Q => by
      rewrite [main_chain c, Pipeline.Seg.run_eq_chain,
        show (mainSegs m c).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          Prog.lift (.customCall (Pipeline.entry 2) ()) ] from rfl]
      exact .rfl)
    (fun c => by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every weakly fair execution terminates, nothing faulting, with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c)⟩) (run_all m ρ)

end Cert.Kernel.Hand

end
-- ==== Proof.Region0.lean ====
import proofs.«116271_j23089744183324_2_alg».proof.Proof.Gen.KernelIdeal.Launch
import proofs.«116271_j23089744183324_2_alg».proof.Proof.Gen.KernelIdeal.Skeleton
import proofs.«116271_j23089744183324_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
# Region 0: row sums, column sums and a narrowed copy of the incidence matrix

The first kernel walks the 8192×4096 matrix in 16 row blocks of 512 rows, two groups of 8. At every block it writes
the block's row sums and a bf16 copy of the block; and it keeps, per group, a running 8×4096 accumulator of the
block's column sums (every one of its 8 rows the same): zero-filled at the first block of the group, increased at
every block, written back after the last.

This module gives, for any buffer contents `V` the region is entered from, the contents of every staging buffer
after the body at every point — the accumulator's by recursion on the point — and proves that the body run on
buffers holding what the schedule leaves there produces them.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the degree statistics, at the entry contents `V` -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point (it is fetched at every point; the block
    is whole), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is of a whole staging buffer -/

abbrev rIn : Rect S512x4096 := Rect.unit (s := S512x4096) ![0, 0] S512x4096.size inb_S512x4096_S512x4096_0_0
abbrev rRow : Rect S512x1 := Rect.unit (s := S512x1) ![0, 0] S512x1.size inb_S512x1_S512x1_0_0
abbrev rAcc : Rect S8x4096 := Rect.unit (s := S8x4096) ![0, 0] S8x4096.size inb_S8x4096_S8x4096_0_0

/-! ## The body's one branch: on the second grid coordinate being zero -/

/-- The condition of the body's `scf.if`, from the grid coordinates. -/
abbrev cond0 (i : grid0.Coords) : Prop :=
  (Scalar.cmpi .ne (Scalar.extui (Scalar.cmpi .eq (BitVec.ofNat 32 (i 1).val) 0#32)) 0#32) = 1#1

/-- It holds at the first point of each group of 8 — decided over the grid. -/
theorem hcond0 : ∀ t : Fin cfg0.N, cond0 (grid0.coords t) ↔ t.val % 8 = 0 :=
  (by decide +kernel : ∀ t : Fin grid0.N, cond0 (grid0.coords t) ↔ t.val % 8 = 0)

/-! ## What the body leaves in each output window's buffer, from the input block `x0` -/

/-- The row sums: one store of the whole buffer. -/
def out0_1 (x0 : Vec F S512x4096 .f32) : Vec F S512x1 .f32 :=
  View.canon [⟨rRow, k0_pay1 (View.ld x0 rIn)⟩]

/-- The narrowed copy: one store of the whole buffer. -/
def out0_3 (x0 : Vec F S512x4096 .f32) : Vec F S512x4096 .bf16 :=
  View.canon [⟨rIn, k0_pay2 (View.ld x0 rIn)⟩]

/-- The column-sum accumulator at the first point of a group: the zero fill, read back, plus the block's column sums
    (two stores of the whole buffer, the last first). -/
def out0_2A (x0 : Vec F S512x4096 .f32) : Vec F S8x4096 .f32 :=
  View.canon [⟨rAcc, k0_pay4 (View.ld x0 rIn) (View.ld (View.canon [⟨rAcc, k0_pay3 (F := F)⟩]) rAcc)⟩, ⟨rAcc, k0_pay3 (F := F)⟩]

/-- The accumulator at a later point of a group, found holding `xo`: `xo` plus the block's column sums. -/
def out0_2B (x0 : Vec F S512x4096 .f32) (xo : Vec F S8x4096 .f32) : Vec F S8x4096 .f32 :=
  View.canon [⟨rAcc, k0_pay4 (View.ld x0 rIn) (View.ld xo rAcc)⟩]

/-- A store of the whole buffer covers it. -/
theorem cover0_1 (p0 : Vec F S512x1 .f32) (y : S512x1.Idx) :
    ∃ pc ∈ ([⟨rRow, p0⟩] : List (View.Piece (Elt F) S512x1 .f32)), y ∈ pc.1.set :=
  View.cover_of_tiled [⟨rRow, p0⟩] S512x1.size (by rfl) y

theorem cover0_3 (p0 : Vec F S512x4096 .bf16) (y : S512x4096.Idx) :
    ∃ pc ∈ ([⟨rIn, p0⟩] : List (View.Piece (Elt F) S512x4096 .bf16)), y ∈ pc.1.set :=
  View.cover_of_tiled [⟨rIn, p0⟩] S512x4096.size (by rfl) y

theorem cover0_2 (p0 : Vec F S8x4096 .f32) (y : S8x4096.Idx) :
    ∃ pc ∈ ([⟨rAcc, p0⟩] : List (View.Piece (Elt F) S8x4096 .f32)), y ∈ pc.1.set :=
  View.cover_of_tiled [⟨rAcc, p0⟩] S8x4096.size (by rfl) y

theorem cover0_2' (p0 p1 : Vec F S8x4096 .f32) (y : S8x4096.Idx) :
    ∃ pc ∈ ([⟨rAcc, p0⟩, ⟨rAcc, p1⟩] : List (View.Piece (Elt F) S8x4096 .f32)), y ∈ pc.1.set := by
  obtain ⟨pc, hm, hy⟩ := cover0_2 p0 y
  exact ⟨pc, List.mem_cons.mpr (Or.inl (List.mem_singleton.mp hm)), hy⟩

/-! ## The body's triple, in its two cases -/

set_option maxHeartbeats 1000000 in
/-- At the first point of a group (the branch taken): on whole staging memrefs, the input's at `x0` and the outputs' at
    anything, the body runs to the continuation holding the input's as it was and each output's at its `out0_…`. -/
theorem sound_kernel0_A (c : Dev nD) (E : Set ℕ) (i : grid0.Coords)
    (arg2 : Memref sig .tc .vmem S512x4096 .f32) (harg2 : arg2.IsWhole)
    (arg3 : Memref sig .tc .vmem S512x1 .f32) (harg3 : arg3.IsWhole)
    (arg4 : Memref sig .tc .vmem S8x4096 .f32) (harg4 : arg4.IsWhole)
    (arg5 : Memref sig .tc .vmem S512x4096 .bf16) (harg5 : arg5.IsWhole)
    (hc : cond0 i)
    (x0 : Vec F S512x4096 .f32) (K : PUnit → sProp 𝕄) :
    iprop(owns (c : Thread nD τ) arg2 fullShare x0 ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare (out0_1 x0)
            ∗ owns (c : Thread nD τ) arg4 fullShare (out0_2A x0) ∗ owns (c : Thread nD τ) arg5 fullShare (out0_3 x0)) -∗ K ⟨⟩))
      ⊢ wp frame (wpE (defs₀ (F := F)) Variants.none c none) E (cc0__stats_kernel i arg2 harg2 arg3 harg3 arg4 harg4 arg5 harg5) K := by
  simp only [cc0__stats_kernel_eq_skeleton]; unfold cc0__stats_kernel_skel
  unfold owns
  iintro ⟨⟨%f0, %hf0, H0⟩, ⟨%d1, %f1, -, H1⟩, ⟨%d2, %f2, -, H2⟩, ⟨%d3, %f3, -, H3⟩, Hk⟩
  subst hf0
  sl_exec (disch := first | exact hc)
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  isplitl [H2]
  · iexists _; isplitr
    swap; · iexact H2
    ipureintro
    refine (View.read_writes_eq_canon _ _ _ (cover0_2' _ _)).trans ?_
    unfold out0_2A
    rw [← View.readCov_eq_canon_ld arg4.view [⟨rAcc, k0_pay3 (F := F)⟩] rAcc (cover0_2 _)]
    rfl
  iexists _; isplitr
  swap; · iexact H3
  ipureintro
  exact View.read_writes_eq_canon _ _ _ (cover0_3 _)

set_option maxHeartbeats 1000000 in
/-- At a later point of a group (the branch not taken): the same, the accumulator's buffer found at `xo`. -/
theorem sound_kernel0_B (c : Dev nD) (E : Set ℕ) (i : grid0.Coords)
    (arg2 : Memref sig .tc .vmem S512x4096 .f32) (harg2 : arg2.IsWhole)
    (arg3 : Memref sig .tc .vmem S512x1 .f32) (harg3 : arg3.IsWhole)
    (arg4 : Memref sig .tc .vmem S8x4096 .f32) (harg4 : arg4.IsWhole)
    (arg5 : Memref sig .tc .vmem S512x4096 .bf16) (harg5 : arg5.IsWhole)
    (hc : ¬cond0 i)
    (x0 : Vec F S512x4096 .f32) (xo : Vec F S8x4096 .f32) (K : PUnit → sProp 𝕄) :
    iprop(owns (c : Thread nD τ) arg2 fullShare x0 ∗ (∃ d, owns (c : Thread nD τ) arg3 fullShare d)
        ∗ owns (c : Thread nD τ) arg4 fullShare xo ∗ (∃ d, owns (c : Thread nD τ) arg5 fullShare d)
        ∗ (iprop(owns (c : Thread nD τ) arg2 fullShare x0 ∗ owns (c : Thread nD τ) arg3 fullShare (out0_1 x0)
            ∗ owns (c : Thread nD τ) arg4 fullShare (out0_2B x0 xo) ∗ owns (c : Thread nD τ) arg5 fullShare (out0_3 x0)) -∗ K ⟨⟩))
      ⊢ wp frame (wpE (defs₀ (F := F)) Variants.none c none) E (cc0__stats_kernel i arg2 harg2 arg3 harg3 arg4 harg4 arg5 harg5) K := by
  simp only [cc0__stats_kernel_eq_skeleton]; unfold cc0__stats_kernel_skel
  unfold owns
  iintro ⟨⟨%f0, %hf0, H0⟩, ⟨%d1, %f1, -, H1⟩, ⟨%f2, %hf2, H2⟩, ⟨%d3, %f3, -, H3⟩, Hk⟩
  subst hf0; subst hf2
  sl_exec (disch := first | exact hc)
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## What the accumulator holds after each point -/

/-- The column-sum accumulator's staging buffer after the body at position `n`: at the first point of a group the zero
    fill plus the block's column sums, at a later one what the point before left plus the block's column sums (the
    buffer is not written back in between). -/
def acc0 (c : Dev nD) : (n : ℕ) → n < cfg0.N → Vec F S8x4096 .f32
  | 0, hn => out0_2A (iblk0 V c 0 ⟨0, hn⟩)
  | n + 1, hn =>
    if (n + 1) % 8 = 0 then out0_2A (iblk0 V c 0 ⟨n + 1, hn⟩)
    else out0_2B (iblk0 V c 0 ⟨n + 1, hn⟩) (acc0 c n (Nat.lt_of_succ_lt hn))

/-- At the first point of a group. -/
theorem acc0_A (c : Dev nD) (t : Fin cfg0.N) (h0 : t.val % 8 = 0) :
    acc0 V c t.val t.isLt = out0_2A (iblk0 V c 0 t) := by
  obtain ⟨n, hn⟩ := t
  cases n with
  | zero => exact rfl
  | succ n => exact (if_pos h0).trans rfl

/-- At a later point of a group. -/
theorem acc0_B (c : Dev nD) (t : Fin cfg0.N) (h0 : ¬t.val % 8 = 0) :
    acc0 V c t.val t.isLt = out0_2B (iblk0 V c 0 t) (acc0 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of pipeline 0 on core `c`: the arrays as the region finds them; after the body at point `t` the
    input's buffer at its block, the row sums' and the copy's at `out0_1`, `out0_3` of the block, the accumulator's at
    `acc0`; the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => acc0 V c t.val t.isLt
    | ⟨3, _⟩ => out0_3 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = acc0 V c t.val t.isLt := by dsimp only [dat0]
theorem after0_3 (c : Dev nD) (t : Fin cfg0.N) : (dat0 V c).after 3 t = out0_3 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-- At a later point of a group the accumulator's current staging buffer holds what the body left at the point before:
    the point is not the first, the buffer was not written back in between (it is only at the last point of a group),
    the window is never idle and its block is whole. -/
theorem before0_2_B (c : Dev nD) (t : Fin cfg0.N) (h0 : ¬t.val % 8 = 0) (d) :
    (dat0 V c).before 2 t d = acc0 V c (t.val - 1) (Nat.lt_of_le_of_lt (Nat.sub_le _ _) t.isLt) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 800000 in
/-- The body at any point: the input's memref holds its block; the closed form of the branch condition says which case the
    point is in, and in the second the accumulator's memref holds what the point before left; so the case's triple applies.
    The invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val % 8 = 0
  · rw [acc0_A V c t h0]
    iintro ⟨HΦ, Ho, ⟨%d0, H0⟩, ⟨%d1, H1⟩, ⟨%d2, H2⟩, ⟨%d3, H3⟩⟩
    iapply (sound_kernel0_A c Set.univ (grid0.coords t) _ _ _ _ _ _ _ _ ((hcond0 t).mpr h0) (iblk0 V c 0 t) _)
    isplitl [H0]; · iexact H0
    isplitl [H1]; · iexists _; iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [acc0_B V c t h0]
    simp only [before0_2_B V c t h0]
    iintro ⟨HΦ, Ho, ⟨%d0, H0⟩, ⟨%d1, H1⟩, ⟨%d2, H2⟩, ⟨%d3, H3⟩⟩
    iapply (sound_kernel0_B c Set.univ (grid0.coords t) _ _ _ _ _ _ _ _ (fun h => h0 ((hcond0 t).mp h)) (iblk0 V c 0 t) _ _)
    isplitl [H0]; · iexact H0
    isplitl [H1]; · iexists _; iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends -/

/-- The invariant is the same at every point: entering and leaving the region are the identity on it. -/
theorem hin0 (c : Dev nD) : Pipeline.ΦA spec0 c ⊢ (dat0 V c).Φ 0 := by
  rw [show (dat0 V c).Φ 0 = Pipeline.ΦA spec0 c from rfl]

theorem hout0 (c : Dev nD) : (dat0 V c).Φ (Fin.last cfg0.N) ⊢ Pipeline.ΦA spec0 c := by
  rw [show (dat0 V c).Φ (Fin.last cfg0.N) = Pipeline.ΦA spec0 c from rfl]

/-- The shares are full and nothing is owed, literally. -/
example (c : Dev nD) := (dat0 V c).share_full fun _ => rfl
example (c : Dev nD) : ∀ t, (dat0 V c).owed t = 0 := fun _ => rfl

end Cert.KernelIdeal.Hand

end
-- ==== Proof.Region1.lean ====
import proofs.«116271_j23089744183324_2_alg».proof.Proof.Gen.KernelIdeal.Launch
import proofs.«116271_j23089744183324_2_alg».proof.Proof.Gen.KernelIdeal.Skeleton
import proofs.«116271_j23089744183324_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the accumulation e = (Hᵀ · xs) · de over four row blocks

The grid has 4 × 4 points: the outer coordinate selects a block of 1024 columns of H (rows of the result), the inner
one a block of 2048 rows. At the first inner step the accumulator is zeroed; at every step the product of the step's
blocks is added to it; at the last inner step the accumulator, scaled row by row, is stored to the output block. -/

/-! ## The body's branch conditions, decided over the grid -/

/-- The first conditional of the body, from the grid coordinates: taken where the inner coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional: taken where the inner coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The output window is idle, and not written back, wherever the second conditional fails; live where it holds. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The body's accesses and what it computes -/

/-- The rectangles the body accesses: each staging buffer whole, and of the resident array the rows the inner
    coordinate selects. -/
abbrev rW : Rect S1024x256 := Rect.unit (s := S1024x256) ![0, 0] S1024x256.size inb_S1024x256_S1024x256_0_0
abbrev rH : Rect S2048x1024 := Rect.unit (s := S2048x1024) ![0, 0] S2048x1024.size inb_S2048x1024_S2048x1024_0_0
abbrev rD : Rect S1024x1 := Rect.unit (s := S1024x1) ![0, 0] S1024x1.size inb_S1024x1_S1024x1_0_0
abbrev rX (i : grid1.Coords) : Rect S8192x256 := Rect.unit (s := S8192x256) (k1_off1 i) S2048x256.size (k1_off1_inb i)

/-- A single store of the whole accumulator shape covers it, -/
theorem coverW (p0 : Vec F S1024x256 .f32) (y : S1024x256.Idx) :
    ∃ pc ∈ ([⟨rW, p0⟩] : List (View.Piece (Elt F) S1024x256 .f32)), y ∈ pc.1.set :=
  View.cover_of_tiled [⟨rW, p0⟩] S1024x256.size (by rfl) y

/-- whatever was stored before it, -/
theorem coverW_cons (p0 : Vec F S1024x256 .f32) (L : List (View.Piece (Elt F) S1024x256 .f32)) (y : S1024x256.Idx) :
    ∃ pc ∈ (⟨rW, p0⟩ :: L), y ∈ pc.1.set := by
  obtain ⟨pc, hpc, hy⟩ := coverW p0 y
  simp only [List.mem_singleton] at hpc; subst hpc
  exact ⟨_, List.mem_cons_self, hy⟩

/-- and hides it. -/
theorem canonW_cons (w : Vec F S1024x256 .f32) (L : List (View.Piece (Elt F) S1024x256 .f32)) :
    View.canon (⟨rW, w⟩ :: L) = View.canon [⟨rW, w⟩] := by
  funext y
  obtain ⟨pc, hpc, hy⟩ := coverW w y
  simp only [List.mem_singleton] at hpc; subst hpc
  obtain ⟨x, rfl⟩ := rW.exists_idx_of_mem hy
  exact (View.canon_cons_emb rW w L x).trans (View.canon_cons_emb rW w [] x).symm

/-- The accumulator freshly zeroed. -/
def accZero : Vec F S1024x256 .f32 := View.canon [⟨rW, k1_pay1 (F := F)⟩]

/-- The accumulator after one step at coordinates `i`: the product of the step's blocks — `x0` the block of H, `x1` the
    resident array, of which the step takes its rows — added to what the accumulator held (`xs`). -/
def accStep (i : grid1.Coords) (x0 : Vec F S2048x1024 .bf16) (x1 : Vec F S8192x256 .f32) (xs : Vec F S1024x256 .f32) : Vec F S1024x256 .f32 :=
  View.canon [⟨rW, k1_pay2 (View.ld x1 (rX i)) (View.ld x0 rH) (View.ld xs rW)⟩]

/-- The output block: the accumulator `a` scaled row by row by `x2`. -/
def outOf (a : Vec F S1024x256 .f32) (x2 : Vec F S1024x1 .f32) : Vec F S1024x256 .f32 :=
  View.canon [⟨rW, k1_pay3 (View.ld a rW) (View.ld x2 rD)⟩]

/-! ## The body's triple, case by case -/

set_option maxHeartbeats 1000000 in
/-- First inner step (the first conditional taken, the second not): the accumulator, at anything, ends at one step over
    zero; the inputs and the idle output are handed back as found. -/
theorem kernelRun1_A (c : Dev nD) (i : grid1.Coords)
    (arg2 : Memref sig .tc .vmem S2048x1024 .bf16) (harg2 : arg2.IsWhole)
    (arg3 : Memref sig .tc .vmem S8192x256 .f32) (harg3 : arg3.IsWhole)
    (arg4 : Memref sig .tc .vmem S1024x1 .f32) (harg4 : arg4.IsWhole)
    (arg5 : Memref sig .tc .vmem S1024x256 .f32) (harg5 : arg5.IsWhole)
    (arg6 : Memref sig .tc .vmem S1024x256 .f32) (harg6 : arg6.IsWhole)
    (hc0 : cond1_0 i) (hc1 : ¬cond1_1 i)
    (x0 : Vec F S2048x1024 .bf16) (x1 : Vec F S8192x256 .f32) (x2 : Vec F S1024x1 .f32)
    (xi3 : Vec F S1024x256 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (accStep i x0 x1 accZero)) -∗ K ⟨⟩))
      ⊢ wp frame (wpE (defs₀ (F := F)) Variants.none c none) E (cc1__pass1_kernel i arg2 harg2 arg3 harg3 arg4 harg4 arg5 harg5 arg6 harg6) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  rw [View.read_writes_eq_canon _ _ _ (coverW_cons _ _), canonW_cons, View.readCov_eq_canon_ld _ _ _ (coverW _)]
  rfl

set_option maxHeartbeats 1000000 in
/-- A middle inner step (neither conditional taken): the accumulator, at `xs`, ends one step further. -/
theorem kernelRun1_B (c : Dev nD) (i : grid1.Coords)
    (arg2 : Memref sig .tc .vmem S2048x1024 .bf16) (harg2 : arg2.IsWhole)
    (arg3 : Memref sig .tc .vmem S8192x256 .f32) (harg3 : arg3.IsWhole)
    (arg4 : Memref sig .tc .vmem S1024x1 .f32) (harg4 : arg4.IsWhole)
    (arg5 : Memref sig .tc .vmem S1024x256 .f32) (harg5 : arg5.IsWhole)
    (arg6 : Memref sig .tc .vmem S1024x256 .f32) (harg6 : arg6.IsWhole)
    (hc0 : ¬cond1_0 i) (hc1 : ¬cond1_1 i)
    (x0 : Vec F S2048x1024 .bf16) (x1 : Vec F S8192x256 .f32) (x2 : Vec F S1024x1 .f32)
    (xi3 : Vec F S1024x256 .f32) (xs : Vec F S1024x256 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ owns (c : Thread nD τ) arg6 fullShare xs
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (accStep i x0 x1 xs)) -∗ K ⟨⟩))
      ⊢ wp frame (wpE (defs₀ (F := F)) Variants.none c none) E (cc1__pass1_kernel i arg2 harg2 arg3 harg3 arg4 harg4 arg5 harg5 arg6 harg6) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  exact View.read_writes_eq_canon _ _ _ (coverW _)

set_option maxHeartbeats 1000000 in
/-- The last inner step (the second conditional taken, the first not): the accumulator, at `xs`, ends one step further,
    and the output's buffer, at anything, ends at that accumulator scaled. -/
theorem kernelRun1_C (c : Dev nD) (i : grid1.Coords)
    (arg2 : Memref sig .tc .vmem S2048x1024 .bf16) (harg2 : arg2.IsWhole)
    (arg3 : Memref sig .tc .vmem S8192x256 .f32) (harg3 : arg3.IsWhole)
    (arg4 : Memref sig .tc .vmem S1024x1 .f32) (harg4 : arg4.IsWhole)
    (arg5 : Memref sig .tc .vmem S1024x256 .f32) (harg5 : arg5.IsWhole)
    (arg6 : Memref sig .tc .vmem S1024x256 .f32) (harg6 : arg6.IsWhole)
    (hc0 : ¬cond1_0 i) (hc1 : cond1_1 i)
    (x0 : Vec F S2048x1024 .bf16) (x1 : Vec F S8192x256 .f32) (x2 : Vec F S1024x1 .f32)
    (xs : Vec F S1024x256 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1
            ∗ owns (c : Thread nD τ) arg4 fullShare x2 ∗ owns (c : Thread nD τ) arg5 fullShare (outOf (accStep i x0 x1 xs) x2)
            ∗ owns (c : Thread nD τ) arg6 fullShare (accStep i x0 x1 xs)) -∗ K ⟨⟩))
      ⊢ wp frame (wpE (defs₀ (F := F)) Variants.none c none) E (cc1__pass1_kernel i arg2 harg2 arg3 harg3 arg4 harg4 arg5 harg5 arg6 harg6) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [View.read_writes_eq_canon _ _ _ (coverW _), View.readCov_eq_canon_ld _ _ _ (coverW _)]
    rfl
  iexists _; isplitr
  swap; · iexact HS
  ipureintro
  sl_unfold_run_names
  exact View.read_writes_eq_canon _ _ _ (coverW _)

/-! ## The region at the entry contents `V` -/

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The scratch operand: the accumulator the body carries from point to point. -/
abbrev scM1 : Memref sig .tc .vmem S1024x256 .f32 := Memref.whole cc1_scratch0

/-- THE ACCUMULATION: what the accumulator holds after the body at position `n` — one step over zero at the first inner
    step of a group of four points, one step over what the point before left elsewhere. -/
def accAt (c : Dev nD) : (n : ℕ) → n < cfg1.N → Vec F S1024x256 .f32
  | 0, hn => accStep (grid1.coords ⟨0, hn⟩) (iblk1 V c 0 ⟨0, hn⟩) (iblk1 V c 1 ⟨0, hn⟩) accZero
  | n + 1, hn =>
    accStep (grid1.coords ⟨n + 1, hn⟩) (iblk1 V c 0 ⟨n + 1, hn⟩) (iblk1 V c 1 ⟨n + 1, hn⟩)
      (if (n + 1) % 4 = 0 then accZero else accAt c n (Nat.lt_of_succ_lt hn))

theorem accAt_A (c : Dev nD) (t : Fin cfg1.N) (h0 : t.val % 4 = 0) :
    accAt V c t.val t.isLt = accStep (grid1.coords t) (iblk1 V c 0 t) (iblk1 V c 1 t) accZero := by
  obtain ⟨n, hn⟩ := t
  cases n with
  | zero => rfl
  | succ n =>
    have h0' : (n + 1) % 4 = 0 := h0
    rw [accAt, if_pos h0']

theorem accAt_BC (c : Dev nD) (t : Fin cfg1.N) (h0 : ¬t.val % 4 = 0) :
    accAt V c t.val t.isLt = accStep (grid1.coords t) (iblk1 V c 0 t) (iblk1 V c 1 t)
      (accAt V c (t.val - 1) (Nat.lt_of_le_of_lt (Nat.sub_le _ _) t.isLt)) := by
  obtain ⟨n, hn⟩ := t
  cases n with
  | zero => exact absurd (Nat.zero_mod _) h0
  | succ n =>
    have h0' : ¬(n + 1) % 4 = 0 := h0
    rw [accAt, if_neg h0']
    rfl

/-- The scoped rest of this call split at its own scratch: the accumulator's buffer at some contents, the remainder
    (the other calls' staging buffers and scratch) unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The class's invariant with the accumulator as a memref owned at some contents. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; try rfl

/-- The region invariant before position `n`: before the first point the class's (every scratch at anything);
    afterwards the accumulator at what the point before left, the remainder and the generator register as they were. -/
def PhiS (c : Dev nD) : (n : ℕ) → n ≤ cfg1.N → sProp 𝕄
  | 0, _ => Pipeline.ΦA spec1 c
  | n + 1, hn => iprop(iprop(owns (c : Thread nD τ) scM1 fullShare (accAt V c n hn)
      ∗ Pipeline.scopedRestBut (Ix := Unit) (Name := ℕ) (U := UR sig nD τ) (Lvl := ℕ) (Val := Elt F) spec1 c [cc1_scratch0])
      ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1 fullShare (accAt V c n hn)
      ∗ Pipeline.scopedRestBut (Ix := Unit) (Name := ℕ) (U := UR sig nD τ) (Lvl := ℕ) (Val := Elt F) spec1 c [cc1_scratch0])
      ∗ (∃ r, prngReg c r)) := rfl

theorem PhiS_pos (c : Dev nD) (n : ℕ) (h : n ≤ cfg1.N) (hz : n ≠ 0) :
    PhiS V c n h = iprop(iprop(owns (c : Thread nD τ) scM1 fullShare (accAt V c (n - 1) (by omega))
      ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

/-! ## The pipeline's proof data -/

/-- The proof data of pipeline 1 on core `c`: the arrays as the region finds them; after the body at point `t` each
    input's buffer at its block and the output's at the accumulator scaled (consulted only where the window is live);
    the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outOf (accAt V c t.val t.isLt) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outOf (accAt V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms of the conditions say which case
    the point is in; the invariant hands the body the accumulator at what the point before left (at anything at the
    first point) and takes it back at this point's contents; the output's buffer is handed back as found where the
    window is idle, at the accumulator scaled where it is live; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  by_cases h0 : t.val % 4 = 0
  · have h1 : ¬t.val % 4 = 3 := by omega
    rw [show (dat1 V c).leavesExact 0 t = owns (c : Thread nD τ) (st1_0 t) fullShare ((dat1 V c).after 0 t) from rfl, after1_0,
      show (dat1 V c).leavesExact 1 t = owns (c : Thread nD τ) (st1_1 t) fullShare ((dat1 V c).after 1 t) from rfl, after1_1,
      show (dat1 V c).leavesExact 2 t = owns (c : Thread nD τ) (st1_2 t) fullShare ((dat1 V c).after 2 t) from rfl, after1_2]
    rw [Dat.leavesExact_idle (dat1 V c) 3 t (idleAt1_3 t (fun h => h1 ((hcond1_1 t).mp h))) (noFlush1_3 t (fun h => h1 ((hcond1_1 t).mp h)))]
    rw [accAt_A V c t h0]
    by_cases hz : t.val = 0
    · rw [PhiS_castSucc V c t, PhiS_zero V c _ _ hz, PhiA1_eq]
      iintro ⟨⟨⟨HS, HR⟩, Hg⟩, Ho, ⟨%d0, H0⟩, ⟨%d1, H1⟩, ⟨%d2, H2⟩, ⟨%d3, H3⟩⟩
      iapply (kernelRun1_A c (grid1.coords t) _ _ _ _ _ _ _ _ _ _ ((hcond1_0 t).mpr h0) (fun h => h1 ((hcond1_1 t).mp h)) (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (kernelRun1_A c (grid1.coords t) _ _ _ _ _ _ _ _ _ _ ((hcond1_0 t).mpr h0) (fun h => h1 ((hcond1_1 t).mp h)) (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [PhiS_castSucc V c t, PhiS_pos V c _ _ hz, accAt_BC V c t h0]
    rw [show (dat1 V c).leavesExact 0 t = owns (c : Thread nD τ) (st1_0 t) fullShare ((dat1 V c).after 0 t) from rfl, after1_0,
      show (dat1 V c).leavesExact 1 t = owns (c : Thread nD τ) (st1_1 t) fullShare ((dat1 V c).after 1 t) from rfl, after1_1,
      show (dat1 V c).leavesExact 2 t = owns (c : Thread nD τ) (st1_2 t) fullShare ((dat1 V c).after 2 t) from rfl, after1_2]
    by_cases h1 : t.val % 4 = 3
    · rw [show (dat1 V c).leavesExact 3 t = owns (c : Thread nD τ) (st1_3 t) fullShare ((dat1 V c).after 3 t) from by
        unfold Dat.leavesExact; rw [liveAt1_3 t ((hcond1_1 t).mpr h1)], after1_3, accAt_BC V c t h0]
      iintro ⟨⟨⟨HS, HR⟩, Hg⟩, Ho, ⟨%d0, H0⟩, ⟨%d1, H1⟩, ⟨%d2, H2⟩, ⟨%d3, H3⟩⟩
      iapply (kernelRun1_C c (grid1.coords t) _ _ _ _ _ _ _ _ _ _ (fun h => h0 ((hcond1_0 t).mp h)) ((hcond1_1 t).mpr h1) (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      iintro ⟨⟨⟨HS, HR⟩, Hg⟩, Ho, ⟨%d0, H0⟩, ⟨%d1, H1⟩, ⟨%d2, H2⟩, ⟨%d3, H3⟩⟩
      iapply (kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS, HR⟩, Hg⟩
  isplitl [HS HR]
  · isplitl [HS]; · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

/-- The shares are full and nothing is owed, literally. -/
example (c : Dev nD) : ∀ w, (dat1 V c).share w = fullShare := (dat1 V c).share_full fun _ => rfl
example (c : Dev nD) : ∀ t, (dat1 V c).owed t = 0 := fun _ => rfl

end Region

end Cert.KernelIdeal.Hand

end
-- ==== Proof.Region2Body.lean ====
import proofs.«116271_j23089744183324_2_alg».proof.Proof.Gen.KernelIdeal.Launch
import proofs.«116271_j23089744183324_2_alg».proof.Proof.Gen.KernelIdeal.Skeleton
import proofs.«116271_j23089744183324_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the second accumulation pass

The grid has 16 points, four groups of four. Within a group the body adds, at each point, the product of the
point's block of window 0 with the point's block of window 1 into a scratch accumulator which it zeroes at the
group's first point; at the group's last point it scales the accumulated rows by window 2's column, multiplies by
window 3 transposed, adds window 4's row and stores the result into the output window, which the pipeline then
writes back. At the other points the output window is idle. -/

/-! ## The body's branch conditions, in closed form over the grid -/

/-- The condition of the body's first branch (the accumulator is zeroed), from the grid coordinates. -/
abbrev cond2_0 (i : grid2.Coords) : Prop :=
  (Scalar.cmpi .ne (Scalar.extui (Scalar.cmpi .eq (BitVec.ofNat 32 (i 1).val) 0#32)) 0#32) = 1#1
/-- It holds exactly at the first point of each group of four. -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the body's second branch (the output is computed and stored). -/
abbrev cond2_1 (i : grid2.Coords) : Prop := k2_cond2 i = 1#1
/-- It holds exactly at the last point of each group of four. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Whole-buffer accesses -/

theorem zeros2 : (![0, 0] : Fin 2 → Nat) = fun _ => 0 := funext fun a => by fin_cases a <;> rfl

/-- After a last store through the whole-shape rectangle at zero offsets, a buffer reads as that store's payload,
    whatever it held and whatever was stored before. -/
theorem read_writes_cons_whole {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb]

/-- A load through the whole-shape rectangle at zero offsets reads the buffer's contents. -/
theorem readAt_whole {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

/-! ## The body's triple, case by case -/

/-- The accumulator after the body at a point: the product of the two blocks added to what it held. -/
abbrev accStep2 (x0 : Vec F S2048x1024 .bf16) (x1 : Vec F S1024x256 .f32) (xs : Vec F S2048x256 .f32) : Vec F S2048x256 .f32 :=
  k2_pay2 x0 x1 xs

/-- What the last point of a group stores into the output window: from the accumulator and windows 2, 3, 4. -/
abbrev outStep2 (xs : Vec F S2048x256 .f32) (x2 : Vec F S2048x1 .f32) (x3 : Vec F S256x256 .f32) (x4 : Vec F S1x256 .f32) : Vec F S2048x256 .f32 :=
  k2_pay3 xs x2 x3 x4

set_option maxHeartbeats 4000000 in
/-- First point of a group: the accumulator, whatever it held, is zeroed and then takes the point's product. -/
theorem kernel2_A (c : Dev nD) (E : Set ℕ) (i : grid2.Coords) (arg2 : Memref sig .tc .vmem S2048x1024 .bf16) (harg2 : arg2.IsWhole) (arg3 : Memref sig .tc .vmem S1024x256 .f32) (harg3 : arg3.IsWhole) (arg4 : Memref sig .tc .vmem S2048x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x256 .f32) (harg8 : arg8.IsWhole)
    (hc0 : cond2_0 i) (hc1 : ¬cond2_1 i)
    (x0 : Vec F S2048x1024 .bf16) (x1 : Vec F S1024x256 .f32) (K : PUnit → sProp 𝕄) :
    iprop(owns (c : Thread nD τ) arg2 fullShare x0 ∗ owns (c : Thread nD τ) arg3 fullShare x1 ∗ (∃ d, owns (c : Thread nD τ) arg8 fullShare d)
        ∗ (iprop(owns (c : Thread nD τ) arg2 fullShare x0 ∗ owns (c : Thread nD τ) arg3 fullShare x1
            ∗ owns (c : Thread nD τ) arg8 fullShare (accStep2 x0 x1 k2_pay1)) -∗ K ⟨⟩))
      ⊢ wp frame (wpE (defs₀ (F := F)) Variants.none c none) E (cc2__pass2_kernel i arg2 harg2 arg3 harg3 arg4 harg4 arg5 harg5 arg6 harg6 arg7 harg7 arg8 harg8) K := by
  simp only [cc2__pass2_kernel_eq_skeleton]; unfold cc2__pass2_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read_writes_cons_whole _ _ zeros2, View.readCov_unit_zero _ zeros2, readAt_whole _ _ zeros2, readAt_whole _ _ zeros2]

set_option maxHeartbeats 4000000 in
/-- A middle point of a group: the accumulator takes the point's product on top of what it held. -/
theorem kernel2_B (c : Dev nD) (E : Set ℕ) (i : grid2.Coords) (arg2 : Memref sig .tc .vmem S2048x1024 .bf16) (harg2 : arg2.IsWhole) (arg3 : Memref sig .tc .vmem S1024x256 .f32) (harg3 : arg3.IsWhole) (arg4 : Memref sig .tc .vmem S2048x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x256 .f32) (harg8 : arg8.IsWhole)
    (hc0 : ¬cond2_0 i) (hc1 : ¬cond2_1 i)
    (x0 : Vec F S2048x1024 .bf16) (x1 : Vec F S1024x256 .f32) (xs : Vec F S2048x256 .f32) (K : PUnit → sProp 𝕄) :
    iprop(owns (c : Thread nD τ) arg2 fullShare x0 ∗ owns (c : Thread nD τ) arg3 fullShare x1 ∗ owns (c : Thread nD τ) arg8 fullShare xs
        ∗ (iprop(owns (c : Thread nD τ) arg2 fullShare x0 ∗ owns (c : Thread nD τ) arg3 fullShare x1
            ∗ owns (c : Thread nD τ) arg8 fullShare (accStep2 x0 x1 xs)) -∗ K ⟨⟩))
      ⊢ wp frame (wpE (defs₀ (F := F)) Variants.none c none) E (cc2__pass2_kernel i arg2 harg2 arg3 harg3 arg4 harg4 arg5 harg5 arg6 harg6 arg7 harg7 arg8 harg8) K := by
  simp only [cc2__pass2_kernel_eq_skeleton]; unfold cc2__pass2_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read_writes_cons_whole _ _ zeros2, readAt_whole _ _ zeros2, readAt_whole _ _ zeros2, readAt_whole _ _ zeros2]

set_option maxHeartbeats 8000000 in
/-- Last point of a group: the accumulator takes the point's product, and the output window is stored with the
    result computed from the accumulator so completed and the blocks of windows 2, 3 and 4. -/
theorem kernel2_C (c : Dev nD) (E : Set ℕ) (i : grid2.Coords) (arg2 : Memref sig .tc .vmem S2048x1024 .bf16) (harg2 : arg2.IsWhole) (arg3 : Memref sig .tc .vmem S1024x256 .f32) (harg3 : arg3.IsWhole) (arg4 : Memref sig .tc .vmem S2048x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x256 .f32) (harg8 : arg8.IsWhole)
    (hc0 : ¬cond2_0 i) (hc1 : cond2_1 i)
    (x0 : Vec F S2048x1024 .bf16) (x1 : Vec F S1024x256 .f32) (x2 : Vec F S2048x1 .f32) (x3 : Vec F S256x256 .f32)
    (x4 : Vec F S1x256 .f32) (xs : Vec F S2048x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outStep2 (accStep2 x0 x1 xs) x2 x3 x4)
            ∗ owns (c : Thread nD τ) arg8 fullShare (accStep2 x0 x1 xs)) -∗ K ⟨⟩))
      ⊢ wp frame (wpE (defs₀ (F := F)) Variants.none c none) E (cc2__pass2_kernel i arg2 harg2 arg3 harg3 arg4 harg4 arg5 harg5 arg6 harg6 arg7 harg7 arg8 harg8) K := by
  simp only [cc2__pass2_kernel_eq_skeleton]; unfold cc2__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_writes_cons_whole _ _ zeros2, View.readCov_unit_zero _ zeros2]
    repeat rw [readAt_whole _ _ zeros2]
  iexists _; isplitr
  swap; · iexact HS
  ipureintro
  sl_unfold_run_names
  rw [read_writes_cons_whole _ _ zeros2]
  repeat rw [readAt_whole _ _ zeros2]

end Cert.KernelIdeal.Hand

end
-- ==== Proof.Region2.lean ====
import proofs.«116271_j23089744183324_2_alg».proof.Proof.Region2Body
import proofs.«116271_j23089744183324_2_alg».proof.Proof.Gen.KernelIdeal.Launch
import proofs.«116271_j23089744183324_2_alg».proof.Proof.Gen.KernelIdeal.Skeleton
import proofs.«116271_j23089744183324_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is the region-entry one and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is the region-entry one and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is the region-entry one and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is the region-entry one and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is the region-entry one and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## Where the windows are idle -/

/-- Away from a group's last point the output window is idle: the body stores nothing into it, -/
theorem idleAt2_5 : ∀ t : Fin cfg2.N, ¬cond2_1 (grid2.coords t) → cfg2.idle 5 (grid2.coords t) = true := by decide +kernel
/-- and the pipeline does not write its block back. -/
theorem noFlush2_5 : ∀ t : Fin cfg2.N, ¬cond2_1 (grid2.coords t) → (cfg2.win 5).flush t = false := by decide +kernel
/-- At a group's last point it is live. -/
theorem liveAt2_5 : ∀ t : Fin cfg2.N, cond2_1 (grid2.coords t) → cfg2.idle 5 (grid2.coords t) = false := by decide +kernel

/-! ## The accumulator, point by point -/

/-- The scratch accumulator the kernel carries between points, as a memref. -/
abbrev scM2 : Memref sig .tc .vmem S2048x256 .f32 := Memref.whole cc2_scratch0

/-- What the accumulator holds after the body at position `n`: the point's product added to the zero fill at a
    group's first point, to what the point before left otherwise. -/
def accAt2 (c : Dev nD) : (n : ℕ) → n < cfg2.N → Vec F S2048x256 .f32
  | 0, hn => accStep2 (iblk2 V c 0 ⟨0, hn⟩) (iblk2 V c 1 ⟨0, hn⟩) k2_pay1
  | n + 1, hn => accStep2 (iblk2 V c 0 ⟨n + 1, hn⟩) (iblk2 V c 1 ⟨n + 1, hn⟩)
      (if (n + 1) % 4 = 0 then k2_pay1 else accAt2 c n (Nat.lt_of_succ_lt hn))

/-- At a group's first point: over the zero fill. -/
theorem accAt2_first (c : Dev nD) (t : Fin cfg2.N) (h0 : t.val % 4 = 0) :
    accAt2 V c t.val t.isLt = accStep2 (iblk2 V c 0 t) (iblk2 V c 1 t) k2_pay1 := by
  obtain ⟨n, hn⟩ := t
  cases n with
  | zero => rfl
  | succ n => show accStep2 _ _ (if (n + 1) % 4 = 0 then _ else _) = _; rw [if_pos h0]

/-- At a later point of a group: over what the point before left. -/
theorem accAt2_later (c : Dev nD) (t : Fin cfg2.N) (h0 : ¬t.val % 4 = 0) :
    accAt2 V c t.val t.isLt = accStep2 (iblk2 V c 0 t) (iblk2 V c 1 t)
      (accAt2 V c (t.val - 1) (Nat.lt_of_le_of_lt (Nat.sub_le _ _) t.isLt)) := by
  obtain ⟨n, hn⟩ := t
  cases n with
  | zero => exact absurd (Nat.zero_mod _) h0
  | succ n => show accStep2 _ _ (if (n + 1) % 4 = 0 then _ else _) = _; rw [if_neg h0]; rfl

/-! ## The region's invariant -/

/-- The core's scoped buffers that belong to the other two regions, each whole at some contents. -/
def others2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_scratch0), ((c : Thread nD τ).loc cc1_scratch0) ↦{fullShare} f))

/-- A chain of those buffers ending in anything is those buffers beside it. -/
theorem others2_split (c : Dev nD) (P : sProp 𝕄) :
    (iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_scratch0), ((c : Thread nD τ).loc cc1_scratch0) ↦{fullShare} f)
      ∗ P) : sProp 𝕄) = iprop(others2 (F := F) c ∗ P) :=
  BI.Entails.antisymm
    (show (iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_scratch0), ((c : Thread nD τ).loc cc1_scratch0) ↦{fullShare} f)
      ∗ P) : sProp 𝕄) ⊢ iprop(others2 (F := F) c ∗ P) from by
      unfold others2
      iintro ⟨R0, R1, R2, R3, R4, R5, R6, R7, R8, R9, R10, R11, R12, R13, R14, R15, HP⟩
      isplitr [HP]
      · iframe
      · iexact HP)
    (show (iprop(others2 (F := F) c ∗ P) : sProp 𝕄) ⊢ iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_scratch0), ((c : Thread nD τ).loc cc1_scratch0) ↦{fullShare} f)
      ∗ P) from by
      unfold others2
      iintro ⟨⟨R0, R1, R2, R3, R4, R5, R6, R7, R8, R9, R10, R11, R12, R13, R14, R15⟩, HP⟩
      iframe)

/-- What the launch hands the region: the other regions' scoped buffers, the accumulator at some contents, and the
    generator register at some state. -/
theorem PhiA2_eq (c : Dev nD) :
    (Pipeline.ΦA spec2 c : sProp 𝕄)
      = iprop(iprop(others2 (F := F) c ∗ (∃ d, owns (c : Thread nD τ) scM2 fullShare d)) ∗ (∃ r, prngReg c r)) := by
  unfold Pipeline.ΦA; rw [scopedRest2_eq, others2_split]; simp only [scM2, owns_whole]; try rfl

/-- The invariant before position `n`: what the launch hands over before the first point; afterwards the same with
    the accumulator at what the point before left in it. -/
def PhiS2 (c : Dev nD) : (n : ℕ) → n ≤ cfg2.N → sProp 𝕄
  | 0, _ => Pipeline.ΦA spec2 c
  | n + 1, hn => iprop(iprop(others2 (F := F) c ∗ owns (c : Thread nD τ) scM2 fullShare (accAt2 V c n hn)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(others2 (F := F) c ∗ owns (c : Thread nD τ) scM2 fullShare (accAt2 V c n hn)) ∗ (∃ r, prngReg c r)) := rfl

theorem PhiS2_pos (c : Dev nD) (n : ℕ) (h : n ≤ cfg2.N) (hz : n ≠ 0) :
    PhiS2 V c n h = iprop(iprop(others2 (F := F) c ∗ owns (c : Thread nD τ) scM2 fullShare (accAt2 V c (n - 1) (by omega))) ∗ (∃ r, prngReg c r)) := by
  cases n with
  | zero => exact absurd rfl hz
  | succ n => rfl

/-! ## The pipeline's proof data -/

/-- The proof data of the region's pipeline on core `c`: the arrays as the region finds them; after the body at
    point `t` each input's buffer at its block and the output's at the result computed from the accumulator as the
    point leaves it (consulted only at a group's last point: elsewhere the window is idle); the invariant above;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => outStep2 (accAt2 V c t.val t.isLt) (iblk2 V c 2 t) (iblk2 V c 3 t) (iblk2 V c 4 t)
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = outStep2 (accAt2 V c t.val t.isLt) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What an input window's buffer is handed back at: its block (the inputs are never idle). -/
theorem leaves2_0 (c : Dev nD) (t : Fin cfg2.N) :
    (dat2 V c).leavesExact 0 t = owns (c : Thread nD τ) (st2_0 t) fullShare (iblk2 V c 0 t) := by
  rw [← after2_0]
theorem leaves2_1 (c : Dev nD) (t : Fin cfg2.N) :
    (dat2 V c).leavesExact 1 t = owns (c : Thread nD τ) (st2_1 t) fullShare (iblk2 V c 1 t) := by
  rw [← after2_1]
theorem leaves2_2 (c : Dev nD) (t : Fin cfg2.N) :
    (dat2 V c).leavesExact 2 t = owns (c : Thread nD τ) (st2_2 t) fullShare (iblk2 V c 2 t) := by
  rw [← after2_2]
theorem leaves2_3 (c : Dev nD) (t : Fin cfg2.N) :
    (dat2 V c).leavesExact 3 t = owns (c : Thread nD τ) (st2_3 t) fullShare (iblk2 V c 3 t) := by
  rw [← after2_3]
theorem leaves2_4 (c : Dev nD) (t : Fin cfg2.N) :
    (dat2 V c).leavesExact 4 t = owns (c : Thread nD τ) (st2_4 t) fullShare (iblk2 V c 4 t) := by
  rw [← after2_4]

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
/-- The body at any point. The inputs' buffers hold their blocks; the closed forms of the two conditions say which
    of the three cases the point is in; the invariant hands the body the accumulator (at anything before the first
    point, afterwards at what the point before left) and takes it back at this point's contents; away from a group's
    last point the output window's buffer is handed back as found, at it the buffer holds the stored result. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4]
  have hN : t.val < 16 := lt_of_lt_of_eq t.isLt (show cfg2.N = 16 from N_2)
  by_cases h1 : t.val % 4 = 3
  · -- a group's last point
    have h0 : ¬t.val % 4 = 0 := by omega
    have hz : t.val ≠ 0 := by omega
    rw [show (dat2 V c).leavesExact 5 t = owns (c : Thread nD τ) (st2_5 t) fullShare ((dat2 V c).after 5 t) from by
      unfold Dat.leavesExact; rw [liveAt2_5 t ((hcond2_1 t).mpr h1)], after2_5]
    rw [accAt2_later V c t h0]
    rw [PhiS2_castSucc V c t, PhiS2_pos V c _ _ hz]
    iintro ⟨⟨⟨HR, HS⟩, Hg⟩, Ho, ⟨%d0, H0⟩, ⟨%d1, H1⟩, ⟨%d2, H2⟩, ⟨%d3, H3⟩, ⟨%d4, H4⟩, ⟨%d5, H5⟩⟩
    iapply (kernel2_C c Set.univ (grid2.coords t) _ _ _ _ _ _ _ _ _ _ _ _ _ _ (fun h => h0 ((hcond2_0 t).mp h)) ((hcond2_1 t).mpr h1)
      (iblk2 V c 0 t) (iblk2 V c 1 t) (iblk2 V c 2 t) (iblk2 V c 3 t) (iblk2 V c 4 t) _ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HR HS Hg]
    · isplitl [HR HS]
      · isplitl [HR]; · iexact HR
        iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat2 V c) 5 t (idleAt2_5 t (fun h => h1 ((hcond2_1 t).mp h))) (noFlush2_5 t (fun h => h1 ((hcond2_1 t).mp h)))]
    by_cases h0 : t.val % 4 = 0
    · -- a group's first point
      rw [accAt2_first V c t h0]
      by_cases hz : t.val = 0
      · rw [PhiS2_castSucc V c t, PhiS2_zero V c _ _ hz, PhiA2_eq]
        iintro ⟨⟨⟨HR, HS⟩, Hg⟩, Ho, ⟨%d0, H0⟩, ⟨%d1, H1⟩, ⟨%d2, H2⟩, ⟨%d3, H3⟩, ⟨%d4, H4⟩, H5⟩
        iapply (kernel2_A c Set.univ (grid2.coords t) _ _ _ _ _ _ _ _ _ _ _ _ _ _ ((hcond2_0 t).mpr h0) (fun h => h1 ((hcond2_1 t).mp h))
          (iblk2 V c 0 t) (iblk2 V c 1 t) _)
        isplitl [H0]; · iexact H0
        isplitl [H1]; · iexact H1
        isplitl [HS]; · iexact HS
        iintro ⟨H0, H1, HS⟩
        isplitl [HR HS Hg]
        · isplitl [HR HS]
          · isplitl [HR]; · iexact HR
            iexact HS
          iexact Hg
        isplitl [Ho]; · iexact Ho
        isplitl [H0]; · iexact H0
        isplitl [H1]; · iexact H1
        isplitl [H2]; · iexact H2
        isplitl [H3]; · iexact H3
        isplitl [H4]; · iexact H4
        iexact H5
      · rw [PhiS2_castSucc V c t, PhiS2_pos V c _ _ hz]
        iintro ⟨⟨⟨HR, HS⟩, Hg⟩, Ho, ⟨%d0, H0⟩, ⟨%d1, H1⟩, ⟨%d2, H2⟩, ⟨%d3, H3⟩, ⟨%d4, H4⟩, H5⟩
        iapply (kernel2_A c Set.univ (grid2.coords t) _ _ _ _ _ _ _ _ _ _ _ _ _ _ ((hcond2_0 t).mpr h0) (fun h => h1 ((hcond2_1 t).mp h))
          (iblk2 V c 0 t) (iblk2 V c 1 t) _)
        isplitl [H0]; · iexact H0
        isplitl [H1]; · iexact H1
        isplitl [HS]; · iexists _; iexact HS
        iintro ⟨H0, H1, HS⟩
        isplitl [HR HS Hg]
        · isplitl [HR HS]
          · isplitl [HR]; · iexact HR
            iexact HS
          iexact Hg
        isplitl [Ho]; · iexact Ho
        isplitl [H0]; · iexact H0
        isplitl [H1]; · iexact H1
        isplitl [H2]; · iexact H2
        isplitl [H3]; · iexact H3
        isplitl [H4]; · iexact H4
        iexact H5
    · -- a middle point of a group
      have hz : t.val ≠ 0 := fun h => h0 (by rw [h])
      rw [accAt2_later V c t h0]
      rw [PhiS2_castSucc V c t, PhiS2_pos V c _ _ hz]
      iintro ⟨⟨⟨HR, HS⟩, Hg⟩, Ho, ⟨%d0, H0⟩, ⟨%d1, H1⟩, ⟨%d2, H2⟩, ⟨%d3, H3⟩, ⟨%d4, H4⟩, H5⟩
      iapply (kernel2_B c Set.univ (grid2.coords t) _ _ _ _ _ _ _ _ _ _ _ _ _ _ (fun h => h0 ((hcond2_0 t).mp h)) (fun h => h1 ((hcond2_1 t).mp h))
        (iblk2 V c 0 t) (iblk2 V c 1 t) _ _)
      isplitl [H0]; · iexact H0
      isplitl [H1]; · iexact H1
      isplitl [HS]; · iexact HS
      iintro ⟨H0, H1, HS⟩
      isplitl [HR HS Hg]
      · isplitl [HR HS]
        · isplitl [HR]; · iexact HR
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives back what the launch handed over: the accumulator's contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR, HS⟩, Hg⟩
  isplitl [HR HS]
  · isplitl [HR]; · iexact HR
    iexists _; iexact HS
  iexact Hg

/-- The same after the last point. -/
theorem hout2 (c : Dev nD) : (dat2 V c).Φ (Fin.last cfg2.N) ⊢ Pipeline.ΦA spec2 c :=
  Phi_out2 V c _ (by rw [Fin.val_last]; have : cfg2.N = 16 := N_2; omega)

/-- The shares are full and nothing is owed, literally. -/
example (c : Dev nD) := (dat2 V c).share_full fun _ => rfl
example (c : Dev nD) : ∀ t, (dat2 V c).owed t = 0 := fun _ => rfl

end Region

end Cert.KernelIdeal.Hand

end
-- ==== Proof.Run.lean ====
/-
  The three kernel regions and the host operations between them, composed: the contents of every unscoped buffer are
  followed from the launch memory through @main's nine items — a region leaves its arrays at what its write-backs
  produce and every other buffer alone; a stretch of host operations leaves what those operations compute — and every
  weakly fair execution is shown to terminate with each buffer at the last of these contents. The argument arrays are
  written by no item, so they end as launched.
-/
import proofs.«116271_j23089744183324_2_alg».proof.Proof.Gen.KernelIdeal.Launch
import proofs.«116271_j23089744183324_2_alg».proof.Proof.Gen.KernelIdeal.Skeleton
import proofs.«116271_j23089744183324_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«116271_j23089744183324_2_alg».proof.Proof.Gen.KernelIdeal.Regions
import proofs.«116271_j23089744183324_2_alg».proof.Proof.Region0
import proofs.«116271_j23089744183324_2_alg».proof.Proof.Region1
import proofs.«116271_j23089744183324_2_alg».proof.Proof.Region2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items of @main -/

/-- At launch. -/
abbrev W0 : Dev nD → Valuation τ sig (Elt F) := fun c b => m (c, b)
/-- The same read at the TensorCore's references: what region 0 finds. -/
abbrev Vt0 : (c : Dev nD) → (b : Ref sig .tc) → Buf (Elt F) ((c : Thread nD τ).loc b) := fun c b => W0 m c b

/-- The buffers when region 0 ends: its arrays at what the write-backs leave, every other buffer as the region found it. -/
def W1 (c : Dev nD) : Valuation τ sig (Elt F) :=
  Pipeline.withArrays spec0 c (W0 m c) fun w => (dat0 (Vt0 m) c).arrAt w cfg0.N
theorem W1_arr (c : Dev nD) (w : Fin cfg0.W) :
    W1 m c (Proc.devRef .tc (Pipeline.arrRef spec0 w)) = (dat0 (Vt0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vt1 : (c : Dev nD) → (b : Ref sig .tc) → Buf (Elt F) ((c : Thread nD τ).loc b) := fun c b => W1 m c b
theorem hF0 (c : Dev nD) (w : Fin cfg0.W) : (dat0 (Vt0 m) c).arrAt w cfg0.N = Vt1 m c (Pipeline.arrRef spec0 w) :=
  (W1_arr m c w).symm
theorem hrest0 (c : Dev nD) : ∀ b, b ∉ Finset.univ.image (Pipeline.arrRef spec0) → Vt1 m c b = Vt0 m c b :=
  fun b hb => W1_of_ne m c b fun w e => hb (Finset.mem_image.mpr ⟨w, Finset.mem_univ _, e⟩)

/-- After each of the five stretches of host operations between regions 0 and 1. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
abbrev W6 : Dev nD → Valuation τ sig (Elt F) := fun c => StableHlo.after hostOps1_4 (W5 m c)
/-- What region 1 finds. -/
abbrev Vt6 : (c : Dev nD) → (b : Ref sig .tc) → Buf (Elt F) ((c : Thread nD τ).loc b) := fun c b => W6 m c b

/-- The buffers when region 1 ends: its arrays at what the write-backs leave, every other buffer as the region found it. -/
def W7 (c : Dev nD) : Valuation τ sig (Elt F) :=
  Pipeline.withArrays spec1 c (W6 m c) fun w => (dat1 (Vt6 m) c).arrAt w cfg1.N
theorem W7_arr (c : Dev nD) (w : Fin cfg1.W) :
    W7 m c (Proc.devRef .tc (Pipeline.arrRef spec1 w)) = (dat1 (Vt6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev Vt7 : (c : Dev nD) → (b : Ref sig .tc) → Buf (Elt F) ((c : Thread nD τ).loc b) := fun c b => W7 m c b
theorem hF1 (c : Dev nD) (w : Fin cfg1.W) : (dat1 (Vt6 m) c).arrAt w cfg1.N = Vt7 m c (Pipeline.arrRef spec1 w) :=
  (W7_arr m c w).symm
theorem hrest1 (c : Dev nD) : ∀ b, b ∉ Finset.univ.image (Pipeline.arrRef spec1) → Vt7 m c b = Vt6 m c b :=
  fun b hb => W7_of_ne m c b fun w e => hb (Finset.mem_image.mpr ⟨w, Finset.mem_univ _, e⟩)

/-- After the two reshapes between regions 1 and 2. -/
abbrev W8 : Dev nD → Valuation τ sig (Elt F) := fun c => StableHlo.after hostOps2 (W7 m c)
/-- What region 2 finds. -/
abbrev Vt8 : (c : Dev nD) → (b : Ref sig .tc) → Buf (Elt F) ((c : Thread nD τ).loc b) := fun c b => W8 m c b

/-- The buffers when region 2 ends: its arrays at what the write-backs leave, every other buffer as the region found it. -/
def W9 (c : Dev nD) : Valuation τ sig (Elt F) :=
  Pipeline.withArrays spec2 c (W8 m c) fun w => (dat2 (Vt8 m) c).arrAt w cfg2.N
theorem W9_arr (c : Dev nD) (w : Fin cfg2.W) :
    W9 m c (Proc.devRef .tc (Pipeline.arrRef spec2 w)) = (dat2 (Vt8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev Vt9 : (c : Dev nD) → (b : Ref sig .tc) → Buf (Elt F) ((c : Thread nD τ).loc b) := fun c b => W9 m c b
theorem hF2 (c : Dev nD) (w : Fin cfg2.W) : (dat2 (Vt8 m) c).arrAt w cfg2.N = Vt9 m c (Pipeline.arrRef spec2 w) :=
  (W9_arr m c w).symm
theorem hrest2 (c : Dev nD) : ∀ b, b ∉ Finset.univ.image (Pipeline.arrRef spec2) → Vt9 m c b = Vt8 m c b :=
  fun b hb => W9_of_ne m c b fun w e => hb (Finset.mem_image.mpr ⟨w, Finset.mem_univ _, e⟩)

/-! ## The argument arrays end as launched -/

theorem W9_main_arg0 (c : Dev nD) : W9 m c (Proc.devRef .tc main_arg0) = m ((c : Thread nD τ).loc main_arg0) :=
  calc W9 m c (Proc.devRef .tc main_arg0)
    _ = W8 m c (Proc.devRef .tc main_arg0) := W9_of_ne m c main_arg0 (by decide)
    _ = W7 m c (Proc.devRef .tc main_arg0) := StableHlo.after_of_writes_sub hostOps2 _ hostOps2_writes (by decide)
    _ = W6 m c (Proc.devRef .tc main_arg0) := W7_of_ne m c main_arg0 (by decide)
    _ = W5 m c (Proc.devRef .tc main_arg0) := StableHlo.after_of_writes_sub hostOps1_4 _ hostOps1_4_writes (by decide)
    _ = W4 m c (Proc.devRef .tc main_arg0) := StableHlo.after_of_writes_sub hostOps1_3 _ hostOps1_3_writes (by decide)
    _ = W3 m c (Proc.devRef .tc main_arg0) := StableHlo.after_of_writes_sub hostOps1_2 _ hostOps1_2_writes (by decide)
    _ = W2 m c (Proc.devRef .tc main_arg0) := StableHlo.after_of_writes_sub hostOps1_1 _ hostOps1_1_writes (by decide)
    _ = W1 m c (Proc.devRef .tc main_arg0) := StableHlo.after_of_writes_sub hostOps1 _ hostOps1_writes (by decide)
    _ = W0 m c (Proc.devRef .tc main_arg0) := W1_of_ne m c main_arg0 (by decide)
    _ = m ((c : Thread nD τ).loc main_arg0) := rfl

theorem W9_main_arg1 (c : Dev nD) : W9 m c (Proc.devRef .tc main_arg1) = m ((c : Thread nD τ).loc main_arg1) :=
  calc W9 m c (Proc.devRef .tc main_arg1)
    _ = W8 m c (Proc.devRef .tc main_arg1) := W9_of_ne m c main_arg1 (by decide)
    _ = W7 m c (Proc.devRef .tc main_arg1) := StableHlo.after_of_writes_sub hostOps2 _ hostOps2_writes (by decide)
    _ = W6 m c (Proc.devRef .tc main_arg1) := W7_of_ne m c main_arg1 (by decide)
    _ = W5 m c (Proc.devRef .tc main_arg1) := StableHlo.after_of_writes_sub hostOps1_4 _ hostOps1_4_writes (by decide)
    _ = W4 m c (Proc.devRef .tc main_arg1) := StableHlo.after_of_writes_sub hostOps1_3 _ hostOps1_3_writes (by decide)
    _ = W3 m c (Proc.devRef .tc main_arg1) := StableHlo.after_of_writes_sub hostOps1_2 _ hostOps1_2_writes (by decide)
    _ = W2 m c (Proc.devRef .tc main_arg1) := StableHlo.after_of_writes_sub hostOps1_1 _ hostOps1_1_writes (by decide)
    _ = W1 m c (Proc.devRef .tc main_arg1) := StableHlo.after_of_writes_sub hostOps1 _ hostOps1_writes (by decide)
    _ = W0 m c (Proc.devRef .tc main_arg1) := (W1_arr m c 0).trans (((dat0 (Vt0 m) c).arrAt_in 0 rfl _).trans (A_eq0 (Vt0 m) c 0))
    _ = m ((c : Thread nD τ).loc main_arg1) := rfl

theorem W9_main_arg2 (c : Dev nD) : W9 m c (Proc.devRef .tc main_arg2) = m ((c : Thread nD τ).loc main_arg2) :=
  calc W9 m c (Proc.devRef .tc main_arg2)
    _ = W8 m c (Proc.devRef .tc main_arg2) := (W9_arr m c 3).trans (((dat2 (Vt8 m) c).arrAt_in 3 rfl _).trans (A_eq2 (Vt8 m) c 3))
    _ = W7 m c (Proc.devRef .tc main_arg2) := StableHlo.after_of_writes_sub hostOps2 _ hostOps2_writes (by decide)
    _ = W6 m c (Proc.devRef .tc main_arg2) := W7_of_ne m c main_arg2 (by decide)
    _ = W5 m c (Proc.devRef .tc main_arg2) := StableHlo.after_of_writes_sub hostOps1_4 _ hostOps1_4_writes (by decide)
    _ = W4 m c (Proc.devRef .tc main_arg2) := StableHlo.after_of_writes_sub hostOps1_3 _ hostOps1_3_writes (by decide)
    _ = W3 m c (Proc.devRef .tc main_arg2) := StableHlo.after_of_writes_sub hostOps1_2 _ hostOps1_2_writes (by decide)
    _ = W2 m c (Proc.devRef .tc main_arg2) := StableHlo.after_of_writes_sub hostOps1_1 _ hostOps1_1_writes (by decide)
    _ = W1 m c (Proc.devRef .tc main_arg2) := StableHlo.after_of_writes_sub hostOps1 _ hostOps1_writes (by decide)
    _ = W0 m c (Proc.devRef .tc main_arg2) := W1_of_ne m c main_arg2 (by decide)
    _ = m ((c : Thread nD τ).loc main_arg2) := rfl

theorem W9_main_arg3 (c : Dev nD) : W9 m c (Proc.devRef .tc main_arg3) = m ((c : Thread nD τ).loc main_arg3) :=
  calc W9 m c (Proc.devRef .tc main_arg3)
    _ = W8 m c (Proc.devRef .tc main_arg3) := W9_of_ne m c main_arg3 (by decide)
    _ = W7 m c (Proc.devRef .tc main_arg3) := StableHlo.after_of_writes_sub hostOps2 _ hostOps2_writes (by decide)
    _ = W6 m c (Proc.devRef .tc main_arg3) := W7_of_ne m c main_arg3 (by decide)
    _ = W5 m c (Proc.devRef .tc main_arg3) := StableHlo.after_of_writes_sub hostOps1_4 _ hostOps1_4_writes (by decide)
    _ = W4 m c (Proc.devRef .tc main_arg3) := StableHlo.after_of_writes_sub hostOps1_3 _ hostOps1_3_writes (by decide)
    _ = W3 m c (Proc.devRef .tc main_arg3) := StableHlo.after_of_writes_sub hostOps1_2 _ hostOps1_2_writes (by decide)
    _ = W2 m c (Proc.devRef .tc main_arg3) := StableHlo.after_of_writes_sub hostOps1_1 _ hostOps1_1_writes (by decide)
    _ = W1 m c (Proc.devRef .tc main_arg3) := StableHlo.after_of_writes_sub hostOps1 _ hostOps1_writes (by decide)
    _ = W0 m c (Proc.devRef .tc main_arg3) := W1_of_ne m c main_arg3 (by decide)
    _ = m ((c : Thread nD τ).loc main_arg3) := rfl

/-! ## The proof data family and the thread state -/

/-- Every pipeline's proof data, each at the contents its region finds. -/
def pdats : (p : Fin 3) → (c : Dev nD) → Dat τ (Elt F) Unit ℕ (UR sig nD τ) ℕ (Pipeline.pin (pcfgs (F := F)) adm p) c
  | ⟨0, _⟩ => fun c => dat0 (Vt0 m) c
  | ⟨1, _⟩ => fun c => dat1 (Vt6 m) c
  | ⟨2, _⟩ => fun c => dat2 (Vt8 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`. -/
abbrev Tₙ (c : Dev nD) : sProp 𝕄 := iprop(StableHlo.held (c : Thread nD τ) (Pipeline.ucRefs τ sig) (W9 m c) ∗ ∃ r, prngReg c r)

/-! ## The regions as segments -/

/-- The generator register, anything at all, and the scoped buffers no window of region 0 stages make that region's
    class invariant; and the invariant gives the register and those buffers back. -/
theorem phiA_in0 (c : Dev nD) (P : sProp 𝕄) :
    iprop((∃ r, prngReg c r) ∗ P ∗ (Pipeline.scopedRest spec0 c : sProp 𝕄)) ⊢ (Pipeline.ΦA spec0 c : sProp 𝕄) := by
  unfold Pipeline.ΦA
  iintro ⟨Hp, -, Hr⟩
  isplitl [Hr]; · iexact Hr
  iexact Hp
theorem phiA_out0 (c : Dev nD) :
    (Pipeline.ΦA spec0 c : sProp 𝕄) ⊢ iprop((∃ r, prngReg c r) ∗ BI.emp ∗ (Pipeline.scopedRest spec0 c : sProp 𝕄)) := by
  unfold Pipeline.ΦA
  iintro ⟨Hr, Hp⟩
  isplitl [Hp]; · iexact Hp
  isplitr; · iempintro
  iexact Hr

/-- The generator register, anything at all, and the scoped buffers no window of region 1 stages make that region's
    class invariant; and the invariant gives the register and those buffers back. -/
theorem phiA_in1 (c : Dev nD) (P : sProp 𝕄) :
    iprop((∃ r, prngReg c r) ∗ P ∗ (Pipeline.scopedRest spec1 c : sProp 𝕄)) ⊢ (Pipeline.ΦA spec1 c : sProp 𝕄) := by
  unfold Pipeline.ΦA
  iintro ⟨Hp, -, Hr⟩
  isplitl [Hr]; · iexact Hr
  iexact Hp
theorem phiA_out1 (c : Dev nD) :
    (Pipeline.ΦA spec1 c : sProp 𝕄) ⊢ iprop((∃ r, prngReg c r) ∗ BI.emp ∗ (Pipeline.scopedRest spec1 c : sProp 𝕄)) := by
  unfold Pipeline.ΦA
  iintro ⟨Hr, Hp⟩
  isplitl [Hp]; · iexact Hp
  isplitr; · iempintro
  iexact Hr

/-- The generator register, anything at all, and the scoped buffers no window of region 2 stages make that region's
    class invariant; and the invariant gives the register and those buffers back. -/
theorem phiA_in2 (c : Dev nD) (P : sProp 𝕄) :
    iprop((∃ r, prngReg c r) ∗ P ∗ (Pipeline.scopedRest spec2 c : sProp 𝕄)) ⊢ (Pipeline.ΦA spec2 c : sProp 𝕄) := by
  unfold Pipeline.ΦA
  iintro ⟨Hp, -, Hr⟩
  isplitl [Hr]; · iexact Hr
  iexact Hp
theorem phiA_out2 (c : Dev nD) :
    (Pipeline.ΦA spec2 c : sProp 𝕄) ⊢ iprop((∃ r, prngReg c r) ∗ BI.emp ∗ (Pipeline.scopedRest spec2 c : sProp 𝕄)) := by
  unfold Pipeline.ΦA
  iintro ⟨Hr, Hp⟩
  isplitl [Hp]; · iexact Hp
  isplitr; · iempintro
  iexact Hr

set_option backward.isDefEq.respectTransparency.types false in
/-- Region 0 over the thread state: entered with every unscoped buffer at `W0`, left with them at `W1`. Its arrays
    are split out of the unscoped buffers on entry and put back at their final contents on exit; the generator register
    goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vt0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vt0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in0 c _).trans (hin0 (Vt0 m) c)
  hout c := by
    rw [Pipeline.ownSems0_none]
    exact (hout0 (Vt0 m) c).trans (phiA_out0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vt0 m c) (Vt1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W6`, left with them at `W7`. Its arrays
    are split out of the unscoped buffers on entry and put back at their final contents on exit; the generator register
    goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (Vt6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vt6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in1 c _).trans (hin1 (Vt6 m) c)
  hout c := by
    rw [Pipeline.ownSems0_none]
    exact (hout1 (Vt6 m) c).trans (phiA_out1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vt6 m c) (Vt7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W8`, left with them at `W9`. Its arrays
    are split out of the unscoped buffers on entry and put back at their final contents on exit; the generator register
    goes into the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vt8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vt8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in2 c _).trans (hin2 (Vt8 m) c)
  hout c := by
    rw [Pipeline.ownSems0_none]
    exact (hout2 (Vt8 m) c).trans (phiA_out2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vt8 m c) (Vt9 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's nine items in order. -/
abbrev mainSegs (c : Dev nD) : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .host (hseg hostOps1_4 hostOps1_4_sub hostOps1_4_fresh (W5 m)),
    .region (reg1 m),
    .host (hseg hostOps2 hostOps2_sub hostOps2_fresh (W7 m)),
    .region (reg2 m) ]

set_option backward.isDefEq.respectTransparency.types false in
/-- From any memory with zero counters every weakly fair execution of @main terminates, nothing faulting, and every
    final state holds every unscoped buffer at the last boundary's contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit_dev (pcfgs (F := F)) adm (pdats m) () cellOf_inj emb₁ defs₀ 𝒱₀ L lv m ρ main (mainSegs m)
    (fun c Q => by
      rewrite [main_chain c, Pipeline.Seg.run_eq_chain,
        show (mainSegs m c).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          Prog.lift (.customCall (Pipeline.entry 2) ()) ] from rfl]
      exact .rfl)
    (fun c => by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every weakly fair execution terminates, nothing faulting, with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c)⟩) (run_all m ρ)

end Cert.KernelIdeal.Hand

end
-- ==== Proof.HostChain.lean ====
/-
  The host operations the kernel's program runs between its three regions, as whole-array functions of what they read:
  the node degrees as a vector, the edge degrees as the sum of the two half-column partial sums, the two normalising
  scales (the reciprocal square root and the reciprocal of a degree clamped below, zero where the degree is not
  positive), the rows scaled by the node scale, and the column / row forms the next region takes them in. Each stretch
  of host operations is then read: the buffer it writes holds the corresponding function of the buffers it reads.
-/
import proofs.«116271_j23089744183324_2_alg».proof.Proof.Gen.KernelIdeal.Launch
import proofs.«116271_j23089744183324_2_alg».proof.Proof.Gen.KernelIdeal.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-! ## The host stages -/

/-- The node degrees, handed over as a column, as a vector. -/
def kDegN (a : (⟨S8192x1, .f32⟩ : BufTy).Contents (Elt F)) : (⟨S8192, .f32⟩ : BufTy).Contents (Elt F) :=
  shapeCast S8192 a shapeCasts_S8192x1_S8192
/-- The edge degrees: row 0 plus row 8 of the sixteen rows of partial column sums. -/
def kDegE (p : (⟨S16x4096, .f32⟩ : BufTy).Contents (Elt F)) : (⟨S4096, .f32⟩ : BufTy).Contents (Elt F) :=
  addf (shapeCast S4096 (extractStridedSlice S1x4096 ![0, 0] p slices_S16x4096_S1x4096_0_0) shapeCasts_S1x4096_S4096)
    (shapeCast S4096 (extractStridedSlice S1x4096 ![8, 0] p slices_S16x4096_S1x4096_8_0) shapeCasts_S1x4096_S4096)
/-- The node scale: where the degree is positive, the reciprocal square root of the degree clamped below; zero elsewhere. -/
def kDn (d : (⟨S8192, .f32⟩ : BufTy).Contents (Elt F)) : (⟨S8192, .f32⟩ : BufTy).Contents (Elt F) :=
  select (cmpf .ogt d (broadcastInDim S8192 ![] bcast_S_S8192 (constant S_ .f32 0x00000000#32)))
    (Host.rsqrt (maximumf d (broadcastInDim S8192 ![] bcast_S_S8192 (constant S_ .f32 0x0DA24260#32))))
    (broadcastInDim S8192 ![] bcast_S_S8192 (id (constant S_ .f32 0x00000000#32)))
/-- The edge scale: where the degree is positive, the reciprocal of the degree clamped below; zero elsewhere. -/
def kDe (d : (⟨S4096, .f32⟩ : BufTy).Contents (Elt F)) : (⟨S4096, .f32⟩ : BufTy).Contents (Elt F) :=
  select (cmpf .ogt d (broadcastInDim S4096 ![] bcast_S_S4096 (constant S_ .f32 0x00000000#32)))
    (Host.divf (broadcastInDim S4096 ![] bcast_S_S4096 (constant S_ .f32 0x3F800000#32))
      (maximumf d (broadcastInDim S4096 ![] bcast_S_S4096 (constant S_ .f32 0x0DA24260#32))))
    (broadcastInDim S4096 ![] bcast_S_S4096 (id (constant S_ .f32 0x00000000#32)))
/-- The features with every row scaled by its node's scale. -/
def kXs (x : (⟨S8192x256, .f32⟩ : BufTy).Contents (Elt F)) (dn : (⟨S8192, .f32⟩ : BufTy).Contents (Elt F)) :
    (⟨S8192x256, .f32⟩ : BufTy).Contents (Elt F) :=
  mulf x (broadcastInDim S8192x256 ![0, 1] bcast_S8192x1_S8192x256_0_1 (broadcastInDim S8192x1 ![0] bcast_S8192_S8192x1_0 dn))
/-- The edge scale as a column, the node scale as a column, the bias as a row. -/
def kDe2 (de : (⟨S4096, .f32⟩ : BufTy).Contents (Elt F)) : (⟨S4096x1, .f32⟩ : BufTy).Contents (Elt F) :=
  shapeCast S4096x1 de shapeCasts_S4096_S4096x1
def kDn2 (dn : (⟨S8192, .f32⟩ : BufTy).Contents (Elt F)) : (⟨S8192x1, .f32⟩ : BufTy).Contents (Elt F) :=
  shapeCast S8192x1 dn shapeCasts_S8192_S8192x1
def kB2 (b : (⟨S256, .f32⟩ : BufTy).Contents (Elt F)) : (⟨S1x256, .f32⟩ : BufTy).Contents (Elt F) :=
  shapeCast S1x256 b shapeCasts_S256_S1x256

/-! ## Each stretch read -/

variable (V : Valuation τ sig (Elt F))

/-- The first stretch: the degrees, the comparison and the clamped reciprocal square root of the node degrees, a zero. -/
theorem ops1_v6 : StableHlo.after (hostOps1 (F := F)) V (Proc.devRef .tc main_v6) = kDegE (V (Proc.devRef .tc main_v0_1)) := by
  after_results <;> rfl
theorem ops1_v8 : StableHlo.after (hostOps1 (F := F)) V (Proc.devRef .tc main_v8)
    = cmpf .ogt (kDegN (V (Proc.devRef .tc main_v0_0))) (broadcastInDim S8192 ![] bcast_S_S8192 (constant S_ .f32 0x00000000#32)) := by
  after_results <;> rfl
theorem ops1_v11 : StableHlo.after (hostOps1 (F := F)) V (Proc.devRef .tc main_v11)
    = Host.rsqrt (maximumf (kDegN (V (Proc.devRef .tc main_v0_0))) (broadcastInDim S8192 ![] bcast_S_S8192 (constant S_ .f32 0x0DA24260#32))) := by
  after_results <;> rfl
theorem ops1_cst_1 : StableHlo.after (hostOps1 (F := F)) V (Proc.devRef .tc main_cst_1) = constant S_ .f32 0x00000000#32 := by
  after_results <;> rfl
/-- The select of the first `where`: the node scale from what the first stretch left. -/
theorem ops1_1_v12 : StableHlo.after (hostOps1_1 (F := F)) V (Proc.devRef .tc main_v12)
    = select (V (Proc.devRef .tc main_v8)) (V (Proc.devRef .tc main_v11))
        (broadcastInDim S8192 ![] bcast_S_S8192 (id (V (Proc.devRef .tc main_cst_1)))) := by
  after_results <;> rfl
/-- The third stretch: the comparison and the clamped reciprocal of the edge degrees, a zero. -/
theorem ops1_2_v14 : StableHlo.after (hostOps1_2 (F := F)) V (Proc.devRef .tc main_v14)
    = cmpf .ogt (V (Proc.devRef .tc main_v6)) (broadcastInDim S4096 ![] bcast_S_S4096 (constant S_ .f32 0x00000000#32)) := by
  after_results <;> rfl
theorem ops1_2_v18 : StableHlo.after (hostOps1_2 (F := F)) V (Proc.devRef .tc main_v18)
    = Host.divf (broadcastInDim S4096 ![] bcast_S_S4096 (constant S_ .f32 0x3F800000#32))
        (maximumf (V (Proc.devRef .tc main_v6)) (broadcastInDim S4096 ![] bcast_S_S4096 (constant S_ .f32 0x0DA24260#32))) := by
  after_results <;> rfl
theorem ops1_2_cst_5 : StableHlo.after (hostOps1_2 (F := F)) V (Proc.devRef .tc main_cst_5) = constant S_ .f32 0x00000000#32 := by
  after_results <;> rfl
/-- The select of the second `where`: the edge scale. -/
theorem ops1_3_v19 : StableHlo.after (hostOps1_3 (F := F)) V (Proc.devRef .tc main_v19)
    = select (V (Proc.devRef .tc main_v14)) (V (Proc.devRef .tc main_v18))
        (broadcastInDim S4096 ![] bcast_S_S4096 (id (V (Proc.devRef .tc main_cst_5)))) := by
  after_results <;> rfl
/-- The fifth stretch: the scaled features and the edge scale as a column. -/
theorem ops1_4_v22 : StableHlo.after (hostOps1_4 (F := F)) V (Proc.devRef .tc main_v22)
    = kXs (V (Proc.devRef .tc main_arg0)) (V (Proc.devRef .tc main_v12)) := by
  after_results <;> rfl
theorem ops1_4_v23 : StableHlo.after (hostOps1_4 (F := F)) V (Proc.devRef .tc main_v23) = kDe2 (V (Proc.devRef .tc main_v19)) := by
  after_results <;> rfl
/-- The two reshapes before the last region: the node scale as a column, the bias as a row. -/
theorem ops2_v25 : StableHlo.after (hostOps2 (F := F)) V (Proc.devRef .tc main_v25) = kDn2 (V (Proc.devRef .tc main_v12)) := by
  after_results <;> rfl
theorem ops2_v26 : StableHlo.after (hostOps2 (F := F)) V (Proc.devRef .tc main_v26) = kB2 (V (Proc.devRef .tc main_arg3)) := by
  after_results <;> rfl

end Cert.KernelIdeal.Hand

end
-- ==== Proof.RunReads.lean ====
/-
  What each region finds in the buffers it reads, followed through the host operations between the regions: the second
  region reads the first region's copy of the matrix, the features scaled by the node scale, and the edge scale as a
  column; the third reads the same copy, the second region's result, the node scale as a column, the weights as
  launched and the bias as a row. The two scales are the host stages applied to the degree arrays the first region
  wrote.
-/
import proofs.«116271_j23089744183324_2_alg».proof.Proof.Run
import proofs.«116271_j23089744183324_2_alg».proof.Proof.HostChain

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ)

/-- The node scale and the edge scale, from the two degree arrays the first region leaves. -/
def scaleN (c : Dev nD) : (⟨S8192, .f32⟩ : BufTy).Contents (Elt F) := kDn (kDegN (W1 m c (Proc.devRef .tc main_v0_0)))
def scaleE (c : Dev nD) : (⟨S4096, .f32⟩ : BufTy).Contents (Elt F) := kDe (kDegE (W1 m c (Proc.devRef .tc main_v0_1)))

/-! ## Between regions 0 and 1 -/

theorem W3_v12 (c : Dev nD) : W3 m c (Proc.devRef .tc main_v12) = scaleN m c := by
  show StableHlo.after hostOps1_1 (W2 m c) (Proc.devRef .tc main_v12) = _
  rw [ops1_1_v12]
  show select (StableHlo.after hostOps1 (W1 m c) (Proc.devRef .tc main_v8)) (StableHlo.after hostOps1 (W1 m c) (Proc.devRef .tc main_v11))
    (broadcastInDim S8192 ![] bcast_S_S8192 (id (StableHlo.after hostOps1 (W1 m c) (Proc.devRef .tc main_cst_1)))) = _
  rw [ops1_v8, ops1_v11, ops1_cst_1]
  rfl

theorem W3_v6 (c : Dev nD) : W3 m c (Proc.devRef .tc main_v6) = kDegE (W1 m c (Proc.devRef .tc main_v0_1)) :=
  (StableHlo.after_of_writes_sub hostOps1_1 _ hostOps1_1_writes (by decide) : W3 m c (Proc.devRef .tc main_v6) = W2 m c (Proc.devRef .tc main_v6)).trans (ops1_v6 (W1 m c))

theorem W5_v19 (c : Dev nD) : W5 m c (Proc.devRef .tc main_v19) = scaleE m c := by
  show StableHlo.after hostOps1_3 (W4 m c) (Proc.devRef .tc main_v19) = _
  rw [ops1_3_v19]
  show select (StableHlo.after hostOps1_2 (W3 m c) (Proc.devRef .tc main_v14)) (StableHlo.after hostOps1_2 (W3 m c) (Proc.devRef .tc main_v18))
    (broadcastInDim S4096 ![] bcast_S_S4096 (id (StableHlo.after hostOps1_2 (W3 m c) (Proc.devRef .tc main_cst_5)))) = _
  rw [ops1_2_v14, ops1_2_v18, ops1_2_cst_5, W3_v6]
  rfl

theorem W5_v12 (c : Dev nD) : W5 m c (Proc.devRef .tc main_v12) = scaleN m c :=
  calc W5 m c (Proc.devRef .tc main_v12)
    _ = W4 m c (Proc.devRef .tc main_v12) := StableHlo.after_of_writes_sub hostOps1_3 _ hostOps1_3_writes (by decide)
    _ = W3 m c (Proc.devRef .tc main_v12) := StableHlo.after_of_writes_sub hostOps1_2 _ hostOps1_2_writes (by decide)
    _ = scaleN m c := W3_v12 m c

theorem W5_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps1_3 _ hostOps1_3_writes (by decide)
    _ = W3 m c (Proc.devRef .tc main_arg0) := StableHlo.after_of_writes_sub hostOps1_2 _ hostOps1_2_writes (by decide)
    _ = W2 m c (Proc.devRef .tc main_arg0) := StableHlo.after_of_writes_sub hostOps1_1 _ hostOps1_1_writes (by decide)
    _ = W1 m c (Proc.devRef .tc main_arg0) := StableHlo.after_of_writes_sub hostOps1 _ hostOps1_writes (by decide)
    _ = W0 m c (Proc.devRef .tc main_arg0) := W1_of_ne m c main_arg0 (by decide)
    _ = m ((c : Thread nD τ).loc main_arg0) := rfl

/-- Region 1 reads the scaled features, -/
theorem W6_v22 (c : Dev nD) : W6 m c (Proc.devRef .tc main_v22) = kXs (m ((c : Thread nD τ).loc main_arg0)) (scaleN m c) := by
  show StableHlo.after hostOps1_4 (W5 m c) (Proc.devRef .tc main_v22) = _
  rw [ops1_4_v22, W5_arg0, W5_v12]
/-- the edge scale as a column, -/
theorem W6_v23 (c : Dev nD) : W6 m c (Proc.devRef .tc main_v23) = kDe2 (scaleE m c) := by
  show StableHlo.after hostOps1_4 (W5 m c) (Proc.devRef .tc main_v23) = _
  rw [ops1_4_v23, W5_v19]
/-- and the first region's copy of the matrix. -/
theorem W6_v0_2 (c : Dev nD) : W6 m c (Proc.devRef .tc main_v0_2) = W1 m c (Proc.devRef .tc main_v0_2) :=
  calc W6 m c (Proc.devRef .tc main_v0_2)
    _ = W5 m c (Proc.devRef .tc main_v0_2) := StableHlo.after_of_writes_sub hostOps1_4 _ hostOps1_4_writes (by decide)
    _ = W4 m c (Proc.devRef .tc main_v0_2) := StableHlo.after_of_writes_sub hostOps1_3 _ hostOps1_3_writes (by decide)
    _ = W3 m c (Proc.devRef .tc main_v0_2) := StableHlo.after_of_writes_sub hostOps1_2 _ hostOps1_2_writes (by decide)
    _ = W2 m c (Proc.devRef .tc main_v0_2) := StableHlo.after_of_writes_sub hostOps1_1 _ hostOps1_1_writes (by decide)
    _ = W1 m c (Proc.devRef .tc main_v0_2) := StableHlo.after_of_writes_sub hostOps1 _ hostOps1_writes (by decide)

theorem W6_v12 (c : Dev nD) : W6 m c (Proc.devRef .tc main_v12) = scaleN m c :=
  (StableHlo.after_of_writes_sub hostOps1_4 _ hostOps1_4_writes (by decide) : W6 m c (Proc.devRef .tc main_v12) = W5 m c (Proc.devRef .tc main_v12)).trans (W5_v12 m c)

/-! ## Between regions 1 and 2 -/

theorem W7_v0_2 (c : Dev nD) : W7 m c (Proc.devRef .tc main_v0_2) = W1 m c (Proc.devRef .tc main_v0_2) :=
  ((W7_arr m c 0).trans (((dat1 (Vt6 m) c).arrAt_in 0 rfl _).trans (A_eq1 (Vt6 m) c 0))).trans (W6_v0_2 m c)

theorem W7_v12 (c : Dev nD) : W7 m c (Proc.devRef .tc main_v12) = scaleN m c :=
  (W7_of_ne m c main_v12 (by decide)).trans (W6_v12 m c)

theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_of_ne m c main_arg2 (by decide)
    _ = W5 m c (Proc.devRef .tc main_arg2) := StableHlo.after_of_writes_sub hostOps1_4 _ hostOps1_4_writes (by decide)
    _ = W4 m c (Proc.devRef .tc main_arg2) := StableHlo.after_of_writes_sub hostOps1_3 _ hostOps1_3_writes (by decide)
    _ = W3 m c (Proc.devRef .tc main_arg2) := StableHlo.after_of_writes_sub hostOps1_2 _ hostOps1_2_writes (by decide)
    _ = W2 m c (Proc.devRef .tc main_arg2) := StableHlo.after_of_writes_sub hostOps1_1 _ hostOps1_1_writes (by decide)
    _ = W1 m c (Proc.devRef .tc main_arg2) := StableHlo.after_of_writes_sub hostOps1 _ hostOps1_writes (by decide)
    _ = W0 m c (Proc.devRef .tc main_arg2) := W1_of_ne m c main_arg2 (by decide)
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := W7_of_ne m c main_arg3 (by decide)
    _ = W5 m c (Proc.devRef .tc main_arg3) := StableHlo.after_of_writes_sub hostOps1_4 _ hostOps1_4_writes (by decide)
    _ = W4 m c (Proc.devRef .tc main_arg3) := StableHlo.after_of_writes_sub hostOps1_3 _ hostOps1_3_writes (by decide)
    _ = W3 m c (Proc.devRef .tc main_arg3) := StableHlo.after_of_writes_sub hostOps1_2 _ hostOps1_2_writes (by decide)
    _ = W2 m c (Proc.devRef .tc main_arg3) := StableHlo.after_of_writes_sub hostOps1_1 _ hostOps1_1_writes (by decide)
    _ = W1 m c (Proc.devRef .tc main_arg3) := StableHlo.after_of_writes_sub hostOps1 _ hostOps1_writes (by decide)
    _ = W0 m c (Proc.devRef .tc main_arg3) := W1_of_ne m c main_arg3 (by decide)
    _ = m ((c : Thread nD τ).loc main_arg3) := rfl

/-- Region 2 reads the first region's copy of the matrix, -/
theorem W8_v0_2 (c : Dev nD) : W8 m c (Proc.devRef .tc main_v0_2) = W1 m c (Proc.devRef .tc main_v0_2) :=
  (StableHlo.after_of_writes_sub hostOps2 _ hostOps2_writes (by decide) : W8 m c (Proc.devRef .tc main_v0_2) = W7 m c (Proc.devRef .tc main_v0_2)).trans (W7_v0_2 m c)
/-- the second region's result, -/
theorem W8_v24 (c : Dev nD) : W8 m c (Proc.devRef .tc main_v24) = (dat1 (Vt6 m) c).arrAt 3 cfg1.N :=
  (StableHlo.after_of_writes_sub hostOps2 _ hostOps2_writes (by decide) : W8 m c (Proc.devRef .tc main_v24) = W7 m c (Proc.devRef .tc main_v24)).trans (W7_arr m c 3)
/-- the node scale as a column, -/
theorem W8_v25 (c : Dev nD) : W8 m c (Proc.devRef .tc main_v25) = kDn2 (scaleN m c) := by
  show StableHlo.after hostOps2 (W7 m c) (Proc.devRef .tc main_v25) = _
  rw [ops2_v25, W7_v12]
/-- the weights as launched, -/
theorem W8_arg2 (c : Dev nD) : W8 m c (Proc.devRef .tc main_arg2) = m ((c : Thread nD τ).loc main_arg2) :=
  (StableHlo.after_of_writes_sub hostOps2 _ hostOps2_writes (by decide) : W8 m c (Proc.devRef .tc main_arg2) = W7 m c (Proc.devRef .tc main_arg2)).trans (W7_main_arg2 m c)
/-- and the bias as a row. -/
theorem W8_v26 (c : Dev nD) : W8 m c (Proc.devRef .tc main_v26) = kB2 (m ((c : Thread nD τ).loc main_arg3)) := by
  show StableHlo.after hostOps2 (W7 m c) (Proc.devRef .tc main_v26) = _
  rw [ops2_v26, W7_main_arg3]

/-- The result array at the end is what the last region's write-backs leave. -/
theorem W9_v27 (c : Dev nD) : W9 m c (Proc.devRef .tc main_v27) = (dat2 (Vt8 m) c).arrAt 5 cfg2.N := W9_arr m c 5

/-- What the first region leaves in its three result arrays. -/
theorem W1_v0_0 (c : Dev nD) : W1 m c (Proc.devRef .tc main_v0_0) = (dat0 (Vt0 m) c).arrAt 1 cfg0.N := W1_arr m c 1
theorem W1_v0_1 (c : Dev nD) : W1 m c (Proc.devRef .tc main_v0_1) = (dat0 (Vt0 m) c).arrAt 2 cfg0.N := W1_arr m c 2
theorem W1_v0_2 (c : Dev nD) : W1 m c (Proc.devRef .tc main_v0_2) = (dat0 (Vt0 m) c).arrAt 3 cfg0.N := W1_arr m c 3

end Cert.KernelIdeal.Hand

end
-- ==== Proof.Region2Pay.lean ====
import proofs.«116271_j23089744183324_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-! # Region 2's three payloads, read at an index over the extended reals

At the ideal values the roundings to bf16 are the identity, a product of two blocks into the zero splat is the sum of
the products over the contracted axis, and the pointwise operations are the extended reals' own. -/

/-! ## The first product: rows of window 0's block against columns of window 1's block -/

theorem lhs2a_0 (i : S2048x256.Idx) (q : dot_S2048x1024_S1024x256_S2048x256_1_0_0_1_n_n.contr.Idx) :
    (dot_S2048x1024_S1024x256_S2048x256_1_0_0_1_n_n.lhsIdx i q 0).val = (i 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl
theorem lhs2a_1 (i : S2048x256.Idx) (q : dot_S2048x1024_S1024x256_S2048x256_1_0_0_1_n_n.contr.Idx) :
    (dot_S2048x1024_S1024x256_S2048x256_1_0_0_1_n_n.lhsIdx i q 1).val = (q ⟨0, by decide⟩).val :=
  dot_S2048x1024_S1024x256_S2048x256_1_0_0_1_n_n.lhsIdx_val_of_single rfl i q
theorem rhs2a_0 (i : S2048x256.Idx) (q : dot_S2048x1024_S1024x256_S2048x256_1_0_0_1_n_n.contr.Idx) :
    (dot_S2048x1024_S1024x256_S2048x256_1_0_0_1_n_n.rhsIdx i q 0).val = (q ⟨0, by decide⟩).val :=
  dot_S2048x1024_S1024x256_S2048x256_1_0_0_1_n_n.rhsIdx_val_of_single rfl i q
theorem rhs2a_1 (i : S2048x256.Idx) (q : dot_S2048x1024_S1024x256_S2048x256_1_0_0_1_n_n.contr.Idx) :
    (dot_S2048x1024_S1024x256_S2048x256_1_0_0_1_n_n.rhsIdx i q 1).val = (i 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl

/-- The product of a 2048×1024 block with a 1024×256 block into the zero splat, at row `r` and column `k`. -/
theorem matmul2a_apply (l : FVec Ideal S2048x1024 .bf16) (rr : FVec Ideal S1024x256 .bf16) (r : Fin 2048) (k : Fin 256) :
    matmul dot_S2048x1024_S1024x256_S2048x256_1_0_0_1_n_n none l rr (constant (F := Ideal) S2048x256 .f32 0x00000000#32) (ix2 r k)
      = ∑ j : Fin 1024, l (ix2 r j) * rr (ix2 j k) := by
  simp only [matmul]
  rw [Ideal.matmul_constant_zero_apply, ← Equiv.sum_comp (contrEquiv1 dot_S2048x1024_S1024x256_S2048x256_1_0_0_1_n_n 1024 rfl rfl).symm]
  refine Finset.sum_congr rfl fun j _ => ?_
  have hk := contrEquiv1_symm_val dot_S2048x1024_S1024x256_S2048x256_1_0_0_1_n_n 1024 rfl rfl j
  have el : dot_S2048x1024_S1024x256_S2048x256_1_0_0_1_n_n.lhsIdx (ix2 r k) ((contrEquiv1 dot_S2048x1024_S1024x256_S2048x256_1_0_0_1_n_n 1024 rfl rfl).symm j) = ix2 r j := funext fun a => Fin.ext (by
    match a with
    | ⟨0, _⟩ => exact lhs2a_0 _ _
    | ⟨1, _⟩ => exact (lhs2a_1 _ _).trans hk)
  have er : dot_S2048x1024_S1024x256_S2048x256_1_0_0_1_n_n.rhsIdx (ix2 r k) ((contrEquiv1 dot_S2048x1024_S1024x256_S2048x256_1_0_0_1_n_n 1024 rfl rfl).symm j) = ix2 j k := funext fun a => Fin.ext (by
    match a with
    | ⟨0, _⟩ => exact (rhs2a_0 _ _).trans hk
    | ⟨1, _⟩ => exact rhs2a_1 _ _)
  rw [el, er]

/-! ## The second product: both operands contracted along their second axis -/

theorem lhs2b_0 (i : S2048x256.Idx) (q : dot_S2048x256_S256x256_S2048x256_1_1_0_0_n_n.contr.Idx) :
    (dot_S2048x256_S256x256_S2048x256_1_1_0_0_n_n.lhsIdx i q 0).val = (i 0).val := by
  unfold DotDims.lhsIdx
  rw [dif_neg (show ¬(0 : Fin S2048x256.rank) ∈ dot_S2048x256_S256x256_S2048x256_1_1_0_0_n_n.lhsBatch by decide), dif_pos (show (0 : Fin S2048x256.rank) ∈ dot_S2048x256_S256x256_S2048x256_1_1_0_0_n_n.lhsNonContracting by decide)]
  rfl
theorem lhs2b_1 (i : S2048x256.Idx) (q : dot_S2048x256_S256x256_S2048x256_1_1_0_0_n_n.contr.Idx) :
    (dot_S2048x256_S256x256_S2048x256_1_1_0_0_n_n.lhsIdx i q 1).val = (q ⟨0, by decide⟩).val :=
  dot_S2048x256_S256x256_S2048x256_1_1_0_0_n_n.lhsIdx_val_of_single rfl i q
theorem rhs2b_0 (i : S2048x256.Idx) (q : dot_S2048x256_S256x256_S2048x256_1_1_0_0_n_n.contr.Idx) :
    (dot_S2048x256_S256x256_S2048x256_1_1_0_0_n_n.rhsIdx i q 0).val = (i 1).val := by
  unfold DotDims.rhsIdx
  rw [dif_neg (show ¬(0 : Fin S256x256.rank) ∈ dot_S2048x256_S256x256_S2048x256_1_1_0_0_n_n.rhsBatch by decide), dif_pos (show (0 : Fin S256x256.rank) ∈ dot_S2048x256_S256x256_S2048x256_1_1_0_0_n_n.rhsNonContracting by decide)]
  rfl
theorem rhs2b_1 (i : S2048x256.Idx) (q : dot_S2048x256_S256x256_S2048x256_1_1_0_0_n_n.contr.Idx) :
    (dot_S2048x256_S256x256_S2048x256_1_1_0_0_n_n.rhsIdx i q 1).val = (q ⟨0, by decide⟩).val :=
  dot_S2048x256_S256x256_S2048x256_1_1_0_0_n_n.rhsIdx_val_of_single rfl i q

/-- The product of a 2048×256 block with the transpose of a 256×256 block into the zero splat, at row `r` and
    column `d`: the second operand is read at `(d, k)`. -/
theorem matmul2b_apply (l : FVec Ideal S2048x256 .bf16) (rr : FVec Ideal S256x256 .bf16) (r : Fin 2048) (d : Fin 256) :
    matmul dot_S2048x256_S256x256_S2048x256_1_1_0_0_n_n none l rr (constant (F := Ideal) S2048x256 .f32 0x00000000#32) (ix2 r d)
      = ∑ k : Fin 256, l (ix2 r k) * rr (ix2 d k) := by
  simp only [matmul]
  rw [Ideal.matmul_constant_zero_apply, ← Equiv.sum_comp (contrEquiv1 dot_S2048x256_S256x256_S2048x256_1_1_0_0_n_n 256 rfl rfl).symm]
  refine Finset.sum_congr rfl fun k _ => ?_
  have hk := contrEquiv1_symm_val dot_S2048x256_S256x256_S2048x256_1_1_0_0_n_n 256 rfl rfl k
  have el : dot_S2048x256_S256x256_S2048x256_1_1_0_0_n_n.lhsIdx (ix2 r d) ((contrEquiv1 dot_S2048x256_S256x256_S2048x256_1_1_0_0_n_n 256 rfl rfl).symm k) = ix2 r k := funext fun a => Fin.ext (by
    match a with
    | ⟨0, _⟩ => exact lhs2b_0 _ _
    | ⟨1, _⟩ => exact (lhs2b_1 _ _).trans hk)
  have er : dot_S2048x256_S256x256_S2048x256_1_1_0_0_n_n.rhsIdx (ix2 r d) ((contrEquiv1 dot_S2048x256_S256x256_S2048x256_1_1_0_0_n_n 256 rfl rfl).symm k) = ix2 d k := funext fun a => Fin.ext (by
    match a with
    | ⟨0, _⟩ => exact rhs2b_0 _ _
    | ⟨1, _⟩ => exact (rhs2b_1 _ _).trans hk)
  rw [el, er]

/-! ## The broadcasts of a column and of a row -/

/-- A 2048×1 column broadcast along the rows' 256 lanes reads the column's entry of the row. -/
theorem bcastCol2_apply (x : Vec Ideal S2048x1 .f32) (r : Fin 2048) (k : Fin 256) :
    broadcastTo S2048x256 x broadcasts_S2048x1_S2048x256 (ix2 r k) = x (ix2 r 0) :=
  broadcastTo_apply x broadcasts_S2048x1_S2048x256 (ix2 r k) (ix2 r 0) fun a => by
    match a with
    | ⟨0, _⟩ => show r.val = if (2048 : Nat) = 1 then 0 else r.val; rw [if_neg (by decide)]
    | ⟨1, _⟩ => show (0 : Nat) = if (1 : Nat) = 1 then 0 else k.val; rw [if_pos rfl]

/-- A 1×256 row broadcast down the 2048 rows reads the row's entry of the lane. -/
theorem bcastRow2_apply (x : Vec Ideal S1x256 .f32) (r : Fin 2048) (d : Fin 256) :
    broadcastTo S2048x256 x broadcasts_S1x256_S2048x256 (ix2 r d) = x (ix2 0 d) :=
  broadcastTo_apply x broadcasts_S1x256_S2048x256 (ix2 r d) (ix2 0 d) fun a => by
    match a with
    | ⟨0, _⟩ => show (0 : Nat) = if (1 : Nat) = 1 then 0 else r.val; rw [if_pos rfl]
    | ⟨1, _⟩ => show d.val = if (256 : Nat) = 1 then 0 else d.val; rw [if_neg (by decide)]

/-! ## The three payloads -/

/-- The fill of the accumulator is zero everywhere. -/
theorem k2_pay1_apply (r : Fin 2048) (k : Fin 256) : k2_pay1 (F := Ideal) (ix2 r k) = 0 := by
  unfold k2_pay1
  rw [shapeCast_self]
  exact Ideal.ofBits_zero_f32

/-- The accumulation step at `(r, k)`: what the accumulator held there plus the sum over the block's 1024 columns of
    window 0's entry of row `r` times window 1's entry of column `k`. -/
theorem k2_pay2_apply (x0 : Vec Ideal S2048x1024 .bf16) (x1 : Vec Ideal S1024x256 .f32) (xs : Vec Ideal S2048x256 .f32)
    (r : Fin 2048) (k : Fin 256) :
    k2_pay2 x0 x1 xs (ix2 r k) = xs (ix2 r k) + ∑ j : Fin 1024, x0 (ix2 r j) * x1 (ix2 j k) := by
  unfold k2_pay2
  rw [shapeCast_self, shapeCast_self, shapeCast_self]
  exact congrArg (xs (ix2 r k) + ·) (matmul2a_apply x0 (truncf .bf16 x1 bitsLt_bf16_f32) r k)

/-- The output at `(r, d)`: the sum over `k` of the accumulated row scaled by window 2's entry of the row, times
    window 3's entry `(d, k)`, plus window 4's entry of lane `d`. -/
theorem k2_pay3_apply (xs : Vec Ideal S2048x256 .f32) (x2 : Vec Ideal S2048x1 .f32) (x3 : Vec Ideal S256x256 .f32)
    (x4 : Vec Ideal S1x256 .f32) (r : Fin 2048) (d : Fin 256) :
    k2_pay3 xs x2 x3 x4 (ix2 r d)
      = (∑ k : Fin 256, (xs (ix2 r k) * x2 (ix2 r 0)) * x3 (ix2 d k)) + x4 (ix2 0 d) := by
  unfold k2_pay3
  rw [shapeCast_self, shapeCast_self]
  refine (congrArg₂ (· + ·) (matmul2b_apply _ _ r d) (bcastRow2_apply x4 r d)).trans ?_
  refine congrArg (· + x4 (ix2 0 d)) (Finset.sum_congr rfl fun k _ => ?_)
  exact congrArg (· * x3 (ix2 d k)) (congrArg (xs (ix2 r k) * ·) (bcastCol2_apply x2 r k))

end Cert.KernelIdeal.Hand

end
-- ==== Proof.Region2Value.lean ====
import proofs.«116271_j23089744183324_2_alg».proof.Proof.Region2
import proofs.«116271_j23089744183324_2_alg».proof.Proof.Region2Pay
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! # Region 2's output array as one function of the arrays the region finds

`h` (8192×4096), `e` (4096×256), `dn` (8192×1), `W` (256×256) and `b` (1×256) are the arrays of windows 0 to 4 when the
region is entered. Row `R` of the output is computed in the group of four points that sweeps `R`'s block of 2048 rows:
the accumulator collects, block of 1024 columns by block, the products of `h`'s row with `e`'s columns; the group's last
point scales by `dn`, multiplies by `W` transposed and adds `b`. -/

/-! ## The function -/

/-- The part of `h · e` at `(R, k)` that comes from the `n`-th block of 1024 columns of `h`. -/
def blockSum2 (h : S8192x4096.Idx → EReal) (e : S4096x256.Idx → EReal) (R : Fin 8192) (k : Fin 256) (n : ℕ) (hn : n < 4) : EReal :=
  ∑ j : Fin 1024, h (ix2 R ⟨1024 * n + j.val, by have := j.isLt; omega⟩) * e (ix2 ⟨1024 * n + j.val, by have := j.isLt; omega⟩ k)

/-- The accumulator's entry `(R, k)` after the first `n + 1` blocks, added in the grid's order onto the zero fill. -/
def accRow2 (h : S8192x4096.Idx → EReal) (e : S4096x256.Idx → EReal) (R : Fin 8192) (k : Fin 256) : (n : ℕ) → n < 4 → EReal
  | 0, hn => 0 + blockSum2 h e R k 0 hn
  | n + 1, hn => accRow2 h e R k n (Nat.lt_of_succ_lt hn) + blockSum2 h e R k (n + 1) hn

/-- The output's entry `(R, d)`. -/
def outEntry2 (h : S8192x4096.Idx → EReal) (e : S4096x256.Idx → EReal) (dn : S8192x1.Idx → EReal) (W : S256x256.Idx → EReal)
    (b : S1x256.Idx → EReal) (R : Fin 8192) (d : Fin 256) : EReal :=
  (∑ k : Fin 256, (accRow2 h e R k 3 (by decide) * dn (ix2 R 0)) * W (ix2 d k)) + b (ix2 0 d)

/-- The output array. -/
def outArr2 (h : S8192x4096.Idx → EReal) (e : S4096x256.Idx → EReal) (dn : S8192x1.Idx → EReal) (W : S256x256.Idx → EReal)
    (b : S1x256.Idx → EReal) : S8192x256.Idx → EReal :=
  fun i => outEntry2 h e dn W b ⟨(i 0).val, (i 0).isLt⟩ ⟨(i 1).val, (i 1).isLt⟩

/-! ## The printed index maps, decided over the grid -/

theorem idx_facts2 : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val / 4 ∧ win2_5.index t (1 : Fin 2) = 0 :=
  (by decide +kernel : ∀ t : Fin grid2.N, _)

section Region
variable (V : (c : Dev nD) → (b : Ref sig .tc) → Buf (Elt Ideal) ((c : Thread nD τ).loc b))

/-! ## The windows' blocks, entry by entry -/

theorem iblk2_0_apply (c : Dev nD) (t : Fin cfg2.N) (r : Fin 2048) (j : Fin 1024) (R : Fin 8192) (J : Fin 4096)
    (hR : R.val = 2048 * (t.val / 4) + r.val) (hJ : J.val = 1024 * (t.val % 4) + j.val) :
    (iblk2 V c 0 t : Vec Ideal S2048x1024 .bf16) (ix2 r j) = (V c (Pipeline.arrRef spec2 0) : S8192x4096.Idx → EReal) (ix2 R J) := by
  obtain ⟨e0, e1, -⟩ := idx_facts2 t
  unfold iblk2
  rw [View.read_apply]
  show (V c (Pipeline.arrRef spec2 0) : S8192x4096.Idx → EReal) _ = _
  refine congrArg _ (funext fun a => Fin.ext ?_)
  match a with
  | ⟨0, _⟩ => show win2_0.index t (0 : Fin 2) * 2048 + 1 * r.val = R.val; rw [e0, hR]; omega
  | ⟨1, _⟩ => show win2_0.index t (1 : Fin 2) * 1024 + 1 * j.val = J.val; rw [e1, hJ]; omega

theorem iblk2_1_apply (c : Dev nD) (t : Fin cfg2.N) (j : Fin 1024) (k : Fin 256) (J : Fin 4096)
    (hJ : J.val = 1024 * (t.val % 4) + j.val) :
    (iblk2 V c 1 t : Vec Ideal S1024x256 .f32) (ix2 j k) = (V c (Pipeline.arrRef spec2 1) : S4096x256.Idx → EReal) (ix2 J k) := by
  obtain ⟨-, -, e0, e1, -⟩ := idx_facts2 t
  unfold iblk2
  rw [View.read_apply]
  show (V c (Pipeline.arrRef spec2 1) : S4096x256.Idx → EReal) _ = _
  refine congrArg _ (funext fun a => Fin.ext ?_)
  match a with
  | ⟨0, _⟩ => show win2_1.index t (0 : Fin 2) * 1024 + 1 * j.val = J.val; rw [e0, hJ]; omega
  | ⟨1, _⟩ => show win2_1.index t (1 : Fin 2) * 256 + 1 * k.val = k.val; rw [e1]; omega

theorem iblk2_2_apply (c : Dev nD) (t : Fin cfg2.N) (r : Fin 2048) (R : Fin 8192)
    (hR : R.val = 2048 * (t.val / 4) + r.val) :
    (iblk2 V c 2 t : Vec Ideal S2048x1 .f32) (ix2 r 0) = (V c (Pipeline.arrRef spec2 2) : S8192x1.Idx → EReal) (ix2 R 0) := by
  obtain ⟨-, -, -, -, e0, e1, -⟩ := idx_facts2 t
  unfold iblk2
  rw [View.read_apply]
  show (V c (Pipeline.arrRef spec2 2) : S8192x1.Idx → EReal) _ = _
  refine congrArg _ (funext fun a => Fin.ext ?_)
  match a with
  | ⟨0, _⟩ => show win2_2.index t (0 : Fin 2) * 2048 + 1 * r.val = R.val; rw [e0, hR]; omega
  | ⟨1, _⟩ => show win2_2.index t (1 : Fin 2) * 1 + 1 * 0 = 0; rw [e1]

theorem iblk2_3_apply (c : Dev nD) (t : Fin cfg2.N) (d k : Fin 256) :
    (iblk2 V c 3 t : Vec Ideal S256x256 .f32) (ix2 d k) = (V c (Pipeline.arrRef spec2 3) : S256x256.Idx → EReal) (ix2 d k) := by
  obtain ⟨-, -, -, -, -, -, e0, e1, -⟩ := idx_facts2 t
  unfold iblk2
  rw [View.read_apply]
  show (V c (Pipeline.arrRef spec2 3) : S256x256.Idx → EReal) _ = _
  refine congrArg _ (funext fun a => Fin.ext ?_)
  match a with
  | ⟨0, _⟩ => show win2_3.index t (0 : Fin 2) * 256 + 1 * d.val = d.val; rw [e0]; omega
  | ⟨1, _⟩ => show win2_3.index t (1 : Fin 2) * 256 + 1 * k.val = k.val; rw [e1]; omega

theorem iblk2_4_apply (c : Dev nD) (t : Fin cfg2.N) (d : Fin 256) :
    (iblk2 V c 4 t : Vec Ideal S1x256 .f32) (ix2 0 d) = (V c (Pipeline.arrRef spec2 4) : S1x256.Idx → EReal) (ix2 0 d) := by
  obtain ⟨-, -, -, -, -, -, -, -, e0, e1, -⟩ := idx_facts2 t
  unfold iblk2
  rw [View.read_apply]
  show (V c (Pipeline.arrRef spec2 4) : S1x256.Idx → EReal) _ = _
  refine congrArg _ (funext fun a => Fin.ext ?_)
  match a with
  | ⟨0, _⟩ => show win2_4.index t (0 : Fin 2) * 1 + 1 * 0 = 0; rw [e0]
  | ⟨1, _⟩ => show win2_4.index t (1 : Fin 2) * 256 + 1 * d.val = d.val; rw [e1]; omega

/-! ## The accumulator, entry by entry -/

/-- A product of two blocks at `(r, k)` is the `q`-th block's share of `h · e` at row `R`, once the blocks' entries are
    known to be `h`'s and `e`'s there. -/
theorem blockSum2_of (x0 : Vec Ideal S2048x1024 .bf16) (x1 : Vec Ideal S1024x256 .f32)
    (h : S8192x4096.Idx → EReal) (e : S4096x256.Idx → EReal) (r : Fin 2048) (k : Fin 256) (R : Fin 8192) (q : ℕ) (hq : q < 4)
    (h0 : ∀ j : Fin 1024, x0 (ix2 r j) = h (ix2 R ⟨1024 * q + j.val, by have := j.isLt; omega⟩))
    (h1 : ∀ j : Fin 1024, x1 (ix2 j k) = e (ix2 ⟨1024 * q + j.val, by have := j.isLt; omega⟩ k)) :
    (∑ j : Fin 1024, x0 (ix2 r j) * x1 (ix2 j k)) = blockSum2 h e R k q hq := by
  unfold blockSum2
  exact Finset.sum_congr rfl fun j _ => by rw [h0 j, h1 j]

/-- What the accumulator holds at `(r, k)` after the point at position `n`, the `q`-th of its group: the first `q + 1`
    blocks' shares, in order, at the row the group sweeps. -/
theorem accAt2_apply (c : Dev nD) (r : Fin 2048) (k : Fin 256) :
    ∀ (q : ℕ) (hq : q < 4) (n : ℕ) (hn : n < cfg2.N) (hqn : n % 4 = q) (R : Fin 8192) (hR : R.val = 2048 * (n / 4) + r.val),
      accAt2 V c n hn (ix2 r k) = accRow2 (V c (Pipeline.arrRef spec2 0)) (V c (Pipeline.arrRef spec2 1)) R k q hq
  | 0, hq, n, hn, hqn, R, hR => by
    rw [accAt2_first V c ⟨n, hn⟩ hqn]
    refine (k2_pay2_apply (iblk2 V c 0 ⟨n, hn⟩) (iblk2 V c 1 ⟨n, hn⟩) (k2_pay1 (F := Ideal)) r k).trans ?_
    rw [k2_pay1_apply r k, blockSum2_of (iblk2 V c 0 ⟨n, hn⟩) (iblk2 V c 1 ⟨n, hn⟩) (V c (Pipeline.arrRef spec2 0)) (V c (Pipeline.arrRef spec2 1)) r k R 0 hq
      (fun j => iblk2_0_apply V c ⟨n, hn⟩ r j R _ hR (by show _ = 1024 * (n % 4) + j.val; rw [hqn]))
      (fun j => iblk2_1_apply V c ⟨n, hn⟩ j k _ (by show _ = 1024 * (n % 4) + j.val; rw [hqn]))]
    rfl
  | q + 1, hq, n, hn, hqn, R, hR => by
    have h0 : ¬n % 4 = 0 := by omega
    rw [accAt2_later V c ⟨n, hn⟩ h0]
    refine (k2_pay2_apply (iblk2 V c 0 ⟨n, hn⟩) (iblk2 V c 1 ⟨n, hn⟩) _ r k).trans ?_
    rw [accAt2_apply c r k q (Nat.lt_of_succ_lt hq) (n - 1) _ (by omega) R (by rw [hR]; omega),
      blockSum2_of (iblk2 V c 0 ⟨n, hn⟩) (iblk2 V c 1 ⟨n, hn⟩) (V c (Pipeline.arrRef spec2 0)) (V c (Pipeline.arrRef spec2 1)) r k R (q + 1) hq
        (fun j => iblk2_0_apply V c ⟨n, hn⟩ r j R _ hR (by show _ = 1024 * (n % 4) + j.val; rw [hqn]))
        (fun j => iblk2_1_apply V c ⟨n, hn⟩ j k _ (by show _ = 1024 * (n % 4) + j.val; rw [hqn]))]
    rfl

/-! ## What a group's last point writes back -/

/-- The block the pipeline writes back at a group's last point is that block of the output array. -/
theorem flushed2_5_eq (c : Dev nD) (t : Fin cfg2.N) (hf : (cfg2.win 5).flush t = true) :
    (dat2 V c).flushed 5 t = ((cfg2.win 5).blk t).view.read (Elt Ideal)
      (outArr2 (V c (Pipeline.arrRef spec2 0)) (V c (Pipeline.arrRef spec2 1)) (V c (Pipeline.arrRef spec2 2))
        (V c (Pipeline.arrRef spec2 3)) (V c (Pipeline.arrRef spec2 4))) := by
  have h3 : t.val % 4 = 3 := (flush2_5 t).mp hf
  obtain ⟨-, -, -, -, -, -, -, -, -, -, e0, e1⟩ := idx_facts2 t
  have hN : t.val < 16 := lt_of_lt_of_eq t.isLt (show cfg2.N = 16 from N_2)
  show (cfg2.win 5).cut (grid2.coords t) ((dat2 V c).after 5 t) = _
  rw [after2_5]
  funext y
  obtain ⟨r, d, rfl⟩ : ∃ (r : Fin 2048) (d : Fin 256), y = ix2 r d := ⟨y 0, y 1, eq_ix2 y⟩
  rw [View.read_apply]
  have hR : 2048 * (t.val / 4) + r.val < 8192 := by have := r.isLt; omega
  have hrow : (⟨((((cfg2.win 5).blk t).view.emb (ix2 r d)) 0).val, ((((cfg2.win 5).blk t).view.emb (ix2 r d)) 0).isLt⟩ : Fin 8192)
      = ⟨2048 * (t.val / 4) + r.val, hR⟩ := Fin.ext (by
    show win2_5.index t (0 : Fin 2) * 2048 + 1 * r.val = 2048 * (t.val / 4) + r.val; rw [e0]; omega)
  have hcol : (⟨((((cfg2.win 5).blk t).view.emb (ix2 r d)) 1).val, ((((cfg2.win 5).blk t).view.emb (ix2 r d)) 1).isLt⟩ : Fin 256)
      = d := Fin.ext (by
    show win2_5.index t (1 : Fin 2) * 256 + 1 * d.val = d.val; rw [e1]; omega)
  show outStep2 (accAt2 V c t.val t.isLt) (iblk2 V c 2 t) (iblk2 V c 3 t) (iblk2 V c 4 t) (ix2 r d) = outEntry2 _ _ _ _ _ _ _
  rw [hrow, hcol]
  refine (k2_pay3_apply (accAt2 V c t.val t.isLt) (iblk2 V c 2 t) (iblk2 V c 3 t) (iblk2 V c 4 t) r d).trans ?_
  unfold outEntry2
  rw [iblk2_4_apply V c t d, iblk2_2_apply V c t r ⟨2048 * (t.val / 4) + r.val, hR⟩ rfl]
  refine congrArg (· + _) (Finset.sum_congr rfl fun k _ => ?_)
  rw [accAt2_apply V c r k 3 (by decide) t.val t.isLt h3 ⟨2048 * (t.val / 4) + r.val, hR⟩ rfl, iblk2_3_apply V c t d k]

/-! ## The array after the region -/

/-- Every entry of the output array lies in the block some group's last point writes back. -/
theorem cover2_5 (i : S8192x256.Idx) :
    ∃ t : Fin cfg2.N, (cfg2.win 5).flush t = true ∧ i ∈ ((cfg2.win 5).blk t).view.set := by
  have hi0 : (i 0).val < 8192 := (i 0).isLt
  have hi1 : (i 1).val < 256 := (i 1).isLt
  have hN : cfg2.N = 16 := N_2
  have ht : 4 * ((i 0).val / 2048) + 3 < cfg2.N := by rw [hN]; omega
  refine ⟨⟨4 * ((i 0).val / 2048) + 3, ht⟩, (flush2_5 _).mpr (by show (4 * ((i 0).val / 2048) + 3) % 4 = 3; omega), ?_⟩
  obtain ⟨-, -, -, -, -, -, -, -, -, -, e0, e1⟩ := idx_facts2 ⟨4 * ((i 0).val / 2048) + 3, ht⟩
  show i ∈ ((View.whole main_v27).slice (win2_5.rect ⟨4 * ((i 0).val / 2048) + 3, ht⟩)).set
  rw [View.set_slice_whole, Rect.mem_set_unit]
  intro a
  match a with
  | ⟨0, _⟩ =>
    show win2_5.index ⟨4 * ((i 0).val / 2048) + 3, ht⟩ (0 : Fin 2) * 2048 ≤ (i 0).val ∧ (i 0).val < win2_5.index ⟨4 * ((i 0).val / 2048) + 3, ht⟩ (0 : Fin 2) * 2048 + 2048
    rw [e0]; show (4 * ((i 0).val / 2048) + 3) / 4 * 2048 ≤ (i 0).val ∧ (i 0).val < (4 * ((i 0).val / 2048) + 3) / 4 * 2048 + 2048
    omega
  | ⟨1, _⟩ =>
    show win2_5.index ⟨4 * ((i 0).val / 2048) + 3, ht⟩ (1 : Fin 2) * 256 ≤ (i 1).val ∧ (i 1).val < win2_5.index ⟨4 * ((i 0).val / 2048) + 3, ht⟩ (1 : Fin 2) * 256 + 256
    rw [e1]; omega

/-- THE ARRAY AFTER THE REGION: the output window's array is `outArr2` of the arrays of windows 0 to 4 as the region
    finds them. -/
theorem final2_5 (c : Dev nD) :
    (dat2 V c).arrAt 5 cfg2.N
      = outArr2 (V c (Pipeline.arrRef spec2 0)) (V c (Pipeline.arrRef spec2 1)) (V c (Pipeline.arrRef spec2 2))
          (V c (Pipeline.arrRef spec2 3)) (V c (Pipeline.arrRef spec2 4)) :=
  (dat2 V c).arrAt_eq_of_cover 5 _ (flushed2_5_eq V c) cover2_5

end Region

end Cert.KernelIdeal.Hand

end
-- ==== Proof.Region0Value.lean ====
import proofs.«116271_j23089744183324_2_alg».proof.Proof.Region0
import Idealize.ShloMosaic.Lib.Pipeline.Value
import Idealize.ShloMosaic.Lib.ValueIdx
import Idealize.ShloMosaic.Lib.ValueLayout
import Idealize.ShloMosaic.PureOps.Ideal.Laws

set_option maxRecDepth 16384

/-!
# Region 0 at the ideal values: what its three result arrays hold

From the per-point contents of `Region0`: every point's write-back is a block of one function of the matrix, and
the blocks written back cover each array, so after the region

* the row-sum array holds, at row `i`, the matrix's row `i` summed over its 4096 columns;
* the bf16 copy is the matrix, index by index;
* the 16×4096 column-sum array holds, in rows 0…7, the column sums of the matrix's rows 0…4095 (added block by
  block, 512 rows at a time), and in rows 8…15 those of rows 4096…8191.
-/

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)
open scoped BigOperators

/-! ## The body's stored values, read at an index, at the ideal values -/

theorem hz0 : (![0, 0] : Fin 2 → Nat) = fun _ => 0 := funext fun a => by fin_cases a <;> rfl

/-- The row-sum payload at row `ρ`: the sum of the block's row over its 4096 columns. -/
theorem pay1_apply (x0 : Vec Ideal S512x4096 .f32) (ρ : Fin 512) (u : Fin 1) :
    k0_pay1 x0 (ix2 ρ u) = ∑ k : Fin 4096, x0 (ix2 ρ k) := by
  unfold k0_pay1
  refine (shapeCast_apply _ shapeCasts_S512_S512x1 (ix2 ρ u) (ix1 ρ) ?_).trans ?_
  · rw [Shape.rowMajor_val_two, Shape.rowMajor_val_one]
    show ρ.val = ρ.val * 1 + u.val
    omega
  · refine (Ideal.multiReduction_add_single x0 0x00000000#32 reduces_S512x4096_S512 (.inl rfl) rfl (ix1 ρ)).trans ?_
    refine Finset.sum_congr rfl fun k _ => congrArg x0 ?_
    funext a; match a with | ⟨0, _⟩ => rfl | ⟨1, _⟩ => rfl

/-- The narrowed copy is the block itself. -/
theorem pay2_apply (x0 : Vec Ideal S512x4096 .f32) (i : S512x4096.Idx) : k0_pay2 x0 i = x0 i := rfl

/-- The zero fill. -/
theorem pay3_apply (i : S8x4096.Idx) : k0_pay3 (F := Ideal) i = 0 := by
  unfold k0_pay3
  exact Ideal.ofBits_zero_f32

/-- The accumulating payload at `(p, j)`: what the accumulator held there plus the block's column `j` summed over its
    512 rows. -/
theorem pay4_apply (x0 : Vec Ideal S512x4096 .f32) (xo : Vec Ideal S8x4096 .f32) (p : Fin 8) (j : Fin 4096) :
    k0_pay4 x0 xo (ix2 p j) = xo (ix2 p j) + ∑ r : Fin 512, x0 (ix2 r j) := by
  unfold k0_pay4
  rw [shapeCast_self, shapeCast_self]
  refine (addf_apply _ _ (ix2 p j)).trans ?_
  refine congrArg (xo (ix2 p j) + ·) ?_
  refine (broadcastTo_1b_ab_apply _ broadcasts_S1x4096_S8x4096 p j).trans ?_
  refine (shapeCast_a_1a_apply _ shapeCasts_S4096_S1x4096 (0 : Fin 1) j).trans ?_
  refine (Ideal.multiReduction_add_single x0 0x00000000#32 reduces_S512x4096_S4096 (.inl rfl) rfl (ix1 j)).trans ?_
  refine Finset.sum_congr rfl fun k _ => congrArg x0 ?_
  funext a; match a with | ⟨0, _⟩ => rfl | ⟨1, _⟩ => rfl

variable (V : (c : Dev nD) → (b : Ref sig .tc) → Buf (Elt Ideal) ((c : Thread nD τ).loc b))

/-! ## Where each point's blocks sit -/

/-- The printed index maps, decided over the grid: at point `t` the matrix's block, the row sums' block and the copy's
    block are block `t` down the rows; the accumulator's block is block `t / 8`. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 8 ∧ win0_2.index t (1 : Fin 2) = 0
    ∧ win0_3.index t (0 : Fin 2) = t.val ∧ win0_3.index t (1 : Fin 2) = 0 :=
  (by decide +kernel : ∀ t : Fin grid0.N, _)

/-- The matrix as the region finds it. -/
abbrev mat0 (c : Dev nD) : S8192x4096.Idx → EReal := V c (Pipeline.arrRef spec0 0)

/-- Row `r` of block `t` is row `512 t + r` of the matrix. -/
def rowOf (t : ℕ) (r : Fin 512) : Fin 8192 := ⟨(512 * t + r.val) % 8192, Nat.mod_lt _ (by decide)⟩

/-- The input block at point `t`, read at `(r, j)`. -/
theorem iblk0_apply (c : Dev nD) (t : Fin cfg0.N) (r : Fin 512) (j : Fin 4096) :
    iblk0 V c 0 t (ix2 r j) = mat0 V c (ix2 (rowOf t.val r) j) := by
  have hN : t.val < 16 := lt_of_lt_of_eq t.isLt (show cfg0.N = 16 from N_0)
  obtain ⟨e0, e1, -⟩ := idx_facts0 t
  show V c (Pipeline.arrRef spec0 0) (((cfg0.win 0).blk t).view.emb (ix2 r j)) = _
  refine congrArg (V c (Pipeline.arrRef spec0 0)) ?_
  funext a; apply Fin.ext
  match a with
  | ⟨0, _⟩ =>
    show win0_0.index t (0 : Fin 2) * 512 + 1 * r.val = (512 * t.val + r.val) % 8192
    have := r.isLt; omega
  | ⟨1, _⟩ =>
    show win0_0.index t (1 : Fin 2) * 4096 + 1 * j.val = j.val
    omega

/-! ## The row sums -/

/-- Row `i` of the row-sum array: the matrix's row `i` summed over its 4096 columns. -/
def rowSums0 (a : S8192x4096.Idx → EReal) : S8192x1.Idx → EReal := fun i => ∑ k : Fin 4096, a (ix2 (i 0) k)

/-- What point `t` writes back of the row sums is block `t` of `rowSums0` of the matrix. -/
theorem flushed0_1 (c : Dev nD) (t : Fin cfg0.N) :
    (dat0 V c).flushed 1 t = ((cfg0.win 1).blk t).view.read (Elt Ideal) (rowSums0 (mat0 V c)) := by
  have hN : t.val < 16 := lt_of_lt_of_eq t.isLt (show cfg0.N = 16 from N_0)
  show (cfg0.win 1).cut (grid0.coords t) ((dat0 V c).after 1 t) = _
  rw [after0_1]
  unfold out0_1
  rw [View.canon_unit_zero hz0]
  simp only [View.ld_unit_zero (S := S512x4096) hz0]
  obtain ⟨-, -, e2, e3, -⟩ := idx_facts0 t
  funext y
  obtain ⟨ρ, u, rfl⟩ : ∃ (ρ : Fin 512) (u : Fin 1), y = ix2 ρ u := ⟨y 0, y 1, eq_ix2 y⟩
  refine (pay1_apply (iblk0 V c 0 t) ρ u).trans ?_
  show _ = rowSums0 (mat0 V c) (((cfg0.win 1).blk t).view.emb (ix2 ρ u))
  unfold rowSums0
  refine Finset.sum_congr rfl fun k _ => ?_
  refine (iblk0_apply V c t ρ k).trans (congrArg (mat0 V c) ?_)
  funext a; apply Fin.ext
  match a with
  | ⟨0, _⟩ =>
    show (512 * t.val + ρ.val) % 8192 = win0_1.index t (0 : Fin 2) * 512 + 1 * ρ.val
    have := ρ.isLt; omega
  | ⟨1, _⟩ => rfl

/-- An index of the row-sum array is in point `t`'s block iff each coordinate is in the block's range on its axis. -/
theorem mem_blk0_1 (t : Fin cfg0.N) (i : S8192x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0_0).slice (win0_1.rect t)).set ↔ _
  rw [View.set_slice_whole, Rect.mem_set_unit]
  exact Iff.rfl

/-- Row `i` is in the block of point `i / 512`, which writes it back. -/
theorem cover0_w1 (i : S8192x1.Idx) : ∃ t : Fin cfg0.N, (cfg0.win 1).flush t = true ∧ i ∈ ((cfg0.win 1).blk t).view.set := by
  have hN : cfg0.N = 16 := N_0
  have hi0 : (i 0).val < 8192 := idx2_lt0 i
  have hi1 : (i 1).val < 1 := idx2_lt1 i
  let t : Fin cfg0.N := ⟨(i 0).val / 512, by omega⟩
  obtain ⟨-, -, e2, e3, -⟩ := idx_facts0 t
  have ht : t.val = (i 0).val / 512 := rfl
  refine ⟨t, flush0_1 t, ?_⟩
  rw [mem_blk0_1]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 1 ≤ (i 1).val ∧ (i 1).val < win0_1.index t (1 : Fin 2) * 1 + 1; omega

/-- THE ROW SUMS after the region: row `i` holds the matrix's row `i` summed over its columns. -/
theorem final0_1 (c : Dev nD) : (dat0 V c).arrAt 1 cfg0.N = rowSums0 (V c (Pipeline.arrRef spec0 0)) :=
  (dat0 V c).arrAt_eq_of_cover 1 (rowSums0 (mat0 V c)) (fun t _ => flushed0_1 V c t) cover0_w1

/-! ## The narrowed copy -/

/-- What point `t` writes back of the copy is block `t` of the matrix. -/
theorem flushed0_3 (c : Dev nD) (t : Fin cfg0.N) :
    (dat0 V c).flushed 3 t = ((cfg0.win 3).blk t).view.read (Elt Ideal) (mat0 V c) := by
  have hN : t.val < 16 := lt_of_lt_of_eq t.isLt (show cfg0.N = 16 from N_0)
  show (cfg0.win 3).cut (grid0.coords t) ((dat0 V c).after 3 t) = _
  rw [after0_3]
  unfold out0_3
  rw [View.canon_unit_zero hz0]
  simp only [View.ld_unit_zero (S := S512x4096) hz0]
  obtain ⟨-, -, -, -, -, -, e6, e7⟩ := idx_facts0 t
  funext y
  obtain ⟨ρ, k, rfl⟩ : ∃ (ρ : Fin 512) (k : Fin 4096), y = ix2 ρ k := ⟨y 0, y 1, eq_ix2 y⟩
  refine (pay2_apply (iblk0 V c 0 t) (ix2 ρ k)).trans ?_
  show _ = mat0 V c (((cfg0.win 3).blk t).view.emb (ix2 ρ k))
  refine (iblk0_apply V c t ρ k).trans (congrArg (mat0 V c) ?_)
  funext a; apply Fin.ext
  match a with
  | ⟨0, _⟩ =>
    show (512 * t.val + ρ.val) % 8192 = win0_3.index t (0 : Fin 2) * 512 + 1 * ρ.val
    have := ρ.isLt; omega
  | ⟨1, _⟩ =>
    show k.val = win0_3.index t (1 : Fin 2) * 4096 + 1 * k.val
    omega

theorem mem_blk0_3 (t : Fin cfg0.N) (i : S8192x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v0_2).slice (win0_3.rect t)).set ↔ _
  rw [View.set_slice_whole, Rect.mem_set_unit]
  exact Iff.rfl

theorem cover0_w3 (i : S8192x4096.Idx) : ∃ t : Fin cfg0.N, (cfg0.win 3).flush t = true ∧ i ∈ ((cfg0.win 3).blk t).view.set := by
  have hN : cfg0.N = 16 := N_0
  have hi0 : (i 0).val < 8192 := idx2_lt0 i
  have hi1 : (i 1).val < 4096 := idx2_lt1 i
  let t : Fin cfg0.N := ⟨(i 0).val / 512, by omega⟩
  obtain ⟨-, -, -, -, -, -, e6, e7⟩ := idx_facts0 t
  have ht : t.val = (i 0).val / 512 := rfl
  refine ⟨t, flush0_3 t, ?_⟩
  rw [mem_blk0_3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 4096 ≤ (i 1).val ∧ (i 1).val < win0_3.index t (1 : Fin 2) * 4096 + 4096; omega

/-- THE COPY after the region is the matrix, index by index (narrowing is the identity at the ideal values). -/
theorem final0_3 (c : Dev nD) :
    ((dat0 V c).arrAt 3 cfg0.N : S8192x4096.Idx → EReal) = (V c (Pipeline.arrRef spec0 0) : S8192x4096.Idx → EReal) :=
  (dat0 V c).arrAt_eq_of_cover 3 (mat0 V c) (fun t _ => flushed0_3 V c t) cover0_w3

/-! ## The column sums -/

/-- Column `j` of block `s` of the matrix, summed over the block's 512 rows. -/
def colTile (a : S8192x4096.Idx → EReal) (s : ℕ) (j : Fin 4096) : EReal := ∑ r : Fin 512, a (ix2 (rowOf s r) j)

/-- Column `j` of a block, summed over the block's 512 rows. -/
def blkColSum (x0 : Vec Ideal S512x4096 .f32) (j : Fin 4096) : EReal := ∑ r : Fin 512, x0 (ix2 r j)

/-- The input block's column sum is the matrix's. -/
theorem colTile_iblk0 (c : Dev nD) (t : Fin cfg0.N) (j : Fin 4096) :
    blkColSum (iblk0 V c 0 t) j = colTile (mat0 V c) t.val j :=
  Finset.sum_congr rfl fun r _ => iblk0_apply V c t r j

/-- At the first point of a group the accumulator is left at the zero fill plus the block's column sums, -/
theorem out0_2A_apply (x0 : Vec Ideal S512x4096 .f32) (p : Fin 8) (j : Fin 4096) :
    out0_2A x0 (ix2 p j) = blkColSum x0 j := by
  unfold out0_2A
  rw [View.canon_cons_unit_zero hz0]
  simp only [View.ld_unit_zero (S := S512x4096) hz0, View.ld_unit_zero (S := S8x4096) hz0, View.canon_unit_zero (S := S8x4096) hz0]
  refine (pay4_apply x0 (k0_pay3 (F := Ideal)) p j).trans ?_
  rw [pay3_apply, zero_add]; rfl

/-- at a later one at what it held plus the block's column sums. -/
theorem out0_2B_apply (x0 : Vec Ideal S512x4096 .f32) (xo : Vec Ideal S8x4096 .f32) (p : Fin 8) (j : Fin 4096) :
    out0_2B x0 xo (ix2 p j) = xo (ix2 p j) + blkColSum x0 j := by
  unfold out0_2B
  rw [View.canon_unit_zero hz0]
  simp only [View.ld_unit_zero (S := S512x4096) hz0, View.ld_unit_zero (S := S8x4096) hz0]
  exact pay4_apply x0 xo p j

/-- THE ACCUMULATION: after point `n` every row of the accumulator holds, at column `j`, the column sums of the
    blocks from the first of `n`'s group up to `n`. By induction on the point. -/
theorem acc0_apply (c : Dev nD) : ∀ (n : ℕ) (hn : n < cfg0.N) (p : Fin 8) (j : Fin 4096),
    acc0 V c n hn (ix2 p j) = ∑ s ∈ Finset.Icc (8 * (n / 8)) n, colTile (mat0 V c) s j := by
  intro n
  induction n with
  | zero =>
    intro hn p j
    refine (congrFun (acc0_A V c ⟨0, hn⟩ rfl) (ix2 p j)).trans ?_
    refine (out0_2A_apply (iblk0 V c 0 ⟨0, hn⟩) p j).trans ?_
    rw [colTile_iblk0 V c ⟨0, hn⟩ j]
    show _ = ∑ s ∈ Finset.Icc 0 0, colTile (mat0 V c) s j
    rw [Finset.Icc_self, Finset.sum_singleton]
  | succ n ih =>
    intro hn p j
    by_cases h0 : (n + 1) % 8 = 0
    · refine (congrFun (acc0_A V c ⟨n + 1, hn⟩ h0) (ix2 p j)).trans ?_
      refine (out0_2A_apply (iblk0 V c 0 ⟨n + 1, hn⟩) p j).trans ?_
      rw [colTile_iblk0 V c ⟨n + 1, hn⟩ j]
      have e : 8 * ((n + 1) / 8) = n + 1 := by omega
      rw [e, Finset.Icc_self, Finset.sum_singleton]
    · refine (congrFun (acc0_B V c ⟨n + 1, hn⟩ h0) (ix2 p j)).trans ?_
      refine (out0_2B_apply (iblk0 V c 0 ⟨n + 1, hn⟩) _ p j).trans ?_
      rw [colTile_iblk0 V c ⟨n + 1, hn⟩ j]
      have e : 8 * ((n + 1) / 8) = 8 * (n / 8) := by omega
      rw [e, Finset.sum_Icc_succ_top (by omega : 8 * (n / 8) ≤ n + 1)]
      exact congrArg (· + colTile (mat0 V c) (n + 1) j) (ih (Nat.lt_of_succ_lt hn) p j)

/-- Row `i` of the 16×4096 column-sum array, at column `j`: the column sums of the 8 blocks of its group (rows 0…7 the
    first group, the matrix's rows 0…4095; rows 8…15 the second, rows 4096…8191). -/
def colSums0 (a : S8192x4096.Idx → EReal) : S16x4096.Idx → EReal :=
  fun i => ∑ s ∈ Finset.Icc (8 * ((i 0).val / 8)) (8 * ((i 0).val / 8) + 7), colTile a s (i 1)

/-- What the last point `t` of a group writes back of the accumulator is block `t / 8` of `colSums0` of the matrix. -/
theorem flushed0_2 (c : Dev nD) (t : Fin cfg0.N) (hf : (cfg0.win 2).flush t = true) :
    (dat0 V c).flushed 2 t = ((cfg0.win 2).blk t).view.read (Elt Ideal) (colSums0 (mat0 V c)) := by
  have hN : t.val < 16 := lt_of_lt_of_eq t.isLt (show cfg0.N = 16 from N_0)
  have h7 : t.val % 8 = 7 := (flush0_2 t).mp hf
  show (cfg0.win 2).cut (grid0.coords t) ((dat0 V c).after 2 t) = _
  rw [after0_2]
  obtain ⟨-, -, -, -, e4, e5, -⟩ := idx_facts0 t
  funext y
  obtain ⟨p, j, rfl⟩ : ∃ (p : Fin 8) (j : Fin 4096), y = ix2 p j := ⟨y 0, y 1, eq_ix2 y⟩
  refine (acc0_apply V c t.val t.isLt p j).trans ?_
  have he : ((cfg0.win 2).blk t).view.emb (ix2 p j) = (ix2 (⟨t.val / 8 * 8 + p.val, by have := p.isLt; omega⟩ : Fin 16) j : S16x4096.Idx) := by
    funext a; apply Fin.ext
    match a with
    | ⟨0, _⟩ => show win0_2.index t (0 : Fin 2) * 8 + 1 * p.val = t.val / 8 * 8 + p.val; omega
    | ⟨1, _⟩ => show win0_2.index t (1 : Fin 2) * 4096 + 1 * j.val = j.val; omega
  show _ = colSums0 (mat0 V c) (((cfg0.win 2).blk t).view.emb (ix2 p j))
  rw [he]
  show _ = ∑ s ∈ Finset.Icc (8 * ((t.val / 8 * 8 + p.val) / 8)) (8 * ((t.val / 8 * 8 + p.val) / 8) + 7), colTile (mat0 V c) s j
  have e1 : 8 * ((t.val / 8 * 8 + p.val) / 8) = 8 * (t.val / 8) := by have := p.isLt; omega
  have e2 : 8 * (t.val / 8) + 7 = t.val := by omega
  rw [e1, e2]

theorem mem_blk0_2 (t : Fin cfg0.N) (i : S16x4096.Idx) :
    i ∈ ((cfg0.win 2).blk t).view.set ↔ ∀ a : Fin 2, win0_2.index t a * S8x4096.size a ≤ (i a).val ∧ (i a).val < win0_2.index t a * S8x4096.size a + S8x4096.size a := by
  show i ∈ ((View.whole main_v0_1).slice (win0_2.rect t)).set ↔ _
  rw [View.set_slice_whole, Rect.mem_set_unit]
  exact Iff.rfl

/-- Row `i` is in the block of the last point of its group, which writes it back. -/
theorem cover0_w2 (i : S16x4096.Idx) : ∃ t : Fin cfg0.N, (cfg0.win 2).flush t = true ∧ i ∈ ((cfg0.win 2).blk t).view.set := by
  have hN : cfg0.N = 16 := N_0
  have hi0 : (i 0).val < 16 := idx2_lt0 i
  have hi1 : (i 1).val < 4096 := idx2_lt1 i
  let t : Fin cfg0.N := ⟨8 * ((i 0).val / 8) + 7, by omega⟩
  obtain ⟨-, -, -, -, e4, e5, -⟩ := idx_facts0 t
  have ht : t.val = 8 * ((i 0).val / 8) + 7 := rfl
  refine ⟨t, (flush0_2 t).mpr (by omega), ?_⟩
  rw [mem_blk0_2]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 4096 ≤ (i 1).val ∧ (i 1).val < win0_2.index t (1 : Fin 2) * 4096 + 4096; omega

/-- THE COLUMN SUMS after the region. -/
theorem final0_2 (c : Dev nD) : (dat0 V c).arrAt 2 cfg0.N = colSums0 (V c (Pipeline.arrRef spec0 0)) :=
  (dat0 V c).arrAt_eq_of_cover 2 (colSums0 (mat0 V c)) (flushed0_2 V c) cover0_w2

/-! ## The two groups together: a column of the whole matrix -/

/-- A sum over the matrix's 8192 rows, block by block. -/
theorem sum_rows (g : Fin 8192 → EReal) : ∑ R : Fin 8192, g R = ∑ s : Fin 16, ∑ r : Fin 512, g (rowOf s.val r) := by
  rw [← Equiv.sum_comp (finProdFinEquiv (m := 16) (n := 512)) g, Fintype.sum_prod_type]
  refine Finset.sum_congr rfl fun s _ => Finset.sum_congr rfl fun r _ => congrArg g (Fin.ext ?_)
  show r.val + 512 * s.val = (512 * s.val + r.val) % 8192
  have := s.isLt; have := r.isLt; omega

/-- Rows 0 and 8 of the column-sum array together hold, at column `j`, column `j` of the matrix summed over all of
    its 8192 rows. -/
theorem colSums0_total (a : S8192x4096.Idx → EReal) (i0 i8 : S16x4096.Idx) (j : Fin 4096)
    (h0 : (i0 0).val / 8 = 0) (h8 : (i8 0).val / 8 = 1) (hj0 : (i0 1).val = j.val) (hj8 : (i8 1).val = j.val) :
    colSums0 a i0 + colSums0 a i8 = ∑ R : Fin 8192, a (ix2 R j) := by
  have e0 : i0 1 = j := Fin.ext hj0
  have e8 : i8 1 = j := Fin.ext hj8
  unfold colSums0
  dsimp only
  rw [h0, h8, e0, e8]
  show (∑ s ∈ Finset.Icc 0 7, colTile a s j) + (∑ s ∈ Finset.Icc 8 15, colTile a s j) = _
  have hI : Finset.Icc 0 7 ∪ Finset.Icc 8 15 = Finset.range 16 := by decide
  rw [← Finset.sum_union (by decide : Disjoint (Finset.Icc 0 7) (Finset.Icc 8 15)), hI, Finset.sum_range,
    sum_rows fun R => a (ix2 R j)]
  rfl

end Cert.KernelIdeal.Hand

end
-- ==== Proof.Spec.lean ====
/-
  The specification: the result of the hypergraph convolution as ONE function of its four argument arrays, index by
  index, on the extended reals.

  For a node-feature array `x : [8192, 256]`, an incidence array `H : [8192, 4096]`, a weight `W : [256, 256]` and a bias
  `b : [256]`:

    degN i = 0 + ∑ j, H(i, j)                (row degree)
    degE j = 0 + ∑ i, H(i, j)                (column degree)
    dn i   = dnOf (degN i)                   (rsqrt (max d ε) where d > 0, else 0)
    de j   = deOf (degE j)                   (1 / max d ε where d > 0, else 0)
    xs(i, k)  = x(i, k) · dn i
    e(j, k)   = (∑ i, H(i, j) · xs(i, k)) · de j
    xn(i, k)  = (∑ j, H(i, j) · e(j, k)) · dn i
    out(i, d) = (∑ k, xn(i, k) · W(d, k)) + b d

  The two degree normalisations are carried as the one-variable functions `dnOf` and `deOf`: each is a comparison with
  zero, a maximum with the small constant ε, an inverse square root (for `dnOf`) or a quotient of one (for `deOf`), and
  a selection. Every float constant stays the 32-bit word it is written as; none is evaluated here.
-/
import Idealize.ShloMosaic.PureOps.Ideal
import Idealize.ShloMosaic.Lib.ValueIdx
import Mathlib

noncomputable section

open scoped BigOperators

namespace Cert.Spec

open Idealize.ShloMosaic Idealize.ShloMosaic.ValueIdx

/-- The row-side normalisation of a degree `d`: `rsqrt (max d ε)` where `d > 0`, and `0` elsewhere. -/
def dnOf (d : EReal) : EReal :=
  Scalar.select (Ideal.cmp .ogt d (Ideal.ofBits .f32 0x00000000#32))
    (Ideal.rsqrt (max d (Ideal.ofBits .f32 0x0DA24260#32)))
    (Ideal.ofBits .f32 0x00000000#32)

/-- The column-side normalisation of a degree `d`: `1 / max d ε` where `d > 0`, and `0` elsewhere. -/
def deOf (d : EReal) : EReal :=
  Scalar.select (Ideal.cmp .ogt d (Ideal.ofBits .f32 0x00000000#32))
    (Ideal.div (Ideal.ofBits .f32 0x3F800000#32) (max d (Ideal.ofBits .f32 0x0DA24260#32)))
    (Ideal.ofBits .f32 0x00000000#32)

/-- Row degree: the sum of row `i` of `H`, from a leading zero. -/
def degN (H : FVec Ideal ⟨2, ![8192, 4096]⟩ .f32) (i : Fin 8192) : EReal :=
  0 + ∑ j : Fin 4096, H (ix2 i j)

/-- Column degree: the sum of column `j` of `H`, from a leading zero. -/
def degE (H : FVec Ideal ⟨2, ![8192, 4096]⟩ .f32) (j : Fin 4096) : EReal :=
  0 + ∑ i : Fin 8192, H (ix2 i j)

/-- The row scale. -/
def dn (H : FVec Ideal ⟨2, ![8192, 4096]⟩ .f32) (i : Fin 8192) : EReal := dnOf (degN H i)

/-- The column scale. -/
def de (H : FVec Ideal ⟨2, ![8192, 4096]⟩ .f32) (j : Fin 4096) : EReal := deOf (degE H j)

/-- The row-scaled features. -/
def xs (x : FVec Ideal ⟨2, ![8192, 256]⟩ .f32) (H : FVec Ideal ⟨2, ![8192, 4096]⟩ .f32) (i : Fin 8192) (k : Fin 256) :
    EReal :=
  x (ix2 i k) * dn H i

/-- The edge features: the contraction of `H`'s column `j` with the scaled features, scaled by the column scale. -/
def e (x : FVec Ideal ⟨2, ![8192, 256]⟩ .f32) (H : FVec Ideal ⟨2, ![8192, 4096]⟩ .f32) (j : Fin 4096) (k : Fin 256) :
    EReal :=
  (∑ i : Fin 8192, H (ix2 i j) * xs x H i k) * de H j

/-- The node features: the contraction of `H`'s row `i` with the edge features, scaled by the row scale. -/
def xn (x : FVec Ideal ⟨2, ![8192, 256]⟩ .f32) (H : FVec Ideal ⟨2, ![8192, 4096]⟩ .f32) (i : Fin 8192) (k : Fin 256) :
    EReal :=
  (∑ j : Fin 4096, H (ix2 i j) * e x H j k) * dn H i

/-- The result: the linear layer `xn · Wᵀ + b`. -/
def out (x : FVec Ideal ⟨2, ![8192, 256]⟩ .f32) (H : FVec Ideal ⟨2, ![8192, 4096]⟩ .f32)
    (W : FVec Ideal ⟨2, ![256, 256]⟩ .f32) (b : FVec Ideal ⟨1, ![256]⟩ .f32) (i : Fin 8192) (d : Fin 256) : EReal :=
  (∑ k : Fin 256, xn x H i k * W (ix2 d k)) + b (ix1 d)

end Cert.Spec

end
-- ==== Proof.HostChainIdeal.lean ====
/-
  The host stages of the kernel's program, read at an index, on the extended reals.

  Between its three regions the program reshapes the node degrees from a column to a vector, adds the two half-column
  partial sums into the edge degrees, applies the two normalisations, scales the rows of the features, and hands the
  scales and the bias over as columns and a row. Each of these is an index-by-index operation: a reshape between a
  vector and a column or a row reads the same element, the two partial sums sit in rows 0 and 8 of a sixteen-row array,
  and the two normalisations are the specification's one-variable functions `Cert.Spec.dnOf` and `Cert.Spec.deOf` of
  the degree at the index.
-/
import proofs.«116271_j23089744183324_2_alg».proof.Proof.HostChain
import proofs.«116271_j23089744183324_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-! ## Reshapes between a vector and a column, and a scalar broadcast, at an index -/

section Layout
variable {α : Type}

/-- An `[a, 1]` column cast to an `[a]` vector reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a]` vector cast to an `[a, 1]` column reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A scalar broadcast to a vector reads the scalar everywhere. -/
theorem broadcastInDim_scalar_apply {n : ℕ} (h : S_.BroadcastsInDim ⟨1, ![n]⟩ (![] : Fin 0 → Fin 1))
    (y : S_.Idx → α) (i : (⟨1, ![n]⟩ : Shape).Idx) :
    broadcastInDim ⟨1, ![n]⟩ ![] h y i = y ix0 :=
  broadcastInDim_apply _ h y i ix0 (fun a => a.elim0)

end Layout

/-! ## The stages at an index -/

/-- The node degrees as a vector: the column's element. -/
theorem kDegN_apply (a : (⟨S8192x1, .f32⟩ : BufTy).Contents (Elt Ideal)) (p : Fin 8192) :
    kDegN (F := Ideal) a (ix1 p) = a (ix2 p (0 : Fin 1)) := by
  unfold kDegN
  exact shapeCast_a1_a_apply a _ p

/-- The edge degrees: row 0 plus row 8 of the partial column sums. -/
theorem kDegE_apply (parts : (⟨S16x4096, .f32⟩ : BufTy).Contents (Elt Ideal)) (q : Fin 4096) :
    kDegE (F := Ideal) parts (ix1 q) = parts (ix2 (0 : Fin 16) q) + parts (ix2 (8 : Fin 16) q) := by
  unfold kDegE
  rw [addf_apply]
  refine congrArg₂ (· + ·) ?_ ?_
  · exact (shapeCast_1a_a_apply _ _ q).trans (slice2_axis0_apply 0 parts _ (0 : Fin 1) q (0 : Fin 16) rfl)
  · exact (shapeCast_1a_a_apply _ _ q).trans (slice2_axis0_apply 8 parts _ (0 : Fin 1) q (8 : Fin 16) rfl)

/-- The node scale is the specification's row-side normalisation of the degree at the index. -/
theorem kDn_apply (d : (⟨S8192, .f32⟩ : BufTy).Contents (Elt Ideal)) (p : Fin 8192) :
    kDn (F := Ideal) d (ix1 p) = Cert.Spec.dnOf (d (ix1 p)) := by
  unfold kDn
  generalize hB0 : broadcastInDim S8192 ![] bcast_S_S8192 (constant (F := Ideal) S_ .f32 0x00000000#32) = B0
  generalize hBe : broadcastInDim S8192 ![] bcast_S_S8192 (constant (F := Ideal) S_ .f32 0x0DA24260#32) = Be
  generalize hBz : broadcastInDim S8192 ![] bcast_S_S8192 (id (constant (F := Ideal) S_ .f32 0x00000000#32)) = Bz
  have e0 : B0 (ix1 p) = Ideal.ofBits .f32 0x00000000#32 := by
    rw [← hB0]; exact broadcastInDim_scalar_apply _ _ _
  have ee : Be (ix1 p) = Ideal.ofBits .f32 0x0DA24260#32 := by
    rw [← hBe]; exact broadcastInDim_scalar_apply _ _ _
  have ez : Bz (ix1 p) = Ideal.ofBits .f32 0x00000000#32 := by
    rw [← hBz]; exact broadcastInDim_scalar_apply _ _ _
  show Scalar.select (Ideal.cmp .ogt (d (ix1 p)) (B0 (ix1 p))) (Ideal.rsqrt (max (d (ix1 p)) (Be (ix1 p)))) (Bz (ix1 p)) = _
  rw [e0, ee, ez]
  rfl

/-- The edge scale is the specification's column-side normalisation of the degree at the index. -/
theorem kDe_apply (d : (⟨S4096, .f32⟩ : BufTy).Contents (Elt Ideal)) (q : Fin 4096) :
    kDe (F := Ideal) d (ix1 q) = Cert.Spec.deOf (d (ix1 q)) := by
  unfold kDe
  generalize hB0 : broadcastInDim S4096 ![] bcast_S_S4096 (constant (F := Ideal) S_ .f32 0x00000000#32) = B0
  generalize hB1 : broadcastInDim S4096 ![] bcast_S_S4096 (constant (F := Ideal) S_ .f32 0x3F800000#32) = B1
  generalize hBe : broadcastInDim S4096 ![] bcast_S_S4096 (constant (F := Ideal) S_ .f32 0x0DA24260#32) = Be
  generalize hBz : broadcastInDim S4096 ![] bcast_S_S4096 (id (constant (F := Ideal) S_ .f32 0x00000000#32)) = Bz
  have e0 : B0 (ix1 q) = Ideal.ofBits .f32 0x00000000#32 := by
    rw [← hB0]; exact broadcastInDim_scalar_apply _ _ _
  have e1 : B1 (ix1 q) = Ideal.ofBits .f32 0x3F800000#32 := by
    rw [← hB1]; exact broadcastInDim_scalar_apply _ _ _
  have ee : Be (ix1 q) = Ideal.ofBits .f32 0x0DA24260#32 := by
    rw [← hBe]; exact broadcastInDim_scalar_apply _ _ _
  have ez : Bz (ix1 q) = Ideal.ofBits .f32 0x00000000#32 := by
    rw [← hBz]; exact broadcastInDim_scalar_apply _ _ _
  show Scalar.select (Ideal.cmp .ogt (d (ix1 q)) (B0 (ix1 q)))
    (Ideal.div (B1 (ix1 q)) (max (d (ix1 q)) (Be (ix1 q)))) (Bz (ix1 q)) = _
  rw [e0, e1, ee, ez]
  rfl

/-- The scaled features: the feature times its row's scale. -/
theorem kXs_apply (x : (⟨S8192x256, .f32⟩ : BufTy).Contents (Elt Ideal))
    (dn : (⟨S8192, .f32⟩ : BufTy).Contents (Elt Ideal)) (p : Fin 8192) (k : Fin 256) :
    kXs (F := Ideal) x dn (ix2 p k) = x (ix2 p k) * dn (ix1 p) := by
  unfold kXs
  rw [mulf_apply]
  refine congrArg (x (ix2 p k) * ·) ?_
  refine (broadcastInDim_apply _ bcast_S8192x1_S8192x256_0_1 _ (ix2 p k) (ix2 p (0 : Fin 1)) (fun a => match a with
    | ⟨0, _⟩ => by show p.val = if (8192 : Nat) = 1 then 0 else p.val; rw [if_neg (by decide)]
    | ⟨1, _⟩ => by show 0 = if (1 : Nat) = 1 then 0 else k.val; rw [if_pos rfl])).trans ?_
  exact broadcastInDim_apply _ bcast_S8192_S8192x1_0 dn (ix2 p (0 : Fin 1)) (ix1 p) (fun a => match a with
    | ⟨0, _⟩ => by show p.val = if (8192 : Nat) = 1 then 0 else p.val; rw [if_neg (by decide)])

/-- The edge scale as a column. -/
theorem kDe2_apply (de : (⟨S4096, .f32⟩ : BufTy).Contents (Elt Ideal)) (q : Fin 4096) :
    kDe2 (F := Ideal) de (ix2 q (0 : Fin 1)) = de (ix1 q) := by
  unfold kDe2
  exact shapeCast_a_a1_apply de _ q 0

/-- The node scale as a column. -/
theorem kDn2_apply (dn : (⟨S8192, .f32⟩ : BufTy).Contents (Elt Ideal)) (p : Fin 8192) :
    kDn2 (F := Ideal) dn (ix2 p (0 : Fin 1)) = dn (ix1 p) := by
  unfold kDn2
  exact shapeCast_a_a1_apply dn _ p 0

/-- The bias as a row. -/
theorem kB2_apply (b : (⟨S256, .f32⟩ : BufTy).Contents (Elt Ideal)) (d : Fin 256) :
    kB2 (F := Ideal) b (ix2 (0 : Fin 1) d) = b (ix1 d) := by
  unfold kB2
  exact shapeCast_a_1a_apply b _ 0 d

end Cert.KernelIdeal.Hand

end
-- ==== Proof.BridgeInputs.lean ====
/-
  What the second and third regions read, index by index, against the specification.

  The first region leaves the row sums, the per-group column sums and a copy of the incidence matrix; the host stages
  between the regions turn the sums into the two normalising scales, scale the features' rows, and reshape. Read at an
  index, the node scale is the specification's `dn`, the edge scale its `de`, the scaled features its `xs`, the copy is
  the matrix itself, and the weights and the bias are as launched.
-/
import proofs.«116271_j23089744183324_2_alg».proof.Proof.RunReads
import proofs.«116271_j23089744183324_2_alg».proof.Proof.Region0Value
import proofs.«116271_j23089744183324_2_alg».proof.Proof.HostChainIdeal
import proofs.«116271_j23089744183324_2_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open Idealize.ShloMosaic.Pipeline (Dat)
open scoped BigOperators

variable (m : (ℓ : Loc nD τ sig) → Buf (Elt Ideal) ℓ) (c : Dev nD)

/-! ## The two degrees -/

/-- The node degree the host reads off the row-sum array is the specification's. -/
theorem degN_apply (p : Fin 8192) :
    kDegN (W1 m c (Proc.devRef .tc main_v0_0)) (ix1 p) = Cert.Spec.degN (m ((c : Thread nD τ).loc main_arg1)) p := by
  rw [kDegN_apply, W1_v0_0, final0_1 (Vt0 m) c]
  unfold Cert.Spec.degN
  rw [zero_add]
  rfl

/-- The edge degree the host adds up from rows 0 and 8 of the column-sum array is the specification's. -/
theorem degE_apply (q : Fin 4096) :
    kDegE (W1 m c (Proc.devRef .tc main_v0_1)) (ix1 q) = Cert.Spec.degE (m ((c : Thread nD τ).loc main_arg1)) q := by
  rw [kDegE_apply, W1_v0_1, final0_2 (Vt0 m) c]
  refine (colSums0_total _ (ix2 (0 : Fin 16) q) (ix2 (8 : Fin 16) q) q
    (by show ((0 : Fin 16) : ℕ) / 8 = 0; decide) (by show ((8 : Fin 16) : ℕ) / 8 = 1; decide) rfl rfl).trans ?_
  unfold Cert.Spec.degE
  rw [zero_add]

/-! ## The two scales -/

theorem scaleN_apply (p : Fin 8192) :
    scaleN m c (ix1 p) = Cert.Spec.dn (m ((c : Thread nD τ).loc main_arg1)) p := by
  unfold scaleN Cert.Spec.dn
  rw [kDn_apply, degN_apply]

theorem scaleE_apply (q : Fin 4096) :
    scaleE m c (ix1 q) = Cert.Spec.de (m ((c : Thread nD τ).loc main_arg1)) q := by
  unfold scaleE Cert.Spec.de
  rw [kDe_apply, degE_apply]

/-! ## What the second region reads -/

/-- The first region's copy of the matrix is the matrix. -/
theorem in1_h : (W6 m c (Proc.devRef .tc main_v0_2) : S8192x4096.Idx → EReal) = m ((c : Thread nD τ).loc main_arg1) := by
  rw [W6_v0_2, W1_v0_2]
  exact final0_3 (Vt0 m) c

/-- The scaled features. -/
theorem in1_xs (p : Fin 8192) (k : Fin 256) :
    W6 m c (Proc.devRef .tc main_v22) (ix2 p k)
      = Cert.Spec.xs (m ((c : Thread nD τ).loc main_arg0)) (m ((c : Thread nD τ).loc main_arg1)) p k := by
  rw [W6_v22, kXs_apply, scaleN_apply]
  rfl

/-- The edge scale, as a column. -/
theorem in1_de (q : Fin 4096) :
    W6 m c (Proc.devRef .tc main_v23) (ix2 q (0 : Fin 1)) = Cert.Spec.de (m ((c : Thread nD τ).loc main_arg1)) q := by
  rw [W6_v23, kDe2_apply, scaleE_apply]

/-! ## What the third region reads -/

theorem in2_h : (W8 m c (Proc.devRef .tc main_v0_2) : S8192x4096.Idx → EReal) = m ((c : Thread nD τ).loc main_arg1) := by
  rw [W8_v0_2, W1_v0_2]
  exact final0_3 (Vt0 m) c

/-- The node scale, as a column. -/
theorem in2_dn (p : Fin 8192) :
    W8 m c (Proc.devRef .tc main_v25) (ix2 p (0 : Fin 1)) = Cert.Spec.dn (m ((c : Thread nD τ).loc main_arg1)) p := by
  rw [W8_v25, kDn2_apply, scaleN_apply]

/-- The weights as launched. -/
theorem in2_w : W8 m c (Proc.devRef .tc main_arg2) = m ((c : Thread nD τ).loc main_arg2) := W8_arg2 m c

/-- The bias, as a row. -/
theorem in2_b (d : Fin 256) :
    W8 m c (Proc.devRef .tc main_v26) (ix2 (0 : Fin 1) d) = m ((c : Thread nD τ).loc main_arg3) (ix1 d) := by
  rw [W8_v26, kB2_apply]

end Cert.KernelIdeal.Hand

end
-- ==== Proof.Region1Value.lean ====
import proofs.«116271_j23089744183324_2_alg».proof.Proof.Region1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! # Region 1, the value: e = ((((0 + B₀) + B₁) + B₂) + B₃) · de, index by index -/

variable {F : FTy → Type} [FloatOps F]

theorem hzero1 : (![0, 0] : Fin 2 → Nat) = fun _ => 0 := funext fun a => by fin_cases a <;> rfl

/-! ## What each step leaves, as the payloads of its stores -/

/-- The zeroed accumulator is the zero payload, -/
theorem accZero_eq : accZero (F := F) = k1_pay1 (F := F) := by
  unfold accZero; exact View.canon_unit_zero hzero1 _ _

/-- one step is the accumulation payload of the rows the step selects, the block of H and what the accumulator held, -/
theorem accStep_eq (i : grid1.Coords) (x0 : Vec F S2048x1024 .bf16) (x1 : Vec F S8192x256 .f32) (xs : Vec F S1024x256 .f32) :
    accStep i x0 x1 xs = k1_pay2 (View.ld x1 (rX i)) x0 xs := by
  unfold accStep
  rw [View.canon_unit_zero hzero1]
  simp only [View.ld_unit_zero (S := S2048x1024) hzero1, View.ld_unit_zero (S := S1024x256) hzero1]

/-- and the output block is the scaling payload. -/
theorem outOf_eq (a : Vec F S1024x256 .f32) (x2 : Vec F S1024x1 .f32) : outOf a x2 = k1_pay3 a x2 := by
  unfold outOf
  rw [View.canon_unit_zero hzero1]
  simp only [View.ld_unit_zero (S := S1024x256) hzero1, View.ld_unit_zero (S := S1024x1) hzero1]

/-! ## The payloads at an index, over the extended reals -/

/-- The operand indices of the step's product at output index `j` and contraction coordinate `k`: row `k` of both
    operands, column `j 0` of the block of H, column `j 1` of the rows of xs. -/
abbrev lidx1 (j : S1024x256.Idx) (k : Fin 2048) : S2048x1024.Idx := fun a => match a with
  | ⟨0, _⟩ => ⟨k.val, k.isLt⟩
  | ⟨1, _⟩ => ⟨(j 0).val, (j 0).isLt⟩
abbrev ridx1 (j : S1024x256.Idx) (k : Fin 2048) : S2048x256.Idx := fun a => match a with
  | ⟨0, _⟩ => ⟨k.val, k.isLt⟩
  | ⟨1, _⟩ => ⟨(j 1).val, (j 1).isLt⟩
/-- The scale's index: row `j 0`, its one column. -/
abbrev didx1 (j : S1024x256.Idx) : S1024x1.Idx := fun a => match a with
  | ⟨0, _⟩ => ⟨(j 0).val, (j 0).isLt⟩
  | ⟨1, _⟩ => ⟨0, Nat.zero_lt_one⟩

theorem lhs1_0 (j : S1024x256.Idx) (q : dot_S2048x1024_S2048x256_S1024x256_0_0_1_1_n_n.contr.Idx) :
    (dot_S2048x1024_S2048x256_S1024x256_0_0_1_1_n_n.lhsIdx j q 0).val = (q ⟨0, by decide⟩).val :=
  dot_S2048x1024_S2048x256_S1024x256_0_0_1_1_n_n.lhsIdx_val_of_single rfl j q
theorem lhs1_1 (j : S1024x256.Idx) (q : dot_S2048x1024_S2048x256_S1024x256_0_0_1_1_n_n.contr.Idx) :
    (dot_S2048x1024_S2048x256_S1024x256_0_0_1_1_n_n.lhsIdx j q 1).val = (j 0).val := by
  unfold DotDims.lhsIdx
  rw [dif_neg (show ¬(1 : Fin S2048x1024.rank) ∈ dot_S2048x1024_S2048x256_S1024x256_0_0_1_1_n_n.lhsBatch by decide), dif_pos (show (1 : Fin S2048x1024.rank) ∈ dot_S2048x1024_S2048x256_S1024x256_0_0_1_1_n_n.lhsNonContracting by decide)]
  rfl
theorem rhs1_0 (j : S1024x256.Idx) (q : dot_S2048x1024_S2048x256_S1024x256_0_0_1_1_n_n.contr.Idx) :
    (dot_S2048x1024_S2048x256_S1024x256_0_0_1_1_n_n.rhsIdx j q 0).val = (q ⟨0, by decide⟩).val :=
  dot_S2048x1024_S2048x256_S1024x256_0_0_1_1_n_n.rhsIdx_val_of_single rfl j q
theorem rhs1_1 (j : S1024x256.Idx) (q : dot_S2048x1024_S2048x256_S1024x256_0_0_1_1_n_n.contr.Idx) :
    (dot_S2048x1024_S2048x256_S1024x256_0_0_1_1_n_n.rhsIdx j q 1).val = (j 1).val := by
  unfold DotDims.rhsIdx
  rw [dif_neg (show ¬(1 : Fin S2048x256.rank) ∈ dot_S2048x1024_S2048x256_S1024x256_0_0_1_1_n_n.rhsBatch by decide), dif_pos (show (1 : Fin S2048x256.rank) ∈ dot_S2048x1024_S2048x256_S1024x256_0_0_1_1_n_n.rhsNonContracting by decide)]
  rfl

/-- The zero payload is zero everywhere. -/
theorem k1_pay1_apply (j : S1024x256.Idx) : k1_pay1 (F := Ideal) j = 0 := by
  unfold k1_pay1
  rw [shapeCast_self]
  exact Ideal.ofBits_zero_f32

/-- The accumulation payload at an index: what the accumulator held there plus the sum over the 2048 rows of the
    products (the narrowing to bf16 is the identity on extended reals). -/
theorem k1_pay2_apply (v6 : Vec Ideal S2048x256 .f32) (v9 : Vec Ideal S2048x1024 .bf16) (v11 : Vec Ideal S1024x256 .f32) (j : S1024x256.Idx) :
    k1_pay2 v6 v9 v11 j = v11 j + ∑ k : Fin 2048, v9 (lidx1 j k) * v6 (ridx1 j k) := by
  unfold k1_pay2
  simp only [shapeCast_self]
  refine (addf_apply (φ := .f32) v11 _ j).trans ?_
  refine congrArg (v11 j + ·) ?_
  refine (Ideal.matmul_constant_zero_apply dot_S2048x1024_S2048x256_S1024x256_0_0_1_1_n_n none v9 (truncf .bf16 v6 bitsLt_bf16_f32) j).trans ?_
  rw [← Equiv.sum_comp (ValueIdx.contrEquiv1 dot_S2048x1024_S2048x256_S1024x256_0_0_1_1_n_n 2048 rfl rfl).symm]
  refine Finset.sum_congr rfl fun k _ => ?_
  have hk := ValueIdx.contrEquiv1_symm_val dot_S2048x1024_S2048x256_S1024x256_0_0_1_1_n_n 2048 rfl rfl k
  have el : dot_S2048x1024_S2048x256_S1024x256_0_0_1_1_n_n.lhsIdx j ((ValueIdx.contrEquiv1 dot_S2048x1024_S2048x256_S1024x256_0_0_1_1_n_n 2048 rfl rfl).symm k) = lidx1 j k := funext fun a => Fin.ext (by
    match a with
    | ⟨0, _⟩ => exact (lhs1_0 _ _).trans hk
    | ⟨1, _⟩ => exact lhs1_1 _ _)
  have er : dot_S2048x1024_S2048x256_S1024x256_0_0_1_1_n_n.rhsIdx j ((ValueIdx.contrEquiv1 dot_S2048x1024_S2048x256_S1024x256_0_0_1_1_n_n 2048 rfl rfl).symm k) = ridx1 j k := funext fun a => Fin.ext (by
    match a with
    | ⟨0, _⟩ => exact (rhs1_0 _ _).trans hk
    | ⟨1, _⟩ => exact rhs1_1 _ _)
  rw [el, er]
  rfl

/-- The scaling payload at an index: the accumulator there times the row's scale. -/
theorem k1_pay3_apply (v20 : Vec Ideal S1024x256 .f32) (v21 : Vec Ideal S1024x1 .f32) (j : S1024x256.Idx) :
    k1_pay3 v20 v21 j = v20 j * v21 (didx1 j) := by
  unfold k1_pay3
  simp only [shapeCast_self]
  refine (mulf_apply (φ := .f32) v20 _ j).trans ?_
  refine congrArg (v20 j * ·) ?_
  exact broadcastTo_apply v21 broadcasts_S1024x1_S1024x256 j (didx1 j) (fun a => by
    match a with
    | ⟨0, _⟩ => rfl
    | ⟨1, _⟩ => rfl)

/-! ## The windows' blocks, read where the index maps put them -/

/-- The printed index maps, decided over the grid: H's block moves with both coordinates, the resident array never, the
    scale and the output with the outer coordinate; the inner coordinate is the point's residue mod 4. -/
theorem idx_facts1 : ∀ t : Fin cfg1.N,
    win1_0.index t (0 : Fin 2) = t.val % 4 ∧ win1_0.index t (1 : Fin 2) = t.val / 4
    ∧ win1_1.index t (0 : Fin 2) = 0 ∧ win1_1.index t (1 : Fin 2) = 0
    ∧ win1_2.index t (0 : Fin 2) = t.val / 4 ∧ win1_2.index t (1 : Fin 2) = 0
    ∧ win1_3.index t (0 : Fin 2) = t.val / 4 ∧ win1_3.index t (1 : Fin 2) = 0
    ∧ ((grid1.coords t) 1).val = t.val % 4 :=
  (by decide +kernel : ∀ t : Fin grid1.N, _)

section Blocks
variable (V : (c : Dev nD) → (b : Ref sig .tc) → Buf (Elt Ideal) ((c : Thread nD τ).loc b))

/-- Index (row block `n`, row `k`; column `e`) of H, -/
abbrev hI1 (n : ℕ) (k : Fin 2048) (e : Fin 4096) : S8192x4096.Idx := fun a => match a with
  | ⟨0, _⟩ => ⟨2048 * (n % 4) + k.val, by have := k.isLt; have := Nat.mod_lt n (by decide : 0 < 4); show _ < 8192; omega⟩
  | ⟨1, _⟩ => ⟨e.val, e.isLt⟩
/-- (row block `n`, row `k`; column `d`) of xs, -/
abbrev xI1 (n : ℕ) (k : Fin 2048) (d : Fin 256) : S8192x256.Idx := fun a => match a with
  | ⟨0, _⟩ => ⟨2048 * (n % 4) + k.val, by have := k.isLt; have := Nat.mod_lt n (by decide : 0 < 4); show _ < 8192; omega⟩
  | ⟨1, _⟩ => ⟨d.val, d.isLt⟩
/-- (row `e`, the one column) of the scale. -/
abbrev dI1 (e : Fin 4096) : S4096x1.Idx := fun a => match a with
  | ⟨0, _⟩ => ⟨e.val, e.isLt⟩
  | ⟨1, _⟩ => ⟨0, Nat.zero_lt_one⟩

/-- The row of the result a block coordinate of group `q` stands for, and its column. -/
abbrev eOf1 (q : ℕ) (y : S1024x256.Idx) : Fin 4096 :=
  ⟨1024 * (q % 4) + (y 0).val, by have : (y 0).val < 1024 := (y 0).isLt; have := Nat.mod_lt q (by decide : 0 < 4); omega⟩
abbrev dOf1 (y : S1024x256.Idx) : Fin 256 := ⟨(y 1).val, (y 1).isLt⟩

/-- H's block at point `t`, at the step's operand index. -/
theorem iblk1_0_apply (c : Dev nD) (t : Fin cfg1.N) (y : S1024x256.Idx) (k : Fin 2048) :
    (iblk1 V c 0 t : Vec Ideal S2048x1024 .bf16) (lidx1 y k) = V c main_v0_2 (hI1 (t.val % 4) k (eOf1 (t.val / 4) y)) := by
  obtain ⟨e0, e1, -⟩ := idx_facts1 t
  have hN : t.val < 16 := lt_of_lt_of_eq t.isLt (show cfg1.N = 16 from N_1)
  unfold iblk1
  rw [View.read_apply]
  show V c main_v0_2 _ = V c main_v0_2 _
  refine congrArg (V c main_v0_2) (funext fun a => Fin.ext ?_)
  match a with
  | ⟨0, _⟩ =>
    show win1_0.index t (0 : Fin 2) * 2048 + 1 * k.val = 2048 * (t.val % 4 % 4) + k.val
    rw [e0]; omega
  | ⟨1, _⟩ =>
    show win1_0.index t (1 : Fin 2) * 1024 + 1 * (y 0).val = 1024 * (t.val / 4 % 4) + (y 0).val
    rw [e1]; omega

/-- The scale's block at point `t`, at a row. -/
theorem iblk1_2_apply (c : Dev nD) (t : Fin cfg1.N) (y : S1024x256.Idx) :
    (iblk1 V c 2 t : Vec Ideal S1024x1 .f32) (didx1 y) = V c main_v23 (dI1 (eOf1 (t.val / 4) y)) := by
  obtain ⟨-, -, -, -, e4, e5, -⟩ := idx_facts1 t
  have hN : t.val < 16 := lt_of_lt_of_eq t.isLt (show cfg1.N = 16 from N_1)
  unfold iblk1
  rw [View.read_apply]
  show V c main_v23 _ = V c main_v23 _
  refine congrArg (V c main_v23) (funext fun a => Fin.ext ?_)
  match a with
  | ⟨0, _⟩ =>
    show win1_2.index t (0 : Fin 2) * 1024 + 1 * (y 0).val = 1024 * (t.val / 4 % 4) + (y 0).val
    rw [e4]; omega
  | ⟨1, _⟩ =>
    show win1_2.index t (1 : Fin 2) * 1 + 1 * 0 = 0
    rw [e5]

/-- The rows the step loads from the resident array (its block is the whole array), at the step's operand index. -/
theorem rows1_apply (c : Dev nD) (t : Fin cfg1.N) (y : S1024x256.Idx) (k : Fin 2048) :
    View.ld (iblk1 V c 1 t : Vec Ideal S8192x256 .f32) (rX (grid1.coords t)) (ridx1 y k) = V c main_v22 (xI1 (t.val % 4) k (dOf1 y)) := by
  obtain ⟨-, -, e2, e3, -, -, -, -, e8⟩ := idx_facts1 t
  unfold iblk1
  show (((cfg1.win 1).blk t).view.read (Elt Ideal) (V c main_v22)) ((rX (grid1.coords t)).emb (ridx1 y k)) = _
  rw [View.read_apply]
  show V c main_v22 _ = V c main_v22 _
  refine congrArg (V c main_v22) (funext fun a => Fin.ext ?_)
  have hoff := k1_off1_eq (grid1.coords t)
  match a with
  | ⟨0, _⟩ =>
    show win1_1.index t (0 : Fin 2) * 8192 + 1 * (k1_off1 (grid1.coords t) 0 + 1 * k.val) = 2048 * (t.val % 4 % 4) + k.val
    rw [e2, hoff]
    show 0 * 8192 + 1 * (2048 * ((grid1.coords t) 1).val + 1 * k.val) = _
    rw [e8]; omega
  | ⟨1, _⟩ =>
    show win1_1.index t (1 : Fin 2) * 256 + 1 * (k1_off1 (grid1.coords t) 1 + 1 * (y 1).val) = (y 1).val
    rw [e3, hoff]
    show 0 * 256 + 1 * (0 + 1 * (y 1).val) = _
    omega

end Blocks

/-! ## The accumulation, point by point -/

/-- The sum over the 2048 rows of row block `n` of H (at column `e`) times xs (at column `d`). -/
def bsum1 (H : S8192x4096.Idx → EReal) (XS : S8192x256.Idx → EReal) (n : ℕ) (e : Fin 4096) (d : Fin 256) : EReal :=
  ∑ k : Fin 2048, H (hI1 n k e) * XS (xI1 n k d)

/-- The ordered partial sums over the row blocks: `0 + B₀`, then `+ Bₖ`. -/
def part1 (H : S8192x4096.Idx → EReal) (XS : S8192x256.Idx → EReal) (e : Fin 4096) (d : Fin 256) : ℕ → EReal
  | 0 => 0 + bsum1 H XS 0 e d
  | k + 1 => part1 H XS e d k + bsum1 H XS (k + 1) e d

/-- A result index's row and column. -/
abbrev rowOf1 (i : S4096x256.Idx) : Fin 4096 := ⟨(i 0).val, (i 0).isLt⟩
abbrev colOf1 (i : S4096x256.Idx) : Fin 256 := ⟨(i 1).val, (i 1).isLt⟩

/-- THE RESULT of the region, index by index: the ordered sum over the four row blocks, scaled by the row's `de`. -/
def eSpec1 (H : S8192x4096.Idx → EReal) (XS : S8192x256.Idx → EReal) (DE : S4096x1.Idx → EReal) : S4096x256.Idx → EReal := fun i =>
  ((((0 + bsum1 H XS 0 (rowOf1 i) (colOf1 i)) + bsum1 H XS 1 (rowOf1 i) (colOf1 i)) + bsum1 H XS 2 (rowOf1 i) (colOf1 i))
    + bsum1 H XS 3 (rowOf1 i) (colOf1 i)) * DE (dI1 (rowOf1 i))

theorem eSpec1_of (H : S8192x4096.Idx → EReal) (XS : S8192x256.Idx → EReal) (DE : S4096x1.Idx → EReal) (i : S4096x256.Idx)
    (e : Fin 4096) (d : Fin 256) (he : (i 0).val = e.val) (hd : (i 1).val = d.val) :
    eSpec1 H XS DE i = part1 H XS e d 3 * DE (dI1 e) := by
  have h1 : rowOf1 i = e := Fin.ext he
  have h2 : colOf1 i = d := Fin.ext hd
  unfold eSpec1
  rw [h1, h2]
  rfl

section Value
variable (V : (c : Dev nD) → (b : Ref sig .tc) → Buf (Elt Ideal) ((c : Thread nD τ).loc b))

/-- One step at point `t`, at an index: what the accumulator held plus the step's row-block sum. -/
theorem step1_apply (c : Dev nD) (t : Fin cfg1.N) (xs : Vec Ideal S1024x256 .f32) (y : S1024x256.Idx) :
    accStep (grid1.coords t) (iblk1 V c 0 t) (iblk1 V c 1 t) xs y
      = xs y + bsum1 (V c main_v0_2) (V c main_v22) (t.val % 4) (eOf1 (t.val / 4) y) (dOf1 y) := by
  rw [accStep_eq (grid1.coords t) (iblk1 V c 0 t) (iblk1 V c 1 t) xs]
  refine (k1_pay2_apply (View.ld (iblk1 V c 1 t : Vec Ideal S8192x256 .f32) (rX (grid1.coords t))) (iblk1 V c 0 t) xs y).trans ?_
  refine congrArg (xs y + ·) ?_
  unfold bsum1
  exact Finset.sum_congr rfl fun k _ => by rw [iblk1_0_apply V c t y k, rows1_apply V c t y k]

/-- The accumulator after point `n` is the partial sum its residue mod 4 selects, of the rows of its group. -/
theorem accAt1_apply (c : Dev nD) : ∀ (n : ℕ) (hn : n < cfg1.N) (y : S1024x256.Idx),
    accAt V c n hn y = part1 (V c main_v0_2) (V c main_v22) (eOf1 (n / 4) y) (dOf1 y) (n % 4)
  | 0, hn, y => by
    refine (congrFun (accAt_A V c ⟨0, hn⟩ rfl) y).trans ?_
    rw [step1_apply V c ⟨0, hn⟩ accZero y, accZero_eq, k1_pay1_apply]
    rfl
  | n + 1, hn, y => by
    by_cases h0 : (n + 1) % 4 = 0
    · refine (congrFun (accAt_A V c ⟨n + 1, hn⟩ h0) y).trans ?_
      rw [step1_apply V c ⟨n + 1, hn⟩ accZero y, accZero_eq, k1_pay1_apply]
      show 0 + bsum1 _ _ ((n + 1) % 4) (eOf1 ((n + 1) / 4) y) (dOf1 y) = part1 _ _ (eOf1 ((n + 1) / 4) y) (dOf1 y) ((n + 1) % 4)
      rw [h0]
      rfl
    · refine (congrFun (accAt_BC V c ⟨n + 1, hn⟩ h0) y).trans ?_
      rw [step1_apply V c ⟨n + 1, hn⟩ _ y]
      show accAt V c n _ y + bsum1 _ _ ((n + 1) % 4) (eOf1 ((n + 1) / 4) y) (dOf1 y) = part1 _ _ (eOf1 ((n + 1) / 4) y) (dOf1 y) ((n + 1) % 4)
      rw [accAt1_apply c n _ y]
      have hq : (n + 1) / 4 = n / 4 := by omega
      have hk : (n + 1) % 4 = n % 4 + 1 := by omega
      rw [hq, hk]
      rfl

/-! ## From blocks to the array -/

/-- WHAT A FLUSHING POINT WRITES BACK is its block of the result. -/
theorem flushed1_eq (c : Dev nD) (t : Fin cfg1.N) (hf : (cfg1.win 3).flush t = true) :
    (dat1 V c).flushed 3 t = ((cfg1.win 3).blk t).view.read (Elt Ideal) (eSpec1 (V c main_v0_2) (V c main_v22) (V c main_v23)) := by
  have h3 : t.val % 4 = 3 := (flush1_3 t).mp hf
  have hN : t.val < 16 := lt_of_lt_of_eq t.isLt (show cfg1.N = 16 from N_1)
  obtain ⟨-, -, -, -, -, -, e6, e7, -⟩ := idx_facts1 t
  show (cfg1.win 3).cut (grid1.coords t) ((dat1 V c).after 3 t) = _
  rw [after1_3]
  funext y
  show outOf (accAt V c t.val t.isLt) (iblk1 V c 2 t) y = eSpec1 _ _ _ (((cfg1.win 3).blk t).view.emb y)
  rw [outOf_eq (accAt V c t.val t.isLt) (iblk1 V c 2 t)]
  refine (k1_pay3_apply (accAt V c t.val t.isLt) (iblk1 V c 2 t) y).trans ?_
  rw [accAt1_apply V c t.val t.isLt y, iblk1_2_apply V c t y, h3]
  refine (eSpec1_of _ _ _ _ (eOf1 (t.val / 4) y) (dOf1 y) ?_ ?_).symm
  · show win1_3.index t (0 : Fin 2) * 1024 + 1 * (y 0).val = 1024 * (t.val / 4 % 4) + (y 0).val
    rw [e6]; omega
  · show win1_3.index t (1 : Fin 2) * 256 + 1 * (y 1).val = (y 1).val
    rw [e7]; omega

/-- An index of the result is in point `t`'s block iff each coordinate is in the block's range on its axis. -/
theorem mem_blk1_3 (t : Fin cfg1.N) (i : S4096x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v24).slice (win1_3.rect t)).set ↔ _
  rw [View.set_slice_whole, Rect.mem_set_unit]
  exact Iff.rfl

/-- Every index of the result is in the block of the last point of its group. -/
theorem cover1_3 (i : S4096x256.Idx) : ∃ t : Fin cfg1.N, (cfg1.win 3).flush t = true ∧ i ∈ ((cfg1.win 3).blk t).view.set := by
  have hi0 : (i 0).val < 4096 := (i 0).isLt
  have hi1 : (i 1).val < 256 := (i 1).isLt
  have hN : cfg1.N = 16 := N_1
  have ht : 4 * ((i 0).val / 1024) + 3 < cfg1.N := by rw [hN]; omega
  obtain ⟨-, -, -, -, -, -, e6, e7, -⟩ := idx_facts1 ⟨4 * ((i 0).val / 1024) + 3, ht⟩
  refine ⟨⟨4 * ((i 0).val / 1024) + 3, ht⟩, (flush1_3 _).mpr (by show (4 * ((i 0).val / 1024) + 3) % 4 = 3; omega), ?_⟩
  rw [mem_blk1_3]
  intro a
  match a with
  | ⟨0, _⟩ =>
    show win1_3.index ⟨4 * ((i 0).val / 1024) + 3, ht⟩ (0 : Fin 2) * 1024 ≤ (i 0).val ∧ (i 0).val < win1_3.index ⟨4 * ((i 0).val / 1024) + 3, ht⟩ (0 : Fin 2) * 1024 + 1024
    rw [e6]
    show (4 * ((i 0).val / 1024) + 3) / 4 * 1024 ≤ (i 0).val ∧ (i 0).val < (4 * ((i 0).val / 1024) + 3) / 4 * 1024 + 1024
    omega
  | ⟨1, _⟩ =>
    show win1_3.index ⟨4 * ((i 0).val / 1024) + 3, ht⟩ (1 : Fin 2) * 256 ≤ (i 1).val ∧ (i 1).val < win1_3.index ⟨4 * ((i 0).val / 1024) + 3, ht⟩ (1 : Fin 2) * 256 + 256
    rw [e7]
    omega

/-- THE ARRAY AFTER THE REGION: the result, as one function of the region-entry arrays of H, xs and de. -/
theorem final1_3 (c : Dev nD) :
    (dat1 V c).arrAt 3 cfg1.N = eSpec1 (V c main_v0_2) (V c main_v22) (V c main_v23) :=
  (dat1 V c).arrAt_eq_of_cover 3 (eSpec1 (V c main_v0_2) (V c main_v22) (V c main_v23)) (fun t hf => flushed1_eq V c t hf) (cover1_3)

end Value

end Cert.KernelIdeal.Hand

end
-- ==== Proof.LibBlocks.lean ====
/-
  Re-blocking a finite sum in a commutative additive monoid.

  A sum over `N` consecutive indices may be taken block by block: the indices `0, …, N - 1` are cut into consecutive
  runs, each run is summed on its own, and the partial sums are added up. Only associativity of `+` is used to regroup
  and only the neutrality of `0` to start from a leading zero, so every law here holds in any `AddCommMonoid` — in
  particular on the extended reals, where no cancellation or distributivity is available at the infinities.

  * `sum_fin_mul`: a sum over `A * B` indices is the sum over the `A` blocks of the sums over each block's `B` indices,
    block `a` holding the indices `B * a + r`.
  * `sum_split`, `sum_split_zero`: a run of `n + B` consecutive indices starting at `c` is the run of the first `n`
    followed by the run of the last `B`, which starts at `c + n`.
  * `sum_8192_blocks_2048`, `sum_4096_blocks_1024`: four equal blocks, accumulated left to right from a leading zero,
    `(((0 + B₀) + B₁) + B₂) + B₃`.
  * `sum_8192_halves_tiles_512`: two halves, each accumulated left to right from a leading zero over its eight tiles of
    `512` indices, and the two halves added.
-/
import Mathlib

open scoped BigOperators

namespace LibBlocks

variable {M : Type*} [AddCommMonoid M]

/-- Index `B * a + r` of block `a`, place `r`, lies below `A * B`. -/
theorem block_index_lt {A B : ℕ} (a : Fin A) (r : Fin B) : B * a.val + r.val < A * B := by
  have h1 : B * a.val + r.val < B * a.val + B := Nat.add_lt_add_left r.isLt _
  have h2 : B * a.val + B ≤ A * B := by
    rw [← Nat.mul_succ, Nat.mul_comm A B]
    exact Nat.mul_le_mul_left _ a.isLt
  exact Nat.lt_of_lt_of_le h1 h2

/-- A sum over `A * B` consecutive indices is the sum, over the `A` blocks, of the sum over each block's `B` indices. -/
theorem sum_fin_mul (A B : ℕ) (f : Fin (A * B) → M) :
    ∑ r, f r = ∑ a : Fin A, ∑ r : Fin B, f ⟨B * a.val + r.val, block_index_lt a r⟩ := by
  rw [← Equiv.sum_comp finProdFinEquiv f, Fintype.sum_prod_type]
  refine Finset.sum_congr rfl fun a _ => Finset.sum_congr rfl fun r _ => congrArg f (Fin.ext ?_)
  show r.val + B * a.val = B * a.val + r.val
  exact Nat.add_comm _ _

/-- A run of `L = n + B` consecutive indices starting at `c` splits into its first `n` indices and its last `B`, the
    latter starting at `d = c + n`. -/
theorem sum_split {N : ℕ} (f : Fin N → M) (c L n B d : ℕ) (hL : n + B = L) (hd : c + n = d) (hN : c + L ≤ N) :
    ∑ r : Fin L, f ⟨c + r.val, by omega⟩
      = (∑ r : Fin n, f ⟨c + r.val, by omega⟩) + ∑ r : Fin B, f ⟨d + r.val, by omega⟩ := by
  subst hL hd
  rw [Fin.sum_univ_add]
  refine congrArg₂ (· + ·) rfl (Finset.sum_congr rfl fun r _ => congrArg f (Fin.ext ?_))
  show c + (n + r.val) = c + n + r.val
  omega

/-- The same for a run that starts at the first index. -/
theorem sum_split_zero {N : ℕ} (f : Fin N → M) (L n B : ℕ) (hL : n + B = L) (hN : L ≤ N) :
    ∑ r : Fin L, f ⟨r.val, by omega⟩
      = (∑ r : Fin n, f ⟨r.val, by omega⟩) + ∑ r : Fin B, f ⟨n + r.val, by omega⟩ := by
  subst hL
  rw [Fin.sum_univ_add]
  rfl

/-- `8192` indices as four blocks of `2048`, accumulated left to right from a leading zero. -/
theorem sum_8192_blocks_2048 (f : Fin 8192 → M) :
    ∑ r, f r
      = ((((0 + ∑ r : Fin 2048, f ⟨r.val, by omega⟩) + ∑ r : Fin 2048, f ⟨2048 + r.val, by omega⟩)
          + ∑ r : Fin 2048, f ⟨4096 + r.val, by omega⟩) + ∑ r : Fin 2048, f ⟨6144 + r.val, by omega⟩) := by
  rw [zero_add, ← sum_split_zero f 4096 2048 2048 rfl (by omega),
    ← sum_split_zero f 6144 4096 2048 rfl (by omega), ← sum_split_zero f 8192 6144 2048 rfl (by omega)]

/-- `4096` indices as four blocks of `1024`, accumulated left to right from a leading zero. -/
theorem sum_4096_blocks_1024 (f : Fin 4096 → M) :
    ∑ r, f r
      = ((((0 + ∑ r : Fin 1024, f ⟨r.val, by omega⟩) + ∑ r : Fin 1024, f ⟨1024 + r.val, by omega⟩)
          + ∑ r : Fin 1024, f ⟨2048 + r.val, by omega⟩) + ∑ r : Fin 1024, f ⟨3072 + r.val, by omega⟩) := by
  rw [zero_add, ← sum_split_zero f 2048 1024 1024 rfl (by omega),
    ← sum_split_zero f 3072 2048 1024 rfl (by omega), ← sum_split_zero f 4096 3072 1024 rfl (by omega)]

/-- `8192` indices as two halves of eight tiles of `512`: each half accumulated left to right from a leading zero over
    its eight tiles, and the two halves added. -/
theorem sum_8192_halves_tiles_512 (f : Fin 8192 → M) :
    ∑ r, f r
      = (((((((((0 + ∑ r : Fin 512, f ⟨r.val, by omega⟩) + ∑ r : Fin 512, f ⟨512 + r.val, by omega⟩)
            + ∑ r : Fin 512, f ⟨1024 + r.val, by omega⟩) + ∑ r : Fin 512, f ⟨1536 + r.val, by omega⟩)
            + ∑ r : Fin 512, f ⟨2048 + r.val, by omega⟩) + ∑ r : Fin 512, f ⟨2560 + r.val, by omega⟩)
            + ∑ r : Fin 512, f ⟨3072 + r.val, by omega⟩) + ∑ r : Fin 512, f ⟨3584 + r.val, by omega⟩)
        + ((((((((0 + ∑ r : Fin 512, f ⟨4096 + r.val, by omega⟩) + ∑ r : Fin 512, f ⟨4608 + r.val, by omega⟩)
            + ∑ r : Fin 512, f ⟨5120 + r.val, by omega⟩) + ∑ r : Fin 512, f ⟨5632 + r.val, by omega⟩)
            + ∑ r : Fin 512, f ⟨6144 + r.val, by omega⟩) + ∑ r : Fin 512, f ⟨6656 + r.val, by omega⟩)
            + ∑ r : Fin 512, f ⟨7168 + r.val, by omega⟩) + ∑ r : Fin 512, f ⟨7680 + r.val, by omega⟩)) := by
  rw [zero_add, zero_add,
    ← sum_split_zero f 1024 512 512 rfl (by omega), ← sum_split_zero f 1536 1024 512 rfl (by omega),
    ← sum_split_zero f 2048 1536 512 rfl (by omega), ← sum_split_zero f 2560 2048 512 rfl (by omega),
    ← sum_split_zero f 3072 2560 512 rfl (by omega), ← sum_split_zero f 3584 3072 512 rfl (by omega),
    ← sum_split_zero f 4096 3584 512 rfl (by omega),
    ← sum_split f 4096 1024 512 512 4608 rfl rfl (by omega), ← sum_split f 4096 1536 1024 512 5120 rfl rfl (by omega),
    ← sum_split f 4096 2048 1536 512 5632 rfl rfl (by omega), ← sum_split f 4096 2560 2048 512 6144 rfl rfl (by omega),
    ← sum_split f 4096 3072 2560 512 6656 rfl rfl (by omega), ← sum_split f 4096 3584 3072 512 7168 rfl rfl (by omega),
    ← sum_split f 4096 4096 3584 512 7680 rfl rfl (by omega),
    ← sum_split_zero f 8192 4096 4096 rfl (by omega)]

end LibBlocks
-- ==== Proof.SpecBlocks.lean ====
/-
  The specification's three long sums, taken block by block.

  The column degree as two half-column partial sums, each accumulated from a leading zero over eight tiles of `512` rows;
  the contraction over the `8192` rows as four blocks of `2048` accumulated left to right from a leading zero; the
  contraction over the `4096` columns as four blocks of `1024` likewise. Each is the re-blocking law of a finite sum in a
  commutative additive monoid, applied to the summand of the specification; the factor that multiplies a contraction
  stays outside the blocks, so no distributivity is used.
-/
import proofs.«116271_j23089744183324_2_alg».proof.Proof.LibBlocks
import proofs.«116271_j23089744183324_2_alg».proof.Proof.Spec

noncomputable section

open scoped BigOperators

namespace Cert.Spec

open Idealize.ShloMosaic Idealize.ShloMosaic.ValueIdx

/-- The column degree as the sum of two half-column partial sums, each over eight tiles of `512` rows. -/
theorem degE_blocks (H : FVec Ideal ⟨2, ![8192, 4096]⟩ .f32) (j : Fin 4096) :
    degE H j
      = ((((((((0 + (∑ r : Fin 512, H (ix2 (⟨r.val, by omega⟩ : Fin 8192) j)))
          + (∑ r : Fin 512, H (ix2 (⟨512 + r.val, by omega⟩ : Fin 8192) j)))
          + (∑ r : Fin 512, H (ix2 (⟨1024 + r.val, by omega⟩ : Fin 8192) j)))
          + (∑ r : Fin 512, H (ix2 (⟨1536 + r.val, by omega⟩ : Fin 8192) j)))
          + (∑ r : Fin 512, H (ix2 (⟨2048 + r.val, by omega⟩ : Fin 8192) j)))
          + (∑ r : Fin 512, H (ix2 (⟨2560 + r.val, by omega⟩ : Fin 8192) j)))
          + (∑ r : Fin 512, H (ix2 (⟨3072 + r.val, by omega⟩ : Fin 8192) j)))
          + (∑ r : Fin 512, H (ix2 (⟨3584 + r.val, by omega⟩ : Fin 8192) j)))
        + ((((((((0 + (∑ r : Fin 512, H (ix2 (⟨4096 + r.val, by omega⟩ : Fin 8192) j)))
          + (∑ r : Fin 512, H (ix2 (⟨4608 + r.val, by omega⟩ : Fin 8192) j)))
          + (∑ r : Fin 512, H (ix2 (⟨5120 + r.val, by omega⟩ : Fin 8192) j)))
          + (∑ r : Fin 512, H (ix2 (⟨5632 + r.val, by omega⟩ : Fin 8192) j)))
          + (∑ r : Fin 512, H (ix2 (⟨6144 + r.val, by omega⟩ : Fin 8192) j)))
          + (∑ r : Fin 512, H (ix2 (⟨6656 + r.val, by omega⟩ : Fin 8192) j)))
          + (∑ r : Fin 512, H (ix2 (⟨7168 + r.val, by omega⟩ : Fin 8192) j)))
          + (∑ r : Fin 512, H (ix2 (⟨7680 + r.val, by omega⟩ : Fin 8192) j))) := by
  unfold degE
  rw [zero_add]
  exact LibBlocks.sum_8192_halves_tiles_512 (fun i : Fin 8192 => H (ix2 i j))

/-- The row degree is the plain row sum. -/
theorem degN_eq_sum (H : FVec Ideal ⟨2, ![8192, 4096]⟩ .f32) (i : Fin 8192) :
    degN H i = ∑ j : Fin 4096, H (ix2 i j) := by
  unfold degN
  rw [zero_add]

/-- The edge features with the contraction over the rows taken in four blocks of `2048`. -/
theorem e_blocks (x : FVec Ideal ⟨2, ![8192, 256]⟩ .f32) (H : FVec Ideal ⟨2, ![8192, 4096]⟩ .f32) (j : Fin 4096)
    (k : Fin 256) :
    e x H j k
      = ((((0 + (∑ r : Fin 2048, H (ix2 (⟨r.val, by omega⟩ : Fin 8192) j) * xs x H (⟨r.val, by omega⟩ : Fin 8192) k))
          + (∑ r : Fin 2048, H (ix2 (⟨2048 + r.val, by omega⟩ : Fin 8192) j) * xs x H (⟨2048 + r.val, by omega⟩ : Fin 8192) k))
          + (∑ r : Fin 2048, H (ix2 (⟨4096 + r.val, by omega⟩ : Fin 8192) j) * xs x H (⟨4096 + r.val, by omega⟩ : Fin 8192) k))
          + (∑ r : Fin 2048, H (ix2 (⟨6144 + r.val, by omega⟩ : Fin 8192) j) * xs x H (⟨6144 + r.val, by omega⟩ : Fin 8192) k))
        * de H j := by
  unfold e
  exact congrArg (· * de H j) (LibBlocks.sum_8192_blocks_2048 (fun i : Fin 8192 => H (ix2 i j) * xs x H i k))

/-- The node features with the contraction over the columns taken in four blocks of `1024`. -/
theorem xn_blocks (x : FVec Ideal ⟨2, ![8192, 256]⟩ .f32) (H : FVec Ideal ⟨2, ![8192, 4096]⟩ .f32) (i : Fin 8192)
    (k : Fin 256) :
    xn x H i k
      = ((((0 + (∑ r : Fin 1024, H (ix2 i (⟨r.val, by omega⟩ : Fin 4096)) * e x H (⟨r.val, by omega⟩ : Fin 4096) k))
          + (∑ r : Fin 1024, H (ix2 i (⟨1024 + r.val, by omega⟩ : Fin 4096)) * e x H (⟨1024 + r.val, by omega⟩ : Fin 4096) k))
          + (∑ r : Fin 1024, H (ix2 i (⟨2048 + r.val, by omega⟩ : Fin 4096)) * e x H (⟨2048 + r.val, by omega⟩ : Fin 4096) k))
          + (∑ r : Fin 1024, H (ix2 i (⟨3072 + r.val, by omega⟩ : Fin 4096)) * e x H (⟨3072 + r.val, by omega⟩ : Fin 4096) k))
        * dn H i := by
  unfold xn
  exact congrArg (· * dn H i) (LibBlocks.sum_4096_blocks_1024 (fun j : Fin 4096 => H (ix2 i j) * e x H j k))

end Cert.Spec

end
-- ==== Proof.BridgeE.lean ====
import proofs.«116271_j23089744183324_2_alg».proof.Proof.RunReads
import proofs.«116271_j23089744183324_2_alg».proof.Proof.Region1Value
import proofs.«116271_j23089744183324_2_alg».proof.Proof.BridgeInputs
import proofs.«116271_j23089744183324_2_alg».proof.Proof.SpecBlocks

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx

/-! # The second region's result is the specification's edge features -/

/-- One row block's sum, over any spelling `row` of the block's rows, once the scaled features are the specification's. -/
theorem bsum1_rows (x : FVec Ideal ⟨2, ![8192, 256]⟩ .f32) (H : FVec Ideal ⟨2, ![8192, 4096]⟩ .f32)
    (XS : S8192x256.Idx → EReal) (hXS : ∀ (p : Fin 8192) (k : Fin 256), XS (ix2 p k) = Cert.Spec.xs x H p k)
    (n : ℕ) (row : Fin 2048 → Fin 8192) (hrow : ∀ r, (row r).val = 2048 * (n % 4) + r.val) (j : Fin 4096) (k : Fin 256) :
    bsum1 H XS n j k = ∑ r : Fin 2048, H (ix2 (row r) j) * Cert.Spec.xs x H (row r) k := by
  unfold bsum1
  refine Finset.sum_congr rfl fun r _ => ?_
  have e1 : hI1 n r j = ix2 (row r) j := funext fun a => by
    match a with
    | ⟨0, _⟩ => exact Fin.ext (hrow r).symm
    | ⟨1, _⟩ => rfl
  have e2 : xI1 n r k = ix2 (row r) k := funext fun a => by
    match a with
    | ⟨0, _⟩ => exact Fin.ext (hrow r).symm
    | ⟨1, _⟩ => rfl
  rw [e1, e2, hXS]

/-- The region's result function at the arrays the region reads — H itself, the scaled features, the edge scale as a
    column — is the specification's edge features: the four row-block sums are the blocks of its contraction. -/
theorem eSpec1_eq_spec (x : FVec Ideal ⟨2, ![8192, 256]⟩ .f32) (H : FVec Ideal ⟨2, ![8192, 4096]⟩ .f32)
    (Hh : S8192x4096.Idx → EReal) (XS : S8192x256.Idx → EReal) (DE : S4096x1.Idx → EReal)
    (hH : Hh = H) (hXS : ∀ (p : Fin 8192) (k : Fin 256), XS (ix2 p k) = Cert.Spec.xs x H p k)
    (hDE : ∀ q : Fin 4096, DE (ix2 q (0 : Fin 1)) = Cert.Spec.de H q) (j : Fin 4096) (k : Fin 256) :
    eSpec1 Hh XS DE (ix2 j k) = Cert.Spec.e x H j k := by
  subst hH
  have e3 : dI1 j = ix2 j (0 : Fin 1) := funext fun a => by
    match a with
    | ⟨0, _⟩ => rfl
    | ⟨1, _⟩ => rfl
  show ((((0 + bsum1 Hh XS 0 j k) + bsum1 Hh XS 1 j k) + bsum1 Hh XS 2 j k) + bsum1 Hh XS 3 j k) * DE (dI1 j) = _
  rw [bsum1_rows x Hh XS hXS 0 (fun r => ⟨r.val, by omega⟩) (fun r => by show r.val = 2048 * (0 % 4) + r.val; omega) j k,
    bsum1_rows x Hh XS hXS 1 (fun r => ⟨2048 + r.val, by omega⟩) (fun r => by show 2048 + r.val = 2048 * (1 % 4) + r.val; omega) j k,
    bsum1_rows x Hh XS hXS 2 (fun r => ⟨4096 + r.val, by omega⟩) (fun r => by show 4096 + r.val = 2048 * (2 % 4) + r.val; omega) j k,
    bsum1_rows x Hh XS hXS 3 (fun r => ⟨6144 + r.val, by omega⟩) (fun r => by show 6144 + r.val = 2048 * (3 % 4) + r.val; omega) j k,
    e3, hDE]
  exact (Cert.Spec.e_blocks x Hh j k).symm

/-- THE THIRD REGION'S SECOND OPERAND: the array the second region leaves, read at an index, is the specification's edge
    features of the launched features and matrix — the region's result function at what the region read, which is the
    matrix, the specification's scaled features and its edge scale. -/
theorem in2_e (m : (ℓ : Loc nD τ sig) → Buf (Elt Ideal) ℓ) (c : Dev nD) (j : Fin 4096) (k : Fin 256) :
    W8 m c (Proc.devRef .tc main_v24) (ix2 j k)
      = Cert.Spec.e (m ((c : Thread nD τ).loc main_arg0)) (m ((c : Thread nD τ).loc main_arg1)) j k := by
  rw [W8_v24, final1_3 (Vt6 m) c]
  exact eSpec1_eq_spec (m ((c : Thread nD τ).loc main_arg0)) (m ((c : Thread nD τ).loc main_arg1))
    (Vt6 m c main_v0_2) (Vt6 m c main_v22) (Vt6 m c main_v23) (in1_h m c) (in1_xs m c) (in1_de m c) j k

end Cert.KernelIdeal.Hand

end
-- ==== Proof.Bridge.lean ====
/-
  The kernel's result array is the specification. The last region leaves, at row R and column d,
  (∑ k, (((((0 + C0) + C1) + C2) + C3) · dn(R)) · W(d, k)) + b(d), with Cn the part of the contraction of row R of the
  matrix against column k of the second region's result that lies in the n-th block of 1024 columns. The matrix is the
  first region's copy, which is the matrix itself; the second region's result is the specification's edge features; the
  node scale and the bias are the specification's. Regrouping the four blocks into one sum (no finiteness: addition on
  the extended reals is commutative and associative) gives the specification's entry.
-/
import proofs.«116271_j23089744183324_2_alg».proof.Proof.RunReads
import proofs.«116271_j23089744183324_2_alg».proof.Proof.Region2Value
import proofs.«116271_j23089744183324_2_alg».proof.Proof.BridgeInputs
import proofs.«116271_j23089744183324_2_alg».proof.Proof.BridgeE
import proofs.«116271_j23089744183324_2_alg».proof.Proof.SpecBlocks

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- The last region's result as the closed function of the five arrays it reads, those named as the buffers they are. -/
theorem out_closed :
    (dat2 (Vt8 m) c).arrAt 5 cfg2.N
      = outArr2 (W8 m c (Proc.devRef .tc main_v0_2)) (W8 m c (Proc.devRef .tc main_v24)) (W8 m c (Proc.devRef .tc main_v25))
          (W8 m c (Proc.devRef .tc main_arg2)) (W8 m c (Proc.devRef .tc main_v26)) :=
  final2_5 (Vt8 m) c

/-- Entry (R, d) of the kernel's result is the specification's. -/
theorem result_apply (R : Fin 8192) (d : Fin 256) :
    W9 m c (Proc.devRef .tc main_v27) (ix2 R d)
      = Cert.Spec.out (m ((c : Thread nD τ).loc main_arg0)) (m ((c : Thread nD τ).loc main_arg1))
          (m ((c : Thread nD τ).loc main_arg2)) (m ((c : Thread nD τ).loc main_arg3)) R d := by
  rw [W9_v27, out_closed, in2_h m c, in2_w m c]
  show outEntry2 _ _ _ _ _ R d = _
  unfold outEntry2 Cert.Spec.out
  rw [in2_b m c d]
  refine congrArg (· + _) (Finset.sum_congr rfl fun k _ => ?_)
  rw [in2_dn m c R, Cert.Spec.xn_blocks]
  refine congrArg (· * _) (congrArg (· * _) ?_)
  simp only [accRow2, blockSum2, in2_e m c, Nat.mul_zero, Nat.mul_one, Nat.zero_add, Nat.reduceMul]

/-- The kernel's result array, whole. -/
theorem result_eq :
    (W9 m c (Proc.devRef .tc main_v27) : S8192x256.Idx → EReal)
      = fun i => Cert.Spec.out (m ((c : Thread nD τ).loc main_arg0)) (m ((c : Thread nD τ).loc main_arg1))
          (m ((c : Thread nD τ).loc main_arg2)) (m ((c : Thread nD τ).loc main_arg3)) (i 0) (i 1) := by
  funext i
  obtain ⟨R, d, rfl⟩ : ∃ (R : Fin 8192) (d : Fin 256), i = ix2 R d := ⟨i 0, i 1, eq_ix2 i⟩
  exact result_apply m c R d

end Cert.KernelIdeal.Hand

end
-- ==== Proof.RefIsSpec.lean ====
/-
  The reference computes the specification.

  The reference program is a chain of whole-array operations: two degree sums of `H`, the two normalisations, the
  row-scaled features, a contraction over the rows, a column scaling, a contraction over the columns, a row scaling, and
  the linear layer. Read at an index, each stage is the corresponding stage of `Cert.Spec`, and the last one is
  `Cert.Spec.out`. Nothing is rearranged here: every sum is the specification's sum over the same index set in the same
  form, so no algebraic law beyond the definitions of the ideal operations is used; the word `0x00000000` that starts a
  degree sum is the extended real `0`.
-/
import proofs.«116271_j23089744183324_2_alg».proof.Proof.Gen.ReferenceIdeal.Read
import proofs.«116271_j23089744183324_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-! ## The composed index maps of the layout operations, at an index given by its coordinates -/

theorem idx_v0 (p : Fin 8192) (k : Fin 4096) : idx_main_v0 (ix1 p) k = ix2 p k :=
  funext fun a => Fin.ext (by match a with | ⟨0, _⟩ => rfl | ⟨1, _⟩ => rfl)

theorem idx_v1 (q : Fin 4096) (k : Fin 8192) : idx_main_v1 (ix1 q) k = ix2 k q :=
  funext fun a => Fin.ext (by match a with | ⟨0, _⟩ => rfl | ⟨1, _⟩ => rfl)

theorem idx_v16 (p : Fin 8192) (k : Fin 256) : idx_main_v15 (idx_main_v16 (ix2 p k)) = ix1 p :=
  funext fun a => Fin.ext (by match a with | ⟨0, _⟩ => rfl)

theorem lidx_v19 (j : Fin 4096) (k : Fin 256) (r : Fin 8192) :
    idx_main_v18 (lidx_main_v19 (ix2 j k) r) = ix2 r j :=
  funext fun a => Fin.ext (by match a with | ⟨0, _⟩ => rfl | ⟨1, _⟩ => rfl)

theorem ridx_v19 (j : Fin 4096) (k : Fin 256) (r : Fin 8192) : ridx_main_v19 (ix2 j k) r = ix2 r k :=
  funext fun a => Fin.ext (by match a with | ⟨0, _⟩ => rfl | ⟨1, _⟩ => rfl)

theorem idx_v21 (j : Fin 4096) (k : Fin 256) : idx_main_v20 (idx_main_v21 (ix2 j k)) = ix1 j :=
  funext fun a => Fin.ext (by match a with | ⟨0, _⟩ => rfl)

theorem lidx_v23 (p : Fin 8192) (k : Fin 256) (r : Fin 4096) : lidx_main_v23 (ix2 p k) r = ix2 p r :=
  funext fun a => Fin.ext (by match a with | ⟨0, _⟩ => rfl | ⟨1, _⟩ => rfl)

theorem ridx_v23 (p : Fin 8192) (k : Fin 256) (r : Fin 4096) : ridx_main_v23 (ix2 p k) r = ix2 r k :=
  funext fun a => Fin.ext (by match a with | ⟨0, _⟩ => rfl | ⟨1, _⟩ => rfl)

theorem idx_v25 (p : Fin 8192) (k : Fin 256) : idx_main_v24 (idx_main_v25 (ix2 p k)) = ix1 p :=
  funext fun a => Fin.ext (by match a with | ⟨0, _⟩ => rfl)

theorem lidx_v28 (p : Fin 8192) (d : Fin 256) (r : Fin 256) : lidx_main_v28 (ix2 p d) r = ix2 p r :=
  funext fun a => Fin.ext (by match a with | ⟨0, _⟩ => rfl | ⟨1, _⟩ => rfl)

theorem ridx_v28 (p : Fin 8192) (d : Fin 256) (r : Fin 256) :
    idx_main_v27 (ridx_main_v28 (ix2 p d) r) = ix2 d r :=
  funext fun a => Fin.ext (by match a with | ⟨0, _⟩ => rfl | ⟨1, _⟩ => rfl)

theorem idx_v30 (p : Fin 8192) (d : Fin 256) : idx_main_v29 (idx_main_v30 (ix2 p d)) = ix1 d :=
  funext fun a => Fin.ext (by match a with | ⟨0, _⟩ => rfl)

/-! ## The stages -/

variable (x0 : FVec Ideal ⟨2, ![8192, 256]⟩ .f32) (x1 : FVec Ideal ⟨2, ![8192, 4096]⟩ .f32)
  (x2 : FVec Ideal ⟨2, ![256, 256]⟩ .f32) (x3 : FVec Ideal ⟨1, ![256]⟩ .f32)

/-- The first reduction is the row degree. -/
theorem degN_eq (p : Fin 8192) : val_main_v0 (F := Ideal) x1 (ix1 p) = Cert.Spec.degN x1 p := by
  rw [val_main_v0_apply]
  unfold Cert.Spec.degN
  exact congrArg₂ (· + ·) ((val_main_cst_apply _).trans Ideal.ofBits_zero_f32)
    (Finset.sum_congr rfl fun k _ => congrArg x1 (idx_v0 p k))

/-- The second reduction is the column degree. -/
theorem degE_eq (q : Fin 4096) : val_main_v1 (F := Ideal) x1 (ix1 q) = Cert.Spec.degE x1 q := by
  rw [val_main_v1_apply]
  unfold Cert.Spec.degE
  exact congrArg₂ (· + ·) ((val_main_cst_0_apply _).trans Ideal.ofBits_zero_f32)
    (Finset.sum_congr rfl fun k _ => congrArg x1 (idx_v1 q k))

/-- The row scale: the comparison, the maximum, the inverse square root and the selection, at the row degree. -/
theorem dn_eq (p : Fin 8192) : val_main_v7 (F := Ideal) x1 (ix1 p) = Cert.Spec.dn x1 p := by
  rw [val_main_v7_apply, val_main_v3_apply, val_main_v6_apply, val_main_v5_apply, val_main_v2_apply,
    val_main_v4_apply, val_main_call0_v1_apply, val_main_call0_v0_apply, val_main_cst_1_apply,
    val_main_cst_2_apply, val_main_cst_3_apply, degN_eq]
  rfl

/-- The column scale: the comparison, the maximum, the quotient of one and the selection, at the column degree. -/
theorem de_eq (q : Fin 4096) : val_main_v14 (F := Ideal) x1 (ix1 q) = Cert.Spec.de x1 q := by
  rw [val_main_v14_apply, val_main_v9_apply, val_main_v13_apply, val_main_v12_apply, val_main_v11_apply,
    val_main_v8_apply, val_main_v10_apply, val_main_call1_v1_apply, val_main_call1_v0_apply,
    val_main_cst_4_apply, val_main_cst_5_apply, val_main_cst_6_apply, val_main_cst_7_apply, degE_eq]
  rfl

/-- The row-scaled features. -/
theorem xs_eq (p : Fin 8192) (k : Fin 256) :
    val_main_v17 (F := Ideal) x0 x1 (ix2 p k) = Cert.Spec.xs x0 x1 p k := by
  rw [val_main_v17_apply, val_main_v16_apply, val_main_v15_apply, idx_v16, dn_eq]
  rfl

/-- The edge features: the contraction over the rows, scaled by the column scale. -/
theorem e_eq (j : Fin 4096) (k : Fin 256) :
    val_main_v22 (F := Ideal) x0 x1 (ix2 j k) = Cert.Spec.e x0 x1 j k := by
  rw [val_main_v22_apply, val_main_v19_apply, val_main_v21_apply, val_main_v20_apply, idx_v21, de_eq,
    Ideal.mulf_def]
  unfold Cert.Spec.e
  refine congrArg₂ (· * ·) (Finset.sum_congr rfl fun r _ => ?_) rfl
  rw [val_main_v18_apply, lidx_v19, ridx_v19, xs_eq]

/-- The node features: the contraction over the columns, scaled by the row scale. -/
theorem xn_eq (p : Fin 8192) (k : Fin 256) :
    val_main_v26 (F := Ideal) x0 x1 (ix2 p k) = Cert.Spec.xn x0 x1 p k := by
  rw [val_main_v26_apply, val_main_v23_apply, val_main_v25_apply, val_main_v24_apply, idx_v25, dn_eq,
    Ideal.mulf_def]
  unfold Cert.Spec.xn
  refine congrArg₂ (· * ·) (Finset.sum_congr rfl fun r _ => ?_) rfl
  rw [lidx_v23, ridx_v23, e_eq]

/-- The result at an index given by its coordinates. -/
theorem out_eq (p : Fin 8192) (d : Fin 256) :
    val_main_v31 (F := Ideal) x0 x1 x2 x3 (ix2 p d) = Cert.Spec.out x0 x1 x2 x3 p d := by
  rw [val_main_v31_apply, val_main_v28_apply, val_main_v30_apply, val_main_v29_apply, idx_v30, Ideal.addf_def]
  unfold Cert.Spec.out
  refine congrArg₂ (· + ·) (Finset.sum_congr rfl fun r _ => ?_) rfl
  rw [val_main_v27_apply, lidx_v28, ridx_v28, xn_eq]

/-- The reference's result is the specification, index by index. -/
theorem main_is_spec :
    val_main_v31 (F := Ideal) x0 x1 x2 x3 = fun i => Cert.Spec.out x0 x1 x2 x3 (i 0) (i 1) := by
  funext i
  obtain ⟨p, d, rfl⟩ : ∃ (p : Fin 8192) (d : Fin 256), i = ix2 p d := ⟨i 0, i 1, eq_ix2 i⟩
  exact out_eq x0 x1 x2 x3 p d

end Cert.ReferenceIdeal.RefValue

end
-- ==== Proof.lean ====
/-
  The five claims. Each kernel program runs to the end with its arguments unchanged because its three regions and the
  host operations between them compose (the same argument at the word level and at the ideal instance); the reference
  because it is a straight line of host operations. The idealized kernel is the kernel's own text, so nothing is to be
  preserved. At the ideal instance the kernel's result array is, index by index, the reference's: both are
  ((H · ((Hᵀ · (x ⊙ dn)) ⊙ de)) ⊙ dn) · Wᵀ + b with dn and de the reciprocal square root and the reciprocal of the row
  and column sums of H clamped below (zero where a sum is not positive); the kernel takes the row-and-column sums and
  the two contractions block by block, and on the extended reals a finite sum may be regrouped freely.
-/
import proofs.«116271_j23089744183324_2_alg».proof.Defs
import proofs.«116271_j23089744183324_2_alg».proof.Proof.Gen.Kernel
import proofs.«116271_j23089744183324_2_alg».proof.Proof.Gen.KernelIdeal
import proofs.«116271_j23089744183324_2_alg».proof.Proof.Gen.ReferenceIdeal
import proofs.«116271_j23089744183324_2_alg».proof.Proof.Gen.ReferenceIdeal.Run
import proofs.«116271_j23089744183324_2_alg».proof.Proof.Gen.ReferenceIdeal.Read
import proofs.«116271_j23089744183324_2_alg».proof.Proof.Gen.Pre_finite_inputs
import proofs.«116271_j23089744183324_2_alg».proof.Proof.KRun
import proofs.«116271_j23089744183324_2_alg».proof.Proof.Bridge
import proofs.«116271_j23089744183324_2_alg».proof.Proof.RefIsSpec
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Hand.W9 m c (Proc.devRef .tc Cert.KernelIdeal.main_v27), ?_, ?_⟩
  · exact (θ_run Cert.KernelIdeal.defs _ _).mono (fun _ h c =>
      ⟨h c _ (Cert.KernelIdeal.Hand.mem_uc Cert.KernelIdeal.main_v27 (by decide)),
       (h c _ (Cert.KernelIdeal.Hand.mem_uc Cert.KernelIdeal.main_arg0 (by decide))).trans (Cert.KernelIdeal.Hand.W9_main_arg0 m c),
       (h c _ (Cert.KernelIdeal.Hand.mem_uc Cert.KernelIdeal.main_arg1 (by decide))).trans (Cert.KernelIdeal.Hand.W9_main_arg1 m c),
       (h c _ (Cert.KernelIdeal.Hand.mem_uc Cert.KernelIdeal.main_arg2 (by decide))).trans (Cert.KernelIdeal.Hand.W9_main_arg2 m c),
       (h c _ (Cert.KernelIdeal.Hand.mem_uc Cert.KernelIdeal.main_arg3 (by decide))).trans (Cert.KernelIdeal.Hand.W9_main_arg3 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact ((Cert.ReferenceIdeal.Read.val_main_v31_eq _ _ _ _).trans (Cert.ReferenceIdeal.RefValue.main_is_spec _ _ _ _)).trans
      (Cert.KernelIdeal.Hand.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
